-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v97)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v97) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v151) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x1x4096 : Shape := ⟨3, ![1, 1, 4096]⟩
abbrev S1x64x2 : Shape := ⟨3, ![1, 64, 2]⟩
abbrev S12288x4096 : Shape := ⟨2, ![12288, 4096]⟩
abbrev S4096x4096 : Shape := ⟨2, ![4096, 4096]⟩
abbrev S11008x4096 : Shape := ⟨2, ![11008, 4096]⟩
abbrev S4096x11008 : Shape := ⟨2, ![4096, 11008]⟩
abbrev S4096 : Shape := ⟨1, ![4096]⟩
abbrev S1x1x1x1 : Shape := ⟨4, ![1, 1, 1, 1]⟩
abbrev S_ : Shape := ⟨0, ![]⟩

class Facts : Prop where
  bcast_S_S1x1x4096 : S_.BroadcastsInDim S1x1x4096 (![] : Fin 0 → Fin S1x1x4096.rank)
  reducesTo_S1x1x4096_S_d0_1_2 : S1x1x4096.ReducesTo [0, 1, 2] S_
  h_S_ : 0 < S_.numel
  bcast_S_S1x64x2 : S_.BroadcastsInDim S1x64x2 (![] : Fin 0 → Fin S1x64x2.rank)
  reducesTo_S1x64x2_S_d0_1_2 : S1x64x2.ReducesTo [0, 1, 2] S_
  bcast_S_S12288x4096 : S_.BroadcastsInDim S12288x4096 (![] : Fin 0 → Fin S12288x4096.rank)
  reducesTo_S12288x4096_S_d0_1 : S12288x4096.ReducesTo [0, 1] S_
  bcast_S_S4096x4096 : S_.BroadcastsInDim S4096x4096 (![] : Fin 0 → Fin S4096x4096.rank)
  reducesTo_S4096x4096_S_d0_1 : S4096x4096.ReducesTo [0, 1] S_
  bcast_S_S11008x4096 : S_.BroadcastsInDim S11008x4096 (![] : Fin 0 → Fin S11008x4096.rank)
  reducesTo_S11008x4096_S_d0_1 : S11008x4096.ReducesTo [0, 1] S_
  bcast_S_S4096x11008 : S_.BroadcastsInDim S4096x11008 (![] : Fin 0 → Fin S4096x11008.rank)
  reducesTo_S4096x11008_S_d0_1 : S4096x11008.ReducesTo [0, 1] S_
  bcast_S_S4096 : S_.BroadcastsInDim S4096 (![] : Fin 0 → Fin S4096.rank)
  reducesTo_S4096_S_d0 : S4096.ReducesTo [0] S_

variable [Facts]

def fn_part2 {F : FTy → Type} [FloatOps F] (main_arg7 : FVec F S4096 .f32) (main_arg8 : FVec F S4096 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  let main_v39 : FVec F S4096 .f32 := Host.absf main_arg8
  let main_cst_14 : FVec F S_ .f32 := constant S_ .f32 0x7F800000#32
  let main_v40 : FVec F S4096 .f32 := broadcastInDim S4096 ![] bcast_S_S4096 main_cst_14
  let main_v41 : IVec S4096 1 := cmpf .olt main_v39 main_v40
  let main_c_15 : IVec S_ 1 := constantI S_ 1 1#1
  let main_v42 : IVec S_ 1 := (fun x v => Host.reduce IntOp.andi x v reducesTo_S4096_S_d0 h_S_) main_v41 main_c_15
  let main_v43 : IVec S_ 1 := andi main_v38 main_v42
  main_v43

def fn_part1 {F : FTy → Type} [FloatOps F] (main_arg4 : FVec F S11008x4096 .f32) (main_arg5 : FVec F S4096x11008 .f32) (main_arg6 : FVec F S11008x4096 .f32) (main_arg7 : FVec F S4096 .f32) (main_arg8 : FVec F S4096 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S11008x4096 .f32 := Host.absf main_arg4
  let main_cst_6 : FVec F S_ .f32 := constant S_ .f32 0x7F800000#32
  let main_v20 : FVec F S11008x4096 .f32 := broadcastInDim S11008x4096 ![] bcast_S_S11008x4096 main_cst_6
  let main_v21 : IVec S11008x4096 1 := cmpf .olt main_v19 main_v20
  let main_c_7 : IVec S_ 1 := constantI S_ 1 1#1
  let main_v22 : IVec S_ 1 := (fun x v => Host.reduce IntOp.andi x v reducesTo_S11008x4096_S_d0_1 h_S_) main_v21 main_c_7
  let main_v23 : IVec S_ 1 := andi main_v18 main_v22
  let main_v24 : FVec F S4096x11008 .f32 := Host.absf main_arg5
  let main_cst_8 : FVec F S_ .f32 := constant S_ .f32 0x7F800000#32
  let main_v25 : FVec F S4096x11008 .f32 := broadcastInDim S4096x11008 ![] bcast_S_S4096x11008 main_cst_8
  let main_v26 : IVec S4096x11008 1 := cmpf .olt main_v24 main_v25
  let main_c_9 : IVec S_ 1 := constantI S_ 1 1#1
  let main_v27 : IVec S_ 1 := (fun x v => Host.reduce IntOp.andi x v reducesTo_S4096x11008_S_d0_1 h_S_) main_v26 main_c_9
  let main_v28 : IVec S_ 1 := andi main_v23 main_v27
  let main_v29 : FVec F S11008x4096 .f32 := Host.absf main_arg6
  let main_cst_10 : FVec F S_ .f32 := constant S_ .f32 0x7F800000#32
  let main_v30 : FVec F S11008x4096 .f32 := broadcastInDim S11008x4096 ![] bcast_S_S11008x4096 main_cst_10
  let main_v31 : IVec S11008x4096 1 := cmpf .olt main_v29 main_v30
  let main_c_11 : IVec S_ 1 := constantI S_ 1 1#1
  let main_v32 : IVec S_ 1 := (fun x v => Host.reduce IntOp.andi x v reducesTo_S11008x4096_S_d0_1 h_S_) main_v31 main_c_11
  let main_v33 : IVec S_ 1 := andi main_v28 main_v32
  fn_part2 (F := F) main_arg7 main_arg8 main_v33

def fn {F : FTy → Type} [FloatOps F] (main_arg0 : FVec F S1x1x4096 .f32) (main_arg1 : FVec F S1x64x2 .f32) (main_arg2 : FVec F S12288x4096 .f32) (main_arg3 : FVec F S4096x4096 .f32) (main_arg4 : FVec F S11008x4096 .f32) (main_arg5 : FVec F S4096x11008 .f32) (main_arg6 : FVec F S11008x4096 .f32) (main_arg7 : FVec F S4096 .f32) (main_arg8 : FVec F S4096 .f32) (main_arg9 : IVec S1x1x1x1 1) : IVec S_ 1 :=
  let main_v0 : FVec F S1x1x4096 .f32 := Host.absf main_arg0
  let main_cst : FVec F S_ .f32 := constant S_ .f32 0x7F800000#32
  let main_v1 : FVec F S1x1x4096 .f32 := broadcastInDim S1x1x4096 ![] bcast_S_S1x1x4096 main_cst
  let main_v2 : IVec S1x1x4096 1 := cmpf .olt main_v0 main_v1
  let main_c : IVec S_ 1 := constantI S_ 1 1#1
  let main_v3 : IVec S_ 1 := (fun x v => Host.reduce IntOp.andi x v reducesTo_S1x1x4096_S_d0_1_2 h_S_) main_v2 main_c
  let main_v4 : FVec F S1x64x2 .f32 := Host.absf main_arg1
  let main_cst_0 : FVec F S_ .f32 := constant S_ .f32 0x7F800000#32
  let main_v5 : FVec F S1x64x2 .f32 := broadcastInDim S1x64x2 ![] bcast_S_S1x64x2 main_cst_0
  let main_v6 : IVec S1x64x2 1 := cmpf .olt main_v4 main_v5
  let main_c_1 : IVec S_ 1 := constantI S_ 1 1#1
  let main_v7 : IVec S_ 1 := (fun x v => Host.reduce IntOp.andi x v reducesTo_S1x64x2_S_d0_1_2 h_S_) main_v6 main_c_1
  let main_v8 : IVec S_ 1 := andi main_v3 main_v7
  let main_v9 : FVec F S12288x4096 .f32 := Host.absf main_arg2
  let main_cst_2 : FVec F S_ .f32 := constant S_ .f32 0x7F800000#32
  let main_v10 : FVec F S12288x4096 .f32 := broadcastInDim S12288x4096 ![] bcast_S_S12288x4096 main_cst_2
  let main_v11 : IVec S12288x4096 1 := cmpf .olt main_v9 main_v10
  let main_c_3 : IVec S_ 1 := constantI S_ 1 1#1
  let main_v12 : IVec S_ 1 := (fun x v => Host.reduce IntOp.andi x v reducesTo_S12288x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_arg6 main_arg7 main_arg8 main_v13 main_v16
-- ==== Kernel.lean ====
abbrev S1x1x4096 : Shape := ⟨3, ![1, 1, 4096]⟩
abbrev S1x64x2 : Shape := ⟨3, ![1, 64, 2]⟩
abbrev S12288x4096 : Shape := ⟨2, ![12288, 4096]⟩
abbrev S4096x4096 : Shape := ⟨2, ![4096, 4096]⟩
abbrev S11008x4096 : Shape := ⟨2, ![11008, 4096]⟩
abbrev S4096x11008 : Shape := ⟨2, ![4096, 11008]⟩
abbrev S4096 : Shape := ⟨1, ![4096]⟩
abbrev S1x1x1x1 : Shape := ⟨4, ![1, 1, 1, 1]⟩
abbrev S1x4096 : Shape := ⟨2, ![1, 4096]⟩
abbrev S1x12288 : Shape := ⟨2, ![1, 12288]⟩
abbrev S512x4096 : Shape := ⟨2, ![512, 4096]⟩
abbrev S1x512 : Shape := ⟨2, ![1, 512]⟩
abbrev S1 : Shape := ⟨1, ![1]⟩
abbrev S1x1 : Shape := ⟨2, ![1, 1]⟩
abbrev S1x1x32x128 : Shape := ⟨4, ![1, 1, 32, 128]⟩
abbrev S1x1x32x64x2 : Shape := ⟨5, ![1, 1, 32, 64, 2]⟩
abbrev S1x1x1x64x2 : Shape := ⟨5, ![1, 1, 1, 64, 2]⟩
abbrev S1x1x32x64x1 : Shape := ⟨5, ![1, 1, 32, 64, 1]⟩
abbrev S1x1x32x64 : Shape := ⟨4, ![1, 1, 32, 64]⟩
abbrev S1x1x1x64x1 : Shape := ⟨5, ![1, 1, 1, 64, 1]⟩
abbrev S1x1x1x64 : Shape := ⟨4, ![1, 1, 1, 64]⟩
abbrev S1x32x1x128 : Shape := ⟨4, ![1, 32, 1, 128]⟩
abbrev S1x32x1x1 : Shape := ⟨4, ![1, 32, 1, 1]⟩
abbrev S_ : Shape := ⟨0, ![]⟩
abbrev S1x32x1 : Shape := ⟨3, ![1, 32, 1]⟩
abbrev S1x11008 : Shape := ⟨2, ![1, 11008]⟩
abbrev S256x4096 : Shape := ⟨2, ![256, 4096]⟩
abbrev S1x256 : Shape := ⟨2, ![1, 256]⟩
abbrev S256x11008 : Shape := ⟨2, ![256, 11008]⟩

abbrev nBuf : Space → Nat
  | .hbm => 115
  | .vmem => 28
  | .smem => 0
  | _ => 0

abbrev bufTy : (tb : Table) → Fin (tcTables nBuf tb) → BufTy
  | .hbm, ⟨0, _⟩ => ⟨S1x1x4096, .f32⟩
  | .hbm, ⟨1, _⟩ => ⟨S1x64x2, .f32⟩
  | .hbm, ⟨2, _⟩ => ⟨S12288x4096, .f32⟩
  | .hbm, ⟨3, _⟩ => ⟨S4096x4096, .f32⟩
  | .hbm, ⟨4, _⟩ => ⟨S11008x4096, .f32⟩
  | .hbm, ⟨5, _⟩ => ⟨S4096x11008, .f32⟩
  | .hbm, ⟨6, _⟩ => ⟨S11008x4096, .f32⟩
  | .hbm, ⟨7, _⟩ => ⟨S4096, .f32⟩
  | .hbm, ⟨8, _⟩ => ⟨S4096, .f32⟩
  | .hbm, ⟨9, _⟩ => ⟨S1x1x1x1, .i1⟩
  | .hbm, ⟨10, _⟩ => ⟨S1x4096, .f32⟩
  | .hbm, ⟨11, _⟩ => ⟨S1x4096, .f32⟩
  | .hbm, ⟨12, _⟩ => ⟨S1x4096, .f32⟩
  | .hbm, ⟨13, _⟩ => ⟨S1x12288, .f32⟩
  | .hbm, ⟨14, _⟩ => ⟨S1x4096, .f32⟩
  | .hbm, ⟨15, _⟩ => ⟨S1x4096, .f32⟩
  | .hbm, ⟨16, _⟩ => ⟨S1x4096, .f32⟩
  | .hbm, ⟨17, _⟩ => ⟨S1x1x32x128, .f32⟩
  | .hbm, ⟨18, _⟩ => ⟨S1x1x32x128, .f32⟩
  | .hbm, ⟨19, _⟩ => ⟨S1x1x32x128, .f32⟩
  | .hbm, ⟨20, _⟩ => ⟨S1x1x32x64x2, .f32⟩
  | .hbm, ⟨21, _⟩ => ⟨S1x1x1x64x2, .f32⟩
  | .hbm, ⟨22, _⟩ => ⟨S1x1x32x64x1, .f32⟩
  | .hbm, ⟨23, _⟩ => ⟨S1x1x32x64, .f32⟩
  | .hbm, ⟨24, _⟩ => ⟨S1x1x1x64x1, .f32⟩
  | .hbm, ⟨25, _⟩ => ⟨S1x1x1x64, .f32⟩
  | .hbm, ⟨26, _⟩ => ⟨S1x1x32x64, .f32⟩
  | .hbm, ⟨27, _⟩ => ⟨S1x1x32x64, .f32⟩
  | .hbm, ⟨28, _⟩ => ⟨S1x1x32x64x1, .f32⟩
  | .hbm, ⟨29, _⟩ => ⟨S1x1x32x64, .f32⟩
  | .hbm, ⟨30, _⟩ => ⟨S1x1x1x64x1, .f32⟩
  | .hbm, ⟨31, _⟩ => ⟨S1x1x1x64, .f32⟩
  | .hbm, ⟨32, _⟩ => ⟨S1x1x32x64, .f32⟩
  | .hbm, ⟨33, _⟩ => ⟨S1x1x32x64, .f32⟩
  | .hbm, ⟨34, _⟩ => ⟨S1x1x32x64, .f32⟩
  | .hbm, ⟨35, _⟩ => ⟨S1x1x32x64x1, .f32⟩
  | .hbm, ⟨36, _⟩ => ⟨S1x1x32x64, .f32⟩
  | .hbm, ⟨37, _⟩ => ⟨S1x1x1x64x1, .f32⟩
  | .hbm, ⟨38, _⟩ => ⟨S1x1x1x64, .f32⟩
  | .hbm, ⟨39, _⟩ => ⟨S1x1x32x64, .f32⟩
  | .hbm, ⟨40, _⟩ => ⟨S1x1x32x64, .f32⟩
  | .hbm, ⟨41, _⟩ => ⟨S1x1x32x64x1, .f32⟩
  | .hbm, ⟨42, _⟩ => ⟨S1x1x32x64, .f32⟩
  | .hbm, ⟨43, _⟩ => ⟨S1x1x1x64x1, .f32⟩
  | .hbm, ⟨44, _⟩ => ⟨S1x1x1x64, .f32⟩
  | .hbm, ⟨45, _⟩ => ⟨S1x1x32x64, .f32⟩
  | .hbm, ⟨46, _⟩ => ⟨S1x1x32x64, .f32⟩
  | .hbm, ⟨47, _⟩ => ⟨S1x1x32x64, .f32⟩
  | .hbm, ⟨48, _⟩ => ⟨S1x1x32x64x1, .f32⟩
  | .hbm, ⟨49, _⟩ => ⟨S1x1x32x64x1, .f32⟩
  | .hbm, ⟨50, _⟩ => ⟨S1x1x32x64x2, .f32⟩
  | .hbm, ⟨51, _⟩ => ⟨S1x1x32x128, .f32⟩
  | .hbm, ⟨52, _⟩ => ⟨S1x32x1x128, .f32⟩
  | .hbm, ⟨53, _⟩ => ⟨S1x1x32x64x2, .f32⟩
  | .hbm, ⟨54, _⟩ => ⟨S1x1x1x64x2, .f32⟩
  | .hbm, ⟨55, _⟩ => ⟨S1x1x32x64x1, .f32⟩
  | .hbm, ⟨56, _⟩ => ⟨S1x1x32x64, .f32⟩
  | .hbm, ⟨57, _⟩ => ⟨S1x1x1x64x1, .f32⟩
  | .hbm, ⟨58, _⟩ => ⟨S1x1x1x64, .f32⟩
  | .hbm, ⟨59, _⟩ => ⟨S1x1x32x64, .f32⟩
  | .hbm, ⟨60, _⟩ => ⟨S1x1x32x64, .f32⟩
  | .hbm, ⟨61, _⟩ => ⟨S1x1x32x64x1, .f32⟩
  | .hbm, ⟨62, _⟩ => ⟨S1x1x32x64, .f32⟩
  | .hbm, ⟨63, _⟩ => ⟨S1x1x1x64x1, .f32⟩
  | .hbm, ⟨64, _⟩ => ⟨S1x1x1x64, .f32⟩
  | .hbm, ⟨65, _⟩ => ⟨S1x1x32x64, .f32⟩
  | .hbm, ⟨66, _⟩ => ⟨S1x1x32x64, .f32⟩
  | .hbm, ⟨67, _⟩ => ⟨S1x1x32x64, .f32⟩
  | .hbm, ⟨68, _⟩ => ⟨S1x1x32x64x1, .f32⟩
  | .hbm, ⟨69, _⟩ => ⟨S1x1x32x64, .f32⟩
  | .hbm, ⟨70, _⟩ => ⟨S1x1x1x64x1, .f32⟩
  | .hbm, ⟨71, _⟩ => ⟨S1x1x1x64, .f32⟩
  | .hbm, ⟨72, _⟩ => ⟨S1x1x32x64, .f32⟩
  | .hbm, ⟨73, _⟩ => ⟨S1x1x32x64, .f32⟩
  | .hbm, ⟨74, _⟩ => ⟨S1x1x32x64x1, .f32⟩
  | .hbm, ⟨75, _⟩ => ⟨S1x1x32x64, .f32⟩
  | .hbm, ⟨76, _⟩ => ⟨S1x1x1x64x1, .f32⟩
  | .hbm, ⟨77, _⟩ => ⟨S1x1x1x64, .f32⟩
  | .hbm, ⟨78, _⟩ => ⟨S1x1x32x64, .f32⟩
  | .hbm, ⟨79, _⟩ => ⟨S1x1x32x64, .f32⟩
  | .hbm, ⟨80, _⟩ => ⟨S1x1x32x64, .f32⟩
  | .hbm, ⟨81, _⟩ => ⟨S1x1x32x64x1, .f32⟩
  | .hbm, ⟨82, _⟩ => ⟨S1x1x32x64x1, .f32⟩
  | .hbm, ⟨83, _⟩ => ⟨S1x1x32x64x2, .f32⟩
  | .hbm, ⟨84, _⟩ => ⟨S1x1x32x128, .f32⟩
  | .hbm, ⟨85, _⟩ => ⟨S1x32x1x128, .f32⟩
  | .hbm, ⟨86, _⟩ => ⟨S1x32x1x128, .f32⟩
  | .hbm, ⟨87, _⟩ => ⟨S1x32x1x1, .f32⟩
  | .hbm, ⟨88, _⟩ => ⟨S_, .f32⟩
  | .hbm, ⟨89, _⟩ => ⟨S1x32x1x1, .f32⟩
  | .hbm, ⟨90, _⟩ => ⟨S1x32x1x1, .f32⟩
  | .hbm, ⟨91, _⟩ => ⟨S_, .f32⟩
  | .hbm, ⟨92, _⟩ => ⟨S1x32x1x1, .i1⟩
  | .hbm, ⟨93, _⟩ => ⟨S1x32x1x1, .f32⟩
  | .hbm, ⟨94, _⟩ => ⟨S1x32x1x1, .f32⟩
  | .hbm, ⟨95, _⟩ => ⟨S_, .f32⟩
  | .hbm, ⟨96, _⟩ => ⟨S1x32x1, .f32⟩
  | .hbm, ⟨97, _⟩ => ⟨S_, .f32⟩
  | .hbm, ⟨98, _⟩ => ⟨S1x32x1, .f32⟩
  | .hbm, ⟨99, _⟩ => ⟨S1x32x1, .f32⟩
  | .hbm, ⟨100, _⟩ => ⟨S1x32x1x1, .f32⟩
  | .hbm, ⟨101, _⟩ => ⟨S1x32x1x1, .f32⟩
  | .hbm, ⟨102, _⟩ => ⟨S1x32x1x1, .f32⟩
  | .hbm, ⟨103, _⟩ => ⟨S_, .f32⟩
  | .hbm, ⟨104, _⟩ => ⟨S1x32x1, .f32⟩
  | .hbm, ⟨105, _⟩ => ⟨S1x32x1x1, .f32⟩
  | .hbm, ⟨106, _⟩ => ⟨S1x32x1x1, .f32⟩
  | .hbm, ⟨107, _⟩ => ⟨S1x32x1x128, .f32⟩
  | .hbm, ⟨108, _⟩ => ⟨S1x1x32x128, .f32⟩
  | .hbm, ⟨109, _⟩ => ⟨S1x1x4096, .f32⟩
  | .hbm, ⟨110, _⟩ => ⟨S1x4096, .f32⟩
  | .hbm, ⟨111, _⟩ => ⟨S1x4096, .f32⟩
  | .hbm, ⟨112, _⟩ => ⟨S1x11008, .f32⟩
  | .hbm, ⟨113, _⟩ => ⟨S1x4096, .f32⟩
  | .hbm, ⟨114, _⟩ => ⟨S1x1x4096, .f32⟩
  | .local _ .vmem, ⟨0, _⟩ => ⟨S1x4096, .f32⟩
  | .local _ .vmem, ⟨1, _⟩ => ⟨S1x4096, .f32⟩
  | .local _ .vmem, ⟨2, _⟩ => ⟨S512x4096, .f32⟩
  | .local _ .vmem, ⟨3, _⟩ => ⟨S512x4096, .f32⟩
  | .local _ .vmem, ⟨4, _⟩ => ⟨S1x512, .f32⟩
  | .local _ .vmem, ⟨5, _⟩ => ⟨S1x512, .f32⟩
  | .local _ .vmem, ⟨6, _⟩ => ⟨S1x4096, .f32⟩
  | .local _ .vmem, ⟨7, _⟩ => ⟨S1x512, .f32⟩
  | .local _ .vmem, ⟨8, _⟩ => ⟨S1x512, .f32⟩
  | .local _ .vmem, ⟨9, _⟩ => ⟨S512x4096, .f32⟩
  | .local _ .vmem, ⟨10, _⟩ => ⟨S512x4096, .f32⟩
  | .local _ .vmem, ⟨11, _⟩ => ⟨S1x512, .f32⟩
  | .local _ .vmem, ⟨12, _⟩ => ⟨S1x512, .f32⟩
  | .local _ .vmem, ⟨13, _⟩ => ⟨S1x4096, .f32⟩
  | .local _ .vmem, ⟨14, _⟩ => ⟨S1x4096, .f32⟩
  | .local _ .vmem, ⟨15, _⟩ => ⟨S256x4096, .f32⟩
  | .local _ .vmem, ⟨16, _⟩ => ⟨S256x4096, .f32⟩
  | .local _ .vmem, ⟨17, _⟩ => ⟨S256x4096, .f32⟩
  | .local _ .vmem, ⟨18, _⟩ => ⟨S256x4096, .f32⟩
  | .local _ .vmem, ⟨19, _⟩ => ⟨S1x256, .f32⟩
  | .local _ .vmem, ⟨20, _⟩ => ⟨S1x256, .f32⟩
  | .local _ .vmem, ⟨21, _⟩ => ⟨S1x11008, .f32⟩
  | .local _ .vmem, ⟨22, _⟩ => ⟨S1x256, .f32⟩
  | .local _ .vmem, ⟨23, _⟩ => ⟨S1x256, .f32⟩
  | .local _ .vmem, ⟨24, _⟩ => ⟨S256x11008, .f32⟩
  | .local _ .vmem, ⟨25, _⟩ => ⟨S256x11008, .f32⟩
  | .local _ .vmem, ⟨26, _⟩ => ⟨S1x256, .f32⟩
  | .local _ .vmem, ⟨27, _⟩ => ⟨S1x256, .f32⟩
  | _, _ => ⟨S1x1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_cst : Ref sig .tc := ⟨.hbm, 88, rfl⟩
abbrev main_v78 : Ref sig .tc := ⟨.hbm, 89, rfl⟩
abbrev main_v79 : Ref sig .tc := ⟨.hbm, 90, rfl⟩
abbrev main_cst_0 : Ref sig .tc := ⟨.hbm, 91, rfl⟩
abbrev main_call0_v0 : Ref sig .tc := ⟨.hbm, 92, rfl⟩
abbrev main_call0_v1 : Ref sig .tc := ⟨.hbm, 93, rfl⟩
abbrev main_v80 : Ref sig .tc := ⟨.hbm, 94, rfl⟩
abbrev main_cst_1 : Ref sig .tc := ⟨.hbm, 95, rfl⟩
abbrev main_v81 : Ref sig .tc := ⟨.hbm, 96, rfl⟩
abbrev main_cst_2 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_cst_3 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg3_1 : Ref sig .tc := ⟨.vmem, 18, rfl⟩
abbrev cc2_stg4_0 : Ref sig .tc := ⟨.vmem, 19, rfl⟩
abbrev cc2_stg4_1 : Ref sig .tc := ⟨.vmem, 20, rfl⟩
abbrev cc3_stg0_0 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc3_stg3_0 : Ref sig .tc := ⟨.vmem, 26, rfl⟩
abbrev cc3_stg3_1 : Ref sig .tc := ⟨.vmem, 27, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem1_0 : DmaSem sig := 14
abbrev cc2_sem2_0 : DmaSem sig := 15
abbrev cc2_sem2_1 : DmaSem sig := 16
abbrev cc2_sem3_0 : DmaSem sig := 17
abbrev cc2_sem3_1 : DmaSem sig := 18
abbrev cc2_sem4_0 : DmaSem sig := 19
abbrev cc2_sem4_1 : DmaSem sig := 20
abbrev cc3_sem0_0 : DmaSem sig := 21
abbrev cc3_sem1_0 : DmaSem sig := 22
abbrev cc3_sem1_1 : DmaSem sig := 23
abbrev cc3_sem2_0 : DmaSem sig := 24
abbrev cc3_sem2_1 : DmaSem sig := 25
abbrev cc3_sem3_0 : DmaSem sig := 26
abbrev cc3_sem3_1 : DmaSem sig := 27

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1x4096 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![43], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S1x4096 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S1x4096 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S256x4096 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S256x4096 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 1 → Memref sig .tc .vmem S1x11008 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .vmem S1x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S256x11008 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  shapeCasts_S1x1x4096_S1x4096 : S1x1x4096.ShapeCasts S1x4096
  shapeCasts_S4096_S1x4096 : S4096.ShapeCasts S1x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S512x4096_S512x4096_0_0 : ∀ a, (![0, 0] : Fin 2 → Nat) a + S512x4096.size a ≤ S512x4096.size a
  h_S512x4096 : 0 < S512x4096.numel
  reduces_S1x4096_S1 : S1x4096.Reduces [1] S1
  shapeCasts_S1_S1x1 : S1.ShapeCasts S1x1
  broadcasts_S1x1_S1x4096 : S1x1.Broadcasts S1x4096
  bitsLt_bf16_f32 : FTy.bits .bf16 < FTy.bits .f32
  inb_S1x512_S1x512_0_0 : ∀ a, (![0, 0] : Fin 2 → Nat) a + S1x512.size a ≤ S1x512.size a
  h_S1x512 : 0 < S1x512.numel
  slices_S1x12288_S1x4096_0_0 : S1x12288.Slices ![0, 0] S1x4096
  slices_S1x12288_S1x4096_0_4096 : S1x12288.Slices ![0, 4096] S1x4096
  slices_S1x12288_S1x4096_0_8192 : S1x12288.Slices ![0, 8192] S1x4096
  shapeCasts_S1x4096_S1x1x32x128 : S1x4096.ShapeCasts S1x1x32x128
  shapeCasts_S1x1x32x128_S1x1x32x64x2 : S1x1x32x128.ShapeCasts S1x1x32x64x2
  shapeCasts_S1x64x2_S1x1x1x64x2 : S1x64x2.ShapeCasts S1x1x1x64x2
  slices_S1x1x32x64x2_S1x1x32x64x1_0_0_0_0_0 : S1x1x32x64x2.Slices ![0, 0, 0, 0, 0] S1x1x32x64x1
  shapeCasts_S1x1x32x64x1_S1x1x32x64 : S1x1x32x64x1.ShapeCasts S1x1x32x64
  slices_S1x1x1x64x2_S1x1x1x64x1_0_0_0_0_0 : S1x1x1x64x2.Slices ![0, 0, 0, 0, 0] S1x1x1x64x1
  shapeCasts_S1x1x1x64x1_S1x1x1x64 : S1x1x1x64x1.ShapeCasts S1x1x1x64
  bcast_S1x1x1x64_S1x1x32x64_0_1_2_3 : S1x1x1x64.BroadcastsInDim S1x1x32x64 (![0, 1, 2, 3] : Fin 4 → Fin S1x1x32x64.rank)
  slices_S1x1x32x64x2_S1x1x32x64x1_0_0_0_0_1 : S1x1x32x64x2.Slices ![0, 0, 0, 0, 1] S1x1x32x64x1
  slices_S1x1x1x64x2_S1x1x1x64x1_0_0_0_0_1 : S1x1x1x64x2.Slices ![0, 0, 0, 0, 1] S1x1x1x64x1
  bcast_S1x1x32x64_S1x1x32x64x1_0_1_2_3 : S1x1x32x64.BroadcastsInDim S1x1x32x64x1 (![0, 1, 2, 3] : Fin 4 → Fin S1x1x32x64x1.rank)
  concatenates_S1x1x32x64x1_S1x1x32x64x1_S1x1x32x64x2_d4 : Shape.Concatenates [S1x1x32x64x1, S1x1x32x64x1] S1x1x32x64x2 4
  shapeCasts_S1x1x32x64x2_S1x1x32x128 : S1x1x32x64x2.ShapeCasts S1x1x32x128
  transposes_S1x1x32x128_S1x32x1x128_0_2_1_3 : S1x1x32x128.Transposes [0, 2, 1, 3] S1x32x1x128
  bcast_S_S1x32x1x1 : S_.BroadcastsInDim S1x32x1x1 (![] : Fin 0 → Fin S1x32x1x1.rank)
  bcast_S1x1x1x1_S1x32x1x1_0_1_2_3 : S1x1x1x1.BroadcastsInDim S1x32x1x1 (![0, 1, 2, 3] : Fin 4 → Fin S1x32x1x1.rank)
  reducesTo_S1x32x1x1_S1x32x1_d3 : S1x32x1x1.ReducesTo [3] S1x32x1
  h_S_ : 0 < S_.numel
  bcast_S_S1x32x1 : S_.BroadcastsInDim S1x32x1 (![] : Fin 0 → Fin S1x32x1.rank)
  bcast_S1x32x1_S1x32x1x1_0_1_2 : S1x32x1.BroadcastsInDim S1x32x1x1 (![0, 1, 2] : Fin 3 → Fin S1x32x1x1.rank)
  transposes_S1x32x1x128_S1x1x32x128_0_2_1_3 : S1x32x1x128.Transposes [0, 2, 1, 3] S1x1x32x128
  shapeCasts_S1x1x32x128_S1x1x4096 : S1x1x32x128.ShapeCasts S1x1x4096
  shapeCasts_S1x512_S1x512 : S1x512.ShapeCasts S1x512
  inb_S256x4096_S256x4096_0_0 : ∀ a, (![0, 0] : Fin 2 → Nat) a + S256x4096.size a ≤ S256x4096.size a
  h_S256x4096 : 0 < S256x4096.numel
  inb_S1x256_S1x256_0_0 : ∀ a, (![0, 0] : Fin 2 → Nat) a + S1x256.size a ≤ S1x256.size a
  h_S1x256 : 0 < S1x256.numel
  inb_S1x11008_S1x11008_0_0 : ∀ a, (![0, 0] : Fin 2 → Nat) a + S1x11008.size a ≤ S1x11008.size a
  h_S1x11008 : 0 < S1x11008.numel
  shapeCasts_S1x11008_S1x11008 : S1x11008.ShapeCasts S1x11008
  shapeCasts_S1x256_S1x256 : S1x256.ShapeCasts S1x256
  inb_S256x11008_S256x11008_0_0 : ∀ a, (![0, 0] : Fin 2 → Nat) a + S256x11008.size a ≤ S256x11008.size a
  h_S256x11008 : 0 < S256x11008.numel
  shapeCasts_S1x4096_S1x1x4096 : S1x4096.ShapeCasts S1x1x4096
  dot_S1x4096_S512x4096_S1x512_1_1_0_0_n_n_wf : DotDims.WF S1x4096 S512x4096 S1x512 [1] [1] [0] [0] [] []
  dot_S1x32x1x128_S1x32x1x128_S1x32x1x1_3_3_2_2_01_01_wf : DotDims.WF S1x32x1x128 S1x32x1x128 S1x32x1x1 [3] [3] [2] [2] [0, 1] [0, 1]
  dot_S1x32x1x1_S1x32x1x128_S1x32x1x128_3_2_2_3_01_01_wf : DotDims.WF S1x32x1x1 S1x32x1x128 S1x32x1x128 [3] [2] [2] [3] [0, 1] [0, 1]
  dot_S1x4096_S256x4096_S1x256_1_1_0_0_n_n_wf : DotDims.WF S1x4096 S256x4096 S1x256 [1] [1] [0] [0] [] []
  dot_S1x11008_S256x11008_S1x256_1_1_0_0_n_n_wf : DotDims.WF S1x11008 S256x11008 S1x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x4096.size a ≤ S1x4096.size a
  hwx0_0 : ∀ i : grid0.Coords, EltTy.bits .f32 = 32 ∨ (Rect.block (s := S1x4096) S1x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x4096.size a
  hwx0_1 : ∀ i : grid0.Coords, EltTy.bits .f32 = 32 ∨ (Rect.block (s := S1x4096) S1x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S12288x4096.size a
  hwx0_2 : ∀ i : grid0.Coords, EltTy.bits .f32 = 32 ∨ (Rect.block (s := S12288x4096) S512x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x12288.size a
  hwx0_3 : ∀ i : grid0.Coords, EltTy.bits .f32 = 32 ∨ (Rect.block (s := S1x12288) S1x512.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x4096.size a ≤ S1x4096.size a
  hwx1_0 : ∀ i : grid1.Coords, EltTy.bits .f32 = 32 ∨ (Rect.block (s := S1x4096) S1x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512.size a ≤ S1x4096.size a
  hwx1_1 : ∀ i : grid1.Coords, EltTy.bits .f32 = 32 ∨ (Rect.block (s := S1x4096) S1x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x4096.size a ≤ S4096x4096.size a
  hwx1_2 : ∀ i : grid1.Coords, EltTy.bits .f32 = 32 ∨ (Rect.block (s := S4096x4096) S512x4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x4096.size a
  hwx1_3 : ∀ i : grid1.Coords, EltTy.bits .f32 = 32 ∨ (Rect.block (s := S1x4096) S1x512.size (cc1_transform_3 i) (hinb1_3 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1x4096.size a ≤ S1x4096.size a
  hwx2_0 : ∀ i : grid2.Coords, EltTy.bits .f32 = 32 ∨ (Rect.block (s := S1x4096) S1x4096.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x4096.size a ≤ S1x4096.size a
  hwx2_1 : ∀ i : grid2.Coords, EltTy.bits .f32 = 32 ∨ (Rect.block (s := S1x4096) S1x4096.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x4096.size a ≤ S11008x4096.size a
  hwx2_2 : ∀ i : grid2.Coords, EltTy.bits .f32 = 32 ∨ (Rect.block (s := S11008x4096) S256x4096.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S256x4096.size a ≤ S11008x4096.size a
  hwx2_3 : ∀ i : grid2.Coords, EltTy.bits .f32 = 32 ∨ (Rect.block (s := S11008x4096) S256x4096.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x11008.size a
  hwx2_4 : ∀ i : grid2.Coords, EltTy.bits .f32 = 32 ∨ (Rect.block (s := S1x11008) S1x256.size (cc2_transform_4 i) (hinb2_4 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S1x11008.size a ≤ S1x11008.size a
  hwx3_0 : ∀ i : grid3.Coords, EltTy.bits .f32 = 32 ∨ (Rect.block (s := S1x11008) S1x11008.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x4096.size a
  hwx3_1 : ∀ i : grid3.Coords, EltTy.bits .f32 = 32 ∨ (Rect.block (s := S1x4096) S1x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S256x11008.size a ≤ S4096x11008.size a
  hwx3_2 : ∀ i : grid3.Coords, EltTy.bits .f32 = 32 ∨ (Rect.block (s := S4096x11008) S256x11008.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x4096.size a
  hwx3_3 : ∀ i : grid3.Coords, EltTy.bits .f32 = 32 ∨ (Rect.block (s := S1x4096) S1x256.size (cc3_transform_3 i) (hinb3_3 i)).WholeWords (EltTy.packing .f32)

variable [Facts₀]

def dot_S1x4096_S512x4096_S1x512_1_1_0_0_n_n : DotDims S1x4096 S512x4096 S1x512 where
  lhsContracting := [1]
  rhsContracting := [1]
  lhsNonContracting := [0]
  rhsNonContracting := [0]
  lhsBatch := []
  rhsBatch := []
  wf := dot_S1x4096_S512x4096_S1x512_1_1_0_0_n_n_wf
def dot_S1x32x1x128_S1x32x1x128_S1x32x1x1_3_3_2_2_01_01 : DotDims S1x32x1x128 S1x32x1x128 S1x32x1x1 where
  lhsContracting := [3]
  rhsContracting := [3]
  lhsNonContracting := [2]
  rhsNonContracting := [2]
  lhsBatch := [0, 1]
  rhsBatch := [0, 1]
  wf := dot_S1x32x1x128_S1x32x1x128_S1x32x1x1_3_3_2_2_01_01_wf
def dot_S1x32x1x1_S1x32x1x128_S1x32x1x128_3_2_2_3_01_01 : DotDims S1x32x1x1 S1x32x1x128 S1x32x1x128 where
  lhsContracting := [3]
  rhsContracting := [2]
  lhsNonContracting := [2]
  rhsNonContracting := [3]
  lhsBatch := [0, 1]
  rhsBatch := [0, 1]
  wf := dot_S1x32x1x1_S1x32x1x128_S1x32x1x128_3_2_2_3_01_01_wf
def dot_S1x4096_S256x4096_S1x256_1_1_0_0_n_n : DotDims S1x4096 S256x4096 S1x256 where
  lhsContracting := [1]
  rhsContracting := [1]
  lhsNonContracting := [0]
  rhsNonContracting := [0]
  lhsBatch := []
  rhsBatch := []
  wf := dot_S1x4096_S256x4096_S1x256_1_1_0_0_n_n_wf
def dot_S1x11008_S256x11008_S1x256_1_1_0_0_n_n : DotDims S1x11008 S256x11008 S1x256 where
  lhsContracting := [1]
  rhsContracting := [1]
  lhsNonContracting := [0]
  rhsNonContracting := [0]
  lhsBatch := []
  rhsBatch := []
  wf := dot_S1x11008_S256x11008_S1x256_1_1_0_0_n_n_wf

abbrev win0_0 : Pipeline.Window sig grid0 :=
  Pipeline.Window.ofSpec (Memref.whole main_v0) S1x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v93) S1x4096.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S512x4096.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v94) S1x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v94) S1x4096.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v2) S1x4096.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S256x4096.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S256x4096.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v95) S1x256.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v95) S1x11008.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v94) S1x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg5) S256x11008.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v96) S1x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S1x1x4096 : Shape := ⟨3, ![1, 1, 4096]⟩
abbrev S1x64x2 : Shape := ⟨3, ![1, 64, 2]⟩
abbrev S12288x4096 : Shape := ⟨2, ![12288, 4096]⟩
abbrev S4096x4096 : Shape := ⟨2, ![4096, 4096]⟩
abbrev S11008x4096 : Shape := ⟨2, ![11008, 4096]⟩
abbrev S4096x11008 : Shape := ⟨2, ![4096, 11008]⟩
abbrev S4096 : Shape := ⟨1, ![4096]⟩
abbrev S1x1x1x1 : Shape := ⟨4, ![1, 1, 1, 1]⟩
abbrev S_ : Shape := ⟨0, ![]⟩
abbrev S1x1 : Shape := ⟨2, ![1, 1]⟩
abbrev S1x1x1 : Shape := ⟨3, ![1, 1, 1]⟩
abbrev S1x1x32x128 : Shape := ⟨4, ![1, 1, 32, 128]⟩
abbrev S1x1x32x64x2 : Shape := ⟨5, ![1, 1, 32, 64, 2]⟩
abbrev S1x1x1x64x2 : Shape := ⟨5, ![1, 1, 1, 64, 2]⟩
abbrev S1x1x32x64x1 : Shape := ⟨5, ![1, 1, 32, 64, 1]⟩
abbrev S1x1x32x64 : Shape := ⟨4, ![1, 1, 32, 64]⟩
abbrev S1x1x1x64x1 : Shape := ⟨5, ![1, 1, 1, 64, 1]⟩
abbrev S1x1x1x64 : Shape := ⟨4, ![1, 1, 1, 64]⟩
abbrev S1x32x1x128 : Shape := ⟨4, ![1, 32, 1, 128]⟩
abbrev S1x32x1x1 : Shape := ⟨4, ![1, 32, 1, 1]⟩
abbrev S1x32x1 : Shape := ⟨3, ![1, 32, 1]⟩
abbrev S1x1x11008 : Shape := ⟨3, ![1, 1, 11008]⟩

abbrev nBuf : Space → Nat
  | .hbm => 204
  | .vmem => 0
  | .smem => 0
  | _ => 0

abbrev hbmTy0_0 (i : Nat) : BufTy := match i % 128 with
  | 0 => ⟨S1x1x4096, .f32⟩
  | 1 => ⟨S1x64x2, .f32⟩
  | 2 => ⟨S12288x4096, .f32⟩
  | 3 => ⟨S4096x4096, .f32⟩
  | 4 => ⟨S11008x4096, .f32⟩
  | 5 => ⟨S4096x11008, .f32⟩
  | 6 => ⟨S11008x4096, .f32⟩
  | 7 => ⟨S4096, .f32⟩
  | 8 => ⟨S4096, .f32⟩
  | 9 => ⟨S1x1x1x1, .i1⟩
  | 10 => ⟨S1x1x4096, .f32⟩
  | 11 => ⟨S_, .f32⟩
  | 12 => ⟨S1x1, .f32⟩
  | 13 => ⟨S1x1x1, .f32⟩
  | 14 => ⟨S_, .f32⟩
  | 15 => ⟨S1x1x1, .f32⟩
  | 16 => ⟨S1x1x1, .f32⟩
  | 17 => ⟨S_, .f32⟩
  | 18 => ⟨S1x1x1, .f32⟩
  | 19 => ⟨S1x1x1, .f32⟩
  | 20 => ⟨S1x1x1, .f32⟩
  | 21 => ⟨S1x1x4096, .f32⟩
  | 22 => ⟨S1x1x4096, .f32⟩
  | 23 => ⟨S1x1x4096, .f32⟩
  | 24 => ⟨S1x1x4096, .f32⟩
  | 25 => ⟨S4096x4096, .f32⟩
  | 26 => ⟨S4096x4096, .f32⟩
  | 27 => ⟨S4096x4096, .f32⟩
  | 28 => ⟨S1x1x4096, .f32⟩
  | 29 => ⟨S_, .f32⟩
  | 30 => ⟨S1x1x4096, .f32⟩
  | 31 => ⟨S1x1x4096, .i1⟩
  | 32 => ⟨S_, .f32⟩
  | 33 => ⟨S1x1x4096, .f32⟩
  | 34 => ⟨S1x1x4096, .f32⟩
  | 35 => ⟨S1x1x4096, .f32⟩
  | 36 => ⟨S1x1x32x128, .f32⟩
  | 37 => ⟨S1x1x4096, .f32⟩
  | 38 => ⟨S_, .f32⟩
  | 39 => ⟨S1x1x4096, .f32⟩
  | 40 => ⟨S1x1x4096, .i1⟩
  | 41 => ⟨S_, .f32⟩
  | 42 => ⟨S1x1x4096, .f32⟩
  | 43 => ⟨S1x1x4096, .f32⟩
  | 44 => ⟨S1x1x4096, .f32⟩
  | 45 => ⟨S1x1x32x128, .f32⟩
  | 46 => ⟨S1x1x4096, .f32⟩
  | 47 => ⟨S_, .f32⟩
  | 48 => ⟨S1x1x4096, .f32⟩
  | 49 => ⟨S1x1x4096, .i1⟩
  | 50 => ⟨S_, .f32⟩
  | 51 => ⟨S1x1x4096, .f32⟩
  | 52 => ⟨S1x1x4096, .f32⟩
  | 53 => ⟨S1x1x4096, .f32⟩
  | 54 => ⟨S1x1x32x128, .f32⟩
  | 55 => ⟨S1x1x32x64x2, .f32⟩
  | 56 => ⟨S1x1x1x64x2, .f32⟩
  | 57 => ⟨S1x1x32x64x1, .f32⟩
  | 58 => ⟨S1x1x32x64, .f32⟩
  | 59 => ⟨S1x1x1x64x1, .f32⟩
  | 60 => ⟨S1x1x1x64, .f32⟩
  | 61 => ⟨S1x1x32x64, .f32⟩
  | 62 => ⟨S1x1x32x64, .f32⟩
  | 63 => ⟨S1x1x32x64x1, .f32⟩
  | 64 => ⟨S1x1x32x64, .f32⟩
  | 65 => ⟨S1x1x1x64x1, .f32⟩
  | 66 => ⟨S1x1x1x64, .f32⟩
  | 67 => ⟨S1x1x32x64, .f32⟩
  | 68 => ⟨S1x1x32x64, .f32⟩
  | 69 => ⟨S1x1x32x64, .f32⟩
  | 70 => ⟨S1x1x32x64x1, .f32⟩
  | 71 => ⟨S1x1x32x64, .f32⟩
  | 72 => ⟨S1x1x1x64x1, .f32⟩
  | 73 => ⟨S1x1x1x64, .f32⟩
  | 74 => ⟨S1x1x32x64, .f32⟩
  | 75 => ⟨S1x1x32x64, .f32⟩
  | 76 => ⟨S1x1x32x64x1, .f32⟩
  | 77 => ⟨S1x1x32x64, .f32⟩
  | 78 => ⟨S1x1x1x64x1, .f32⟩
  | 79 => ⟨S1x1x1x64, .f32⟩
  | 80 => ⟨S1x1x32x64, .f32⟩
  | 81 => ⟨S1x1x32x64, .f32⟩
  | 82 => ⟨S1x1x32x64, .f32⟩
  | 83 => ⟨S1x1x32x64x1, .f32⟩
  | 84 => ⟨S1x1x32x64x1, .f32⟩
  | 85 => ⟨S1x1x32x64x2, .f32⟩
  | 86 => ⟨S1x1x32x128, .f32⟩
  | 87 => ⟨S1x32x1x128, .f32⟩
  | 88 => ⟨S1x1x32x64x2, .f32⟩
  | 89 => ⟨S1x1x1x64x2, .f32⟩
  | 90 => ⟨S1x1x32x64x1, .f32⟩
  | 91 => ⟨S1x1x32x64, .f32⟩
  | 92 => ⟨S1x1x1x64x1, .f32⟩
  | 93 => ⟨S1x1x1x64, .f32⟩
  | 94 => ⟨S1x1x32x64, .f32⟩
  | 95 => ⟨S1x1x32x64, .f32⟩
  | 96 => ⟨S1x1x32x64x1, .f32⟩
  | 97 => ⟨S1x1x32x64, .f32⟩
  | 98 => ⟨S1x1x1x64x1, .f32⟩
  | 99 => ⟨S1x1x1x64, .f32⟩
  | 100 => ⟨S1x1x32x64, .f32⟩
  | 101 => ⟨S1x1x32x64, .f32⟩
  | 102 => ⟨S1x1x32x64, .f32⟩
  | 103 => ⟨S1x1x32x64x1, .f32⟩
  | 104 => ⟨S1x1x32x64, .f32⟩
  | 105 => ⟨S1x1x1x64x1, .f32⟩
  | 106 => ⟨S1x1x1x64, .f32⟩
  | 107 => ⟨S1x1x32x64, .f32⟩
  | 108 => ⟨S1x1x32x64, .f32⟩
  | 109 => ⟨S1x1x32x64x1, .f32⟩
  | 110 => ⟨S1x1x32x64, .f32⟩
  | 111 => ⟨S1x1x1x64x1, .f32⟩
  | 112 => ⟨S1x1x1x64, .f32⟩
  | 113 => ⟨S1x1x32x64, .f32⟩
  | 114 => ⟨S1x1x32x64, .f32⟩
  | 115 => ⟨S1x1x32x64, .f32⟩
  | 116 => ⟨S1x1x32x64x1, .f32⟩
  | 117 => ⟨S1x1x32x64x1, .f32⟩
  | 118 => ⟨S1x1x32x64x2, .f32⟩
  | 119 => ⟨S1x1x32x128, .f32⟩
  | 120 => ⟨S1x32x1x128, .f32⟩
  | 121 => ⟨S1x32x1x128, .f32⟩
  | 122 => ⟨S1x32x1x1, .f32⟩
  | 123 => ⟨S_, .f32⟩
  | 124 => ⟨S1x32x1x1, .f32⟩
  | 125 => ⟨S1x32x1x1, .f32⟩
  | 126 => ⟨S_, .f32⟩
  | 127 => ⟨S1x32x1x1, .i1⟩
  | _ => ⟨S1x1x4096, .f32⟩

abbrev hbmTy0_1 (i : Nat) : BufTy := match i % 128 with
  | 0 => ⟨S1x32x1x1, .f32⟩
  | 1 => ⟨S1x32x1x1, .f32⟩
  | 2 => ⟨S_, .f32⟩
  | 3 => ⟨S1x32x1, .f32⟩
  | 4 => ⟨S_, .f32⟩
  | 5 => ⟨S1x32x1, .f32⟩
  | 6 => ⟨S1x32x1, .f32⟩
  | 7 => ⟨S1x32x1x1, .f32⟩
  | 8 => ⟨S1x32x1x1, .f32⟩
  | 9 => ⟨S1x32x1x1, .f32⟩
  | 10 => ⟨S_, .f32⟩
  | 11 => ⟨S1x32x1, .f32⟩
  | 12 => ⟨S1x32x1x1, .f32⟩
  | 13 => ⟨S1x32x1x1, .f32⟩
  | 14 => ⟨S1x32x1x128, .f32⟩
  | 15 => ⟨S1x1x32x128, .f32⟩
  | 16 => ⟨S1x1x4096, .f32⟩
  | 17 => ⟨S1x1x4096, .f32⟩
  | 18 => ⟨S_, .f32⟩
  | 19 => ⟨S1x1x4096, .f32⟩
  | 20 => ⟨S1x1x4096, .i1⟩
  | 21 => ⟨S_, .f32⟩
  | 22 => ⟨S1x1x4096, .f32⟩
  | 23 => ⟨S1x1x4096, .f32⟩
  | 24 => ⟨S1x1x4096, .f32⟩
  | 25 => ⟨S1x1x4096, .f32⟩
  | 26 => ⟨S1x1x4096, .f32⟩
  | 27 => ⟨S_, .f32⟩
  | 28 => ⟨S1x1, .f32⟩
  | 29 => ⟨S1x1x1, .f32⟩
  | 30 => ⟨S_, .f32⟩
  | 31 => ⟨S1x1x1, .f32⟩
  | 32 => ⟨S1x1x1, .f32⟩
  | 33 => ⟨S_, .f32⟩
  | 34 => ⟨S1x1x1, .f32⟩
  | 35 => ⟨S1x1x1, .f32⟩
  | 36 => ⟨S1x1x1, .f32⟩
  | 37 => ⟨S1x1x4096, .f32⟩
  | 38 => ⟨S1x1x4096, .f32⟩
  | 39 => ⟨S1x1x4096, .f32⟩
  | 40 => ⟨S1x1x4096, .f32⟩
  | 41 => ⟨S1x1x4096, .f32⟩
  | 42 => ⟨S_, .f32⟩
  | 43 => ⟨S1x1x4096, .f32⟩
  | 44 => ⟨S1x1x4096, .i1⟩
  | 45 => ⟨S_, .f32⟩
  | 46 => ⟨S1x1x4096, .f32⟩
  | 47 => ⟨S1x1x4096, .f32⟩
  | 48 => ⟨S1x1x11008, .f32⟩
  | 49 => ⟨S1x1x4096, .f32⟩
  | 50 => ⟨S_, .f32⟩
  | 51 => ⟨S1x1x4096, .f32⟩
  | 52 => ⟨S1x1x4096, .i1⟩
  | 53 => ⟨S_, .f32⟩
  | 54 => ⟨S1x1x4096, .f32⟩
  | 55 => ⟨S1x1x4096, .f32⟩
  | 56 => ⟨S1x1x11008, .f32⟩
  | 57 => ⟨S1x1x11008, .f32⟩
  | 58 => ⟨S1x1x11008, .f32⟩
  | 59 => ⟨S_, .f32⟩
  | 60 => ⟨S1x1x11008, .f32⟩
  | 61 => ⟨S1x1x11008, .f32⟩
  | 62 => ⟨S_, .f32⟩
  | 63 => ⟨S1x1x11008, .f32⟩
  | 64 => ⟨S1x1x11008, .f32⟩
  | 65 => ⟨S1x1x11008, .f32⟩
  | 66 => ⟨S1x1x11008, .f32⟩
  | 67 => ⟨S1x1x11008, .f32⟩
  | 68 => ⟨S_, .f32⟩
  | 69 => ⟨S1x1x11008, .f32⟩
  | 70 => ⟨S1x1x11008, .i1⟩
  | 71 => ⟨S_, .f32⟩
  | 72 => ⟨S1x1x11008, .f32⟩
  | 73 => ⟨S1x1x11008, .f32⟩
  | 74 => ⟨S1x1x4096, .f32⟩
  | 75 => ⟨S1x1x4096, .f32⟩
  | _ => ⟨S1x1x4096, .f32⟩

abbrev hbmTy (i : Nat) : BufTy := match i / 128 with
  | 0 => hbmTy0_0 i
  | 1 => hbmTy0_1 i
  | _ => ⟨S1x1x4096, .f32⟩

abbrev bufTy : (tb : Table) → Fin (tcTables nBuf tb) → BufTy
  | .hbm, ⟨i, _⟩ => hbmTy i
  | _, _ => ⟨S1x1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_call0_v0 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_v23 : Ref sig .tc := ⟨.hbm, 40, rfl⟩
abbrev main_cst_5 : Ref sig .tc := ⟨.hbm, 41, rfl⟩
abbrev main_call1_v0 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_6 : Ref sig .tc := ⟨.hbm, 47, rfl⟩
abbrev main_v28 : Ref sig .tc := ⟨.hbm, 48, rfl⟩
abbrev main_v29 : Ref sig .tc := ⟨.hbm, 49, rfl⟩
abbrev main_cst_7 : Ref sig .tc := ⟨.hbm, 50, rfl⟩
abbrev main_call2_v0 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_cst_8 : Ref sig .tc := ⟨.hbm, 123, rfl⟩
abbrev main_v101 : Ref sig .tc := ⟨.hbm, 124, rfl⟩
abbrev main_v102 : Ref sig .tc := ⟨.hbm, 125, rfl⟩
abbrev main_cst_9 : Ref sig .tc := ⟨.hbm, 126, rfl⟩
abbrev main_call3_v0 : Ref sig .tc := ⟨.hbm, 127, rfl⟩
abbrev main_call3_v1 : Ref sig .tc := ⟨.hbm, 128, rfl⟩
abbrev main_v103 : Ref sig .tc := ⟨.hbm, 129, rfl⟩
abbrev main_cst_10 : Ref sig .tc := ⟨.hbm, 130, rfl⟩
abbrev main_v104 : Ref sig .tc := ⟨.hbm, 131, rfl⟩
abbrev main_cst_11 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_cst_12 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_cst_13 : Ref sig .tc := ⟨.hbm, 146, rfl⟩
abbrev main_v117 : Ref sig .tc := ⟨.hbm, 147, rfl⟩
abbrev main_v118 : Ref sig .tc := ⟨.hbm, 148, rfl⟩
abbrev main_cst_14 : Ref sig .tc := ⟨.hbm, 149, rfl⟩
abbrev main_call4_v0 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_cst_15 : Ref sig .tc := ⟨.hbm, 155, rfl⟩
abbrev main_v123 : Ref sig .tc := ⟨.hbm, 156, rfl⟩
abbrev main_v124 : Ref sig .tc := ⟨.hbm, 157, rfl⟩
abbrev main_cst_16 : Ref sig .tc := ⟨.hbm, 158, rfl⟩
abbrev main_v125 : Ref sig .tc := ⟨.hbm, 159, rfl⟩
abbrev main_v126 : Ref sig .tc := ⟨.hbm, 160, rfl⟩
abbrev main_cst_17 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_cst_18 : Ref sig .tc := ⟨.hbm, 170, rfl⟩
abbrev main_v135 : Ref sig .tc := ⟨.hbm, 171, rfl⟩
abbrev main_v136 : Ref sig .tc := ⟨.hbm, 172, rfl⟩
abbrev main_cst_19 : Ref sig .tc := ⟨.hbm, 173, rfl⟩
abbrev main_call5_v0 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_cst_20 : Ref sig .tc := ⟨.hbm, 178, rfl⟩
abbrev main_v140 : Ref sig .tc := ⟨.hbm, 179, rfl⟩
abbrev main_v141 : Ref sig .tc := ⟨.hbm, 180, rfl⟩
abbrev main_cst_21 : Ref sig .tc := ⟨.hbm, 181, rfl⟩
abbrev main_call6_v0 : Ref sig .tc := ⟨.hbm, 182, rfl⟩
abbrev main_v142 : Ref sig .tc := ⟨.hbm, 183, rfl⟩
abbrev main_v143 : Ref sig .tc := ⟨.hbm, 184, rfl⟩
abbrev main_call7_v0 : Ref sig .tc := ⟨.hbm, 185, rfl⟩
abbrev main_call7_v1 : Ref sig .tc := ⟨.hbm, 186, rfl⟩
abbrev main_call7_cst : Ref sig .tc := ⟨.hbm, 187, rfl⟩
abbrev main_call7_v2 : Ref sig .tc := ⟨.hbm, 188, rfl⟩
abbrev main_call7_v3 : Ref sig .tc := ⟨.hbm, 189, rfl⟩
abbrev main_call7_cst_0 : Ref sig .tc := ⟨.hbm, 190, rfl⟩
abbrev main_call7_v4 : Ref sig .tc := ⟨.hbm, 191, rfl⟩
abbrev main_call7_v5 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_cst_22 : Ref sig .tc := ⟨.hbm, 196, rfl⟩
abbrev main_v147 : Ref sig .tc := ⟨.hbm, 197, rfl⟩
abbrev main_v148 : Ref sig .tc := ⟨.hbm, 198, rfl⟩
abbrev main_cst_23 : Ref sig .tc := ⟨.hbm, 199, rfl⟩
abbrev main_call8_v0 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩

abbrev nD : Nat := 1
abbrev τ : Topo := Topo.v7x

variable {F : FTy → Type} [FloatOps F]

class Facts₀ : Prop where
  reducesTo_S1x1x4096_S1x1_d2 : S1x1x4096.ReducesTo [2] S1x1
  h_S_ : 0 < S_.numel
  bcast_S1x1_S1x1x1_0_1 : S1x1.BroadcastsInDim S1x1x1 (![0, 1] : Fin 2 → Fin S1x1x1.rank)
  bcast_S_S1x1x1 : S_.BroadcastsInDim S1x1x1 (![] : Fin 0 → Fin S1x1x1.rank)
  bcast_S1x1x1_S1x1x4096_0_1_2 : S1x1x1.BroadcastsInDim S1x1x4096 (![0, 1, 2] : Fin 3 → Fin S1x1x4096.rank)
  bcast_S4096_S1x1x4096_2 : S4096.BroadcastsInDim S1x1x4096 (![2] : Fin 1 → Fin S1x1x4096.rank)
  slices_S12288x4096_S4096x4096_0_0 : S12288x4096.Slices ![0, 0] S4096x4096
  slices_S12288x4096_S4096x4096_4096_0 : S12288x4096.Slices ![4096, 0] S4096x4096
  slices_S12288x4096_S4096x4096_8192_0 : S12288x4096.Slices ![8192, 0] S4096x4096
  bcast_S_S1x1x4096 : S_.BroadcastsInDim S1x1x4096 (![] : Fin 0 → Fin S1x1x4096.rank)
  shapeCasts_S1x1x4096_S1x1x32x128 : S1x1x4096.ShapeCasts S1x1x32x128
  shapeCasts_S1x1x32x128_S1x1x32x64x2 : S1x1x32x128.ShapeCasts S1x1x32x64x2
  shapeCasts_S1x64x2_S1x1x1x64x2 : S1x64x2.ShapeCasts S1x1x1x64x2
  slices_S1x1x32x64x2_S1x1x32x64x1_0_0_0_0_0 : S1x1x32x64x2.Slices ![0, 0, 0, 0, 0] S1x1x32x64x1
  shapeCasts_S1x1x32x64x1_S1x1x32x64 : S1x1x32x64x1.ShapeCasts S1x1x32x64
  slices_S1x1x1x64x2_S1x1x1x64x1_0_0_0_0_0 : S1x1x1x64x2.Slices ![0, 0, 0, 0, 0] S1x1x1x64x1
  shapeCasts_S1x1x1x64x1_S1x1x1x64 : S1x1x1x64x1.ShapeCasts S1x1x1x64
  bcast_S1x1x1x64_S1x1x32x64_0_1_2_3 : S1x1x1x64.BroadcastsInDim S1x1x32x64 (![0, 1, 2, 3] : Fin 4 → Fin S1x1x32x64.rank)
  slices_S1x1x32x64x2_S1x1x32x64x1_0_0_0_0_1 : S1x1x32x64x2.Slices ![0, 0, 0, 0, 1] S1x1x32x64x1
  slices_S1x1x1x64x2_S1x1x1x64x1_0_0_0_0_1 : S1x1x1x64x2.Slices ![0, 0, 0, 0, 1] S1x1x1x64x1
  bcast_S1x1x32x64_S1x1x32x64x1_0_1_2_3 : S1x1x32x64.BroadcastsInDim S1x1x32x64x1 (![0, 1, 2, 3] : Fin 4 → Fin S1x1x32x64x1.rank)
  concatenates_S1x1x32x64x1_S1x1x32x64x1_S1x1x32x64x2_d4 : Shape.Concatenates [S1x1x32x64x1, S1x1x32x64x1] S1x1x32x64x2 4
  shapeCasts_S1x1x32x64x2_S1x1x32x128 : S1x1x32x64x2.ShapeCasts S1x1x32x128
  transposes_S1x1x32x128_S1x32x1x128_0_2_1_3 : S1x1x32x128.Transposes [0, 2, 1, 3] S1x32x1x128
  bcast_S_S1x32x1x1 : S_.BroadcastsInDim S1x32x1x1 (![] : Fin 0 → Fin S1x32x1x1.rank)
  bcast_S1x1x1x1_S1x32x1x1_0_1_2_3 : S1x1x1x1.BroadcastsInDim S1x32x1x1 (![0, 1, 2, 3] : Fin 4 → Fin S1x32x1x1.rank)
  reducesTo_S1x32x1x1_S1x32x1_d3 : S1x32x1x1.ReducesTo [3] S1x32x1
  bcast_S_S1x32x1 : S_.BroadcastsInDim S1x32x1 (![] : Fin 0 → Fin S1x32x1.rank)
  bcast_S1x32x1_S1x32x1x1_0_1_2 : S1x32x1.BroadcastsInDim S1x32x1x1 (![0, 1, 2] : Fin 3 → Fin S1x32x1x1.rank)
  transposes_S1x32x1x128_S1x1x32x128_0_2_1_3 : S1x32x1x128.Transposes [0, 2, 1, 3] S1x1x32x128
  shapeCasts_S1x1x32x128_S1x1x4096 : S1x1x32x128.ShapeCasts S1x1x4096
  bcast_S_S1x1x11008 : S_.BroadcastsInDim S1x1x11008 (![] : Fin 0 → Fin S1x1x11008.rank)
  dot_S1x1x4096_S4096x4096_S1x1x4096_2_1_01_0_n_n_wf : DotDims.WF S1x1x4096 S4096x4096 S1x1x4096 [2] [1] [0, 1] [0] [] []
  dot_S1x32x1x128_S1x32x1x128_S1x32x1x1_3_3_2_2_01_01_wf : DotDims.WF S1x32x1x128 S1x32x1x128 S1x32x1x1 [3] [3] [2] [2] [0, 1] [0, 1]
  dot_S1x32x1x1_S1x32x1x128_S1x32x1x128_3_2_2_3_01_01_wf : DotDims.WF S1x32x1x1 S1x32x1x128 S1x32x1x128 [3] [2] [2] [3] [0, 1] [0, 1]
  dot_S1x1x4096_S11008x4096_S1x1x11008_2_1_01_0_n_n_wf : DotDims.WF S1x1x4096 S11008x4096 S1x1x11008 [2] [1] [0, 1] [0] [] []
  dot_S1x1x11008_S4096x11008_S1x1x4096_2_1_01_0_n_n_wf : DotDims.WF S1x1x11008 S4096x11008 S1x1x4096 [2] [1] [0, 1] [0] [] []

variable [Facts₀]

def dot_S1x1x4096_S4096x4096_S1x1x4096_2_1_01_0_n_n : DotDims S1x1x4096 S4096x4096 S1x1x4096 where
  lhsContracting := [2]
  rhsContracting := [1]
  lhsNonContracting := [0, 1]
  rhsNonContracting := [0]
  lhsBatch := []
  rhsBatch := []
  wf := dot_S1x1x4096_S4096x4096_S1x1x4096_2_1_01_0_n_n_wf
def dot_S1x32x1x128_S1x32x1x128_S1x32x1x1_3_3_2_2_01_01 : DotDims S1x32x1x128 S1x32x1x128 S1x32x1x1 where
  lhsContracting := [3]
  rhsContracting := [3]
  lhsNonContracting := [2]
  rhsNonContracting := [2]
  lhsBatch := [0, 1]
  rhsBatch := [0, 1]
  wf := dot_S1x32x1x128_S1x32x1x128_S1x32x1x1_3_3_2_2_01_01_wf
def dot_S1x32x1x1_S1x32x1x128_S1x32x1x128_3_2_2_3_01_01 : DotDims S1x32x1x1 S1x32x1x128 S1x32x1x128 where
  lhsContracting := [3]
  rhsContracting := [2]
  lhsNonContracting := [2]
  rhsNonContracting := [3]
  lhsBatch := [0, 1]
  rhsBatch := [0, 1]
  wf := dot_S1x32x1x1_S1x32x1x128_S1x32x1x128_3_2_2_3_01_01_wf
def dot_S1x1x4096_S11008x4096_S1x1x11008_2_1_01_0_n_n : DotDims S1x1x4096 S11008x4096 S1x1x11008 where
  lhsContracting := [2]
  rhsContracting := [1]
  lhsNonContracting := [0, 1]
  rhsNonContracting := [0]
  lhsBatch := []
  rhsBatch := []
  wf := dot_S1x1x4096_S11008x4096_S1x1x11008_2_1_01_0_n_n_wf
def dot_S1x1x11008_S4096x11008_S1x1x4096_2_1_01_0_n_n : DotDims S1x1x11008 S4096x11008 S1x1x4096 where
  lhsContracting := [2]
  rhsContracting := [1]
  lhsNonContracting := [0, 1]
  rhsNonContracting := [0]
  lhsBatch := []
  rhsBatch := []
  wf := dot_S1x1x11008_S4096x11008_S1x1x4096_2_1_01_0_n_n_wf

class Facts : Prop extends Facts₀ where

variable [Facts]
-- ==== Proof.KRun.lean ====
/-
  The idealized kernel program's run with its result named.

  The program is four kernel launches among stretches of host operations. The generated frame certificate folds the
  buffer contents through these segments (the contents at the last boundary are W9) and shows that every weakly fair
  execution ends with each unscoped buffer at those contents. Read at the result buffer as well as at the arguments,
  the same run gives the result's final contents.
-/
import proofs.«136584_j38809324486825_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the argument arrays as launched. -/
theorem run_result : θ_run defs (onTc (τ := τ) (main (F := F))) ⟨m, fun _ => 0, ρ⟩ (fun r => ∀ c : Dev nD,
      r.2.mem ((c.tc : Thread nD τ).loc main_v97) = W9 m ρ c (Proc.devRef .tc main_v97)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v97 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c)⟩)

end Cert.KernelIdeal.KRun

end
-- ==== Proof.Spec.lean ====
/-
  The decode step of one transformer block on a single token, as functions of flat vectors over the extended reals.

  Every projection of the block is a matrix-vector product  out(n) = Σₖ v(k) · W(n,k)  whose input vector has first
  been thresholded: an entry v is kept when |v| > 0.05 and replaced by 0 otherwise. Two of the inputs are RMS-normalized
  first: x(k) · (Σⱼ x(j)² / 4096 + ε)^(-1/2) · w(k). The gated unit is  silu(g) · u  with  silu(g) = g · 1/(1 + e^(-g)).
  The functions below spell exactly these formulas, with the float literals kept as their bit patterns.
-/
import Idealize.ShloMosaic.PureOps.Ideal
import Idealize.ShloMosaic.Lib.ValueIdx

noncomputable section

namespace Cert.Spec

open Idealize.ShloMosaic Idealize.ShloMosaic.ValueIdx
open scoped BigOperators

/-- An extended real, as the type of a single-precision float's ideal value. -/
abbrev E : Type := Ideal .f32

/-- The threshold: v when |v| > 0.05, else 0. -/
def thr (v : E) : E :=
  Scalar.select (FloatOps.cmpf .ogt (FloatOps.absf v) (FloatOps.ofBits (F := Ideal) .f32 0x3D4CCCCD#32)) v
    (FloatOps.ofBits (F := Ideal) .f32 0x00000000#32)

/-- The RMS scale of a 4096-vector: (Σ x² / 4096 + ε)^(-1/2). -/
def scale (x : Fin 4096 → E) : E :=
  FloatOps.rsqrt (FloatOps.addf (FloatOps.divf (∑ k : Fin 4096, FloatOps.mulf (x k) (x k))
    (FloatOps.ofBits (F := Ideal) .f32 0x45800000#32)) (FloatOps.ofBits (F := Ideal) .f32 0x3727C5AC#32))

/-- The thresholded RMS-normalized vector: thr (x(k) · scale x · w(k)). -/
def nrm (x w : Fin 4096 → E) (k : Fin 4096) : E :=
  thr (FloatOps.mulf (FloatOps.mulf (x k) (scale x)) (w k))

/-- A matrix-vector product against the rows of W: Σₖ v(k) · W(n,k). -/
def gemv {N K : ℕ} (W : FVec Ideal ⟨2, ![N, K]⟩ .f32) (v : Fin K → E) (n : Fin N) : E :=
  ∑ k : Fin K, v k * W (ix2 n k)

/-- silu(g) = g · logistic(g). -/
def silu (g : E) : E := FloatOps.mulf g (FloatOps.logistic g)

end Cert.Spec

end
-- ==== Proof.LibColumn.lean ====
/-
  A column of row statistics, read at an entry.

  A reduction along the rows of a matrix that keeps the reduced axis (a sum with `keepdims`) produces one value per
  row, stored as an a×1 column, and is then spread over the b columns of an a×b matrix. Reading the results at an
  entry: the a×1 column made from an a-vector has, at (i, 0), the vector's entry i; and the a×b matrix made from an
  a×1 column has, at (i, j), the column's entry (i, 0), whatever j. Both facts are arithmetic on row-major positions.
-/
import Idealize.ShloMosaic.Lib.Pipeline.Value
import Idealize.ShloMosaic.Lib.ValueIdx

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the column's entry `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibColumn
-- ==== Proof.LibRowOps.lean ====
/-
  Row statistics of a matrix, read at an entry, on the extended reals.

  For an R×D matrix `P`: the sum along each row (a lane reduction with `add`) at row `p` is  Σ_k P(p,k); the
  maximum along each row at row `p` is the fold of `max` over  k ↦ P(p,k)  from the starting value; the same for a
  host-side maximum over the columns. The pointwise square root, exponential and logarithm read at an entry.
-/
import proofs.«136584_j38809324486825_2_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

namespace Cert.LibRowOps

open Idealize.ShloMosaic Idealize.ShloMosaic.ValueIdx Cert.LibColumn

variable {R D : ℕ}

/-- Inserting the column coordinate `k` into the row index `p` gives the entry `(p, k)`. -/
theorem lift_ix1 (h : (⟨2, ![R, D]⟩ : Shape).Reduces [1] ⟨1, ![R]⟩) (p : Fin R) (k : Fin D) :
    h.lift (ix1 p) k = ix2 p k := by
  funext c
  apply Fin.ext
  show h.liftVal (ix1 p) k.val c = _
  unfold Shape.Reduces.liftVal
  match c with
  | ⟨0, _⟩ => simp
  | ⟨1, _⟩ => simp

/-- A row sum at row `p` is the sum of the row's entries. -/
theorem rowSum_apply {φ : FTy} (src : FVec Ideal ⟨2, ![R, D]⟩ φ) (acc : BitVec φ.bits)
    (h : (⟨2, ![R, D]⟩ : Shape).Reduces [1] ⟨1, ![R]⟩) (hφ : FKind.Formats φ) (hacc : acc = FKind.add.neutral φ hφ) (p : Fin R) :
    multiReduction .add [1] ⟨1, ![R]⟩ src acc h hφ hacc (ix1 p) = ∑ k : Fin D, src (ix2 p k) := by
  rw [Ideal.multiReduction_add_single]
  exact Finset.sum_congr rfl fun k _ => congrArg src (lift_ix1 h p k)

/-- A row maximum at row `p` is the fold of `max` over the row's entries, from the starting value. -/
theorem rowMax_apply {φ : FTy} (src : FVec Ideal ⟨2, ![R, D]⟩ φ) (acc : BitVec φ.bits)
    (h : (⟨2, ![R, D]⟩ : Shape).Reduces [1] ⟨1, ![R]⟩) (hφ : FKind.Formats φ) (hacc : acc = FKind.maximumf.neutral φ hφ) (p : Fin R) :
    multiReduction .maximumf [1] ⟨1, ![R]⟩ src acc h hφ hacc (ix1 p)
      = (Finset.univ : Finset (Fin D)).fold max (Ideal.ofBits φ acc) (fun k => src (ix2 p k)) := by
  rw [Ideal.multiReduction_maximumf_single]
  exact congrArg (Finset.fold max _ · _) (funext fun k => congrArg src (lift_ix1 h p k))

/-- A host-side row maximum (a one-operand reduce with `max` over the columns) at row `p`: the fold of `max` over the
    row's entries from the initial value. -/
theorem hostRowMax (U : FVec Ideal ⟨2, ![R, D]⟩ .f32) {u : Shape} (init : u.Idx → Ideal .f32)
    (h' : (⟨2, ![R, D]⟩ : Shape).ReducesTo [1] ⟨1, ![R]⟩) (h : (⟨2, ![R, D]⟩ : Shape).Reduces [1] ⟨1, ![R]⟩) (hu : 0 < u.numel) (p : Fin R) :
    Host.reduce (FloatOps.maximumf (F := Ideal) (φ := .f32)) U init h' hu (ix1 p)
      = (Finset.univ : Finset (Fin D)).fold max (init (Shape.Idx.first hu)) (fun k => U (ix2 p k)) := by
  rw [Host.reduce_eq_fold_single _ _ _ _ h]
  exact congrArg (Finset.fold max _ · _) (funext fun k => congrArg U (lift_ix1 h p k))

/-- The pointwise square root, exponential and logarithm read at an entry. -/
theorem sqrt_apply {s : Shape} {φ : FTy} (x : FVec Ideal s φ) (i : s.Idx) : sqrt x i = Ideal.sqrt (x i) := rfl
theorem exp_apply {s : Shape} {φ : FTy} (x : FVec Ideal s φ) (i : s.Idx) : exp x i = Ideal.exp (x i) := rfl
theorem log_apply {s : Shape} {φ : FTy} (x : FVec Ideal s φ) (i : s.Idx) : log x i = Ideal.log (x i) := rfl

end Cert.LibRowOps

end
-- ==== Proof.LibDotT.lean ====
/-
  A matrix product contracted over the LAST axis of both operands, over the extended reals, read at one entry.

  For an M×K matrix `l` and an N×K matrix `r` the product contracted over the columns of both (l · rᵀ) has, at
  entry (p, q), the value ∑ₖ l(p,k)·r(q,k). This holds for the vector unit's product into a zero accumulator and for
  the host's `dot_general` alike; the only work is to identify the contraction's one-axis index type with `Fin K`
  and the operand indices with (p,k) and (q,k).
-/
import Idealize.ShloMosaic.PureOps.Ideal.Laws
import Idealize.ShloMosaic.Lib.ValueIdx

noncomputable section

namespace Cert.LibDotT

open Idealize.ShloMosaic Idealize.ShloMosaic.ValueIdx
open scoped BigOperators

variable {M K N : ℕ} {φ₁ φ₂ : FTy}

/-- The sum over the contraction index of an M×K by N×K product contracted over both last axes is the sum over
    `k : Fin K` of the left operand at (row, k) times the right operand at (column, k). -/
theorem transposed_sum (l : FVec Ideal ⟨2, ![M, K]⟩ φ₁) (r : FVec Ideal ⟨2, ![N, K]⟩ φ₂) (p : Fin M) (q : Fin N) :
    (∑ c : (DotDims.transposedRhs M K N).contr.Idx,
        l ((DotDims.transposedRhs M K N).lhsIdx (ix2 p q) c) * r ((DotDims.transposedRhs M K N).rhsIdx (ix2 p q) c))
      = ∑ k : Fin K, l (ix2 p k) * r (ix2 q k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => rfl
      | ⟨1, _⟩ => exact ((DotDims.transposedRhs M K N).lhsIdx_val_of_single rfl (ix2 p q) _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => rfl
      | ⟨1, _⟩ => exact ((DotDims.transposedRhs M K N).rhsIdx_val_of_single rfl (ix2 p q) _).trans hk)
  rw [el, er]

/-- The vector unit's product into the zero accumulator, for any dimension record that is this one. -/
theorem matmul_zero_apply (d : DotDims ⟨2, ![M, K]⟩ ⟨2, ![N, K]⟩ ⟨2, ![M, N]⟩) (hd : d = DotDims.transposedRhs M K N)
    (prec : Option ContractPrecision) (l : FVec Ideal ⟨2, ![M, K]⟩ φ₁) (r : FVec Ideal ⟨2, ![N, K]⟩ φ₂) (p : Fin M) (q : Fin N) :
    FloatOps.matmul d prec l r (constant ⟨2, ![M, N]⟩ .f32 0x00000000#32) (ix2 p q) = ∑ k : Fin K, l (ix2 p k) * r (ix2 q k) := by
  subst hd
  exact (Ideal.matmul_constant_zero_apply _ prec l r (ix2 p q)).trans (transposed_sum l r p q)

/-- The host's `dot_general`, for any dimension record that is this one. -/
theorem dotGeneral_apply (d : DotDims ⟨2, ![M, K]⟩ ⟨2, ![N, K]⟩ ⟨2, ![M, N]⟩) (hd : d = DotDims.transposedRhs M K N)
    (prec : Option ContractPrecision) (sched : HostSchedule) (l : FVec Ideal ⟨2, ![M, K]⟩ φ₁) (r : FVec Ideal ⟨2, ![N, K]⟩ φ₂)
    (p : Fin M) (q : Fin N) :
    FloatOps.dotGeneral d prec sched l r (ix2 p q) = ∑ k : Fin K, l (ix2 p k) * r (ix2 q k) := by
  subst hd
  exact (Ideal.dotGeneral_apply _ prec sched l r (ix2 p q)).trans (transposed_sum l r p q)

end Cert.LibDotT

end
-- ==== Proof.KernelOps.lean ====
/-
  The four kernel bodies' arithmetic, read at one entry of the block they store.

  Every body loads a row vector and a block of rows of a weight matrix and stores, per output column q, the product of
  the (prepared) row with row q of the block. Two bodies first RMS-normalize the row and scale it by a weight row; all
  four replace entries of magnitude at most 0.05 by zero before the product; two add a residual column and one
  combines two products as silu(gate) · up. The narrowing of both operands to half precision before the product does
  not change a value over the extended reals, and the product into a zero accumulator is the plain sum over the
  contracted axis. Each lemma states the stored block's entry (0, q) in the flat formulas of the specification.
-/
import proofs.«136584_j38809324486825_2_alg».proof.Proof.Gen.KernelIdeal.Skeleton
import proofs.«136584_j38809324486825_2_alg».proof.Proof.Spec
import proofs.«136584_j38809324486825_2_alg».proof.Proof.LibColumn
import proofs.«136584_j38809324486825_2_alg».proof.Proof.LibRowOps
import proofs.«136584_j38809324486825_2_alg».proof.Proof.LibDotT
import Idealize.ShloMosaic.Lib.Pipeline.Value
import Idealize.ShloMosaic.Lib.ValueIdx
import Idealize.ShloMosaic.PureOps.Ideal.Laws

noncomputable section

namespace Cert.KOps
open Idealize.ShloMosaic Idealize.ShloMosaic.ValueIdx Cert.Spec
open scoped BigOperators

variable {N K : ℕ}

/-- The thresholded row, read at an entry. -/
theorem mask_apply (x : FVec Ideal ⟨2, ![1, K]⟩ .f32) (k : Fin K) :
    select (cmpf .ogt (absf x) (broadcast ⟨2, ![1, K]⟩ (Scalar.ofBits (F := Ideal) .f32 0x3D4CCCCD#32))) x
      (broadcast ⟨2, ![1, K]⟩ (Scalar.ofBits (F := Ideal) .f32 0x00000000#32)) (ix2 (0 : Fin 1) k) = thr (x (ix2 (0 : Fin 1) k)) := rfl

/-- A row times the transpose of a matrix, both narrowed to half precision on the way in (no change of value here),
    into a zero accumulator, read at an entry. -/
theorem gemv_apply (d : DotDims ⟨2, ![1, K]⟩ ⟨2, ![N, K]⟩ ⟨2, ![1, N]⟩) (hd : d = DotDims.transposedRhs 1 K N)
    (a : FVec Ideal ⟨2, ![1, K]⟩ .f32) (w : FVec Ideal ⟨2, ![N, K]⟩ .f32) (h1 h2) (q : Fin N) :
    matmul d none (truncf .bf16 a h1) (truncf .bf16 w h2) (constant ⟨2, ![1, N]⟩ .f32 0x00000000#32) (ix2 (0 : Fin 1) q)
      = gemv w (fun k => a (ix2 (0 : Fin 1) k)) q :=
  (Cert.LibDotT.matmul_zero_apply d hd none (truncf .bf16 a h1) (truncf .bf16 w h2) (0 : Fin 1) q).trans rfl

end Cert.KOps

namespace Cert.KernelIdeal.KPay
open Idealize.ShloMosaic Idealize.ShloMosaic.ValueIdx Cert.Spec Cert.KernelIdeal Cert.KernelIdeal.Gen
open scoped BigOperators

/-- The row x · (Σ x² / 4096 + ε)^(-1/2) · w of the two normalizing kernels, as the kernels spell it. -/
abbrev scaledRow (x nw : FVec Ideal S1x4096 .f32) : FVec Ideal S1x4096 .f32 :=
  mulf (mulf x (broadcastTo S1x4096 (rsqrt (addf (divf (shapeCast S1x1 (multiReduction .add [1] S1 (mulf x x) 0x00000000#32 reduces_S1x4096_S1 (.inl rfl) rfl) shapeCasts_S1_S1x1) (broadcast S1x1 (Scalar.ofBits (F := Ideal) .f32 0x45800000#32))) (broadcast S1x1 (Scalar.ofBits (F := Ideal) .f32 0x3727C5AC#32)))) broadcasts_S1x1_S1x4096)) nw

/-- That row with the entries of magnitude at most 0.05 replaced by zero. -/
abbrev nrmRow (x nw : FVec Ideal S1x4096 .f32) : FVec Ideal S1x4096 .f32 :=
  select (cmpf .ogt (absf (scaledRow x nw)) (broadcast S1x4096 (Scalar.ofBits (F := Ideal) .f32 0x3D4CCCCD#32))) (scaledRow x nw)
    (broadcast S1x4096 (Scalar.ofBits (F := Ideal) .f32 0x00000000#32))

/-- The scaled row read at an entry: the row sum is the sum of the squares, the keepdims column and its broadcast
    read the one scale at every entry. -/
theorem scaledRow_apply (x nw : FVec Ideal S1x4096 .f32) (k : Fin 4096) :
    scaledRow x nw (ix2 (0 : Fin 1) k)
      = FloatOps.mulf (FloatOps.mulf (x (ix2 (0 : Fin 1) k)) (scale fun j => x (ix2 (0 : Fin 1) j))) (nw (ix2 (0 : Fin 1) k)) := by
  have hs : multiReduction .add [1] S1 (mulf x x) 0x00000000#32 reduces_S1x4096_S1 (.inl rfl) rfl (ix1 (0 : Fin 1))
      = ∑ j : Fin 4096, FloatOps.mulf (x (ix2 (0 : Fin 1) j)) (x (ix2 (0 : Fin 1) j)) :=
    Cert.LibRowOps.rowSum_apply (mulf x x) 0x00000000#32 reduces_S1x4096_S1 (.inl rfl) rfl (0 : Fin 1)
  show FloatOps.mulf (FloatOps.mulf (x (ix2 (0 : Fin 1) k)) (broadcastTo S1x4096 _ broadcasts_S1x1_S1x4096 (ix2 (0 : Fin 1) k))) (nw (ix2 (0 : Fin 1) k)) = _
  rw [Cert.LibColumn.broadcastTo_a1_ab_apply]
  show FloatOps.mulf (FloatOps.mulf _ (FloatOps.rsqrt (FloatOps.addf (FloatOps.divf (shapeCast S1x1 _ shapeCasts_S1_S1x1 (ix2 (0 : Fin 1) (0 : Fin 1))) _) _))) _ = _
  rw [Cert.LibColumn.shapeCast_a_a1_apply, hs]
  rfl

theorem nrmRow_apply (x nw : FVec Ideal S1x4096 .f32) (k : Fin 4096) :
    nrmRow x nw (ix2 (0 : Fin 1) k) = nrm (fun j => x (ix2 (0 : Fin 1) j)) (fun j => nw (ix2 (0 : Fin 1) j)) k := by
  refine (Cert.KOps.mask_apply (scaledRow x nw) k).trans ?_
  unfold nrm
  exact congrArg thr (scaledRow_apply x nw k)

/-- The thresholded normalized row against the rows of a weight block. -/
theorem gemvNrm {N : ℕ} (d : DotDims ⟨2, ![1, 4096]⟩ ⟨2, ![N, 4096]⟩ ⟨2, ![1, N]⟩) (hd : d = DotDims.transposedRhs 1 4096 N)
    (x nw : FVec Ideal S1x4096 .f32) (w : FVec Ideal ⟨2, ![N, 4096]⟩ .f32)
    (h1 : FTy.bf16.bits < FTy.f32.bits) (h2 : FTy.bf16.bits < FTy.f32.bits) (q : Fin N) :
    matmul d none (truncf .bf16 (nrmRow x nw) h1) (truncf .bf16 w h2) (constant ⟨2, ![1, N]⟩ .f32 0x00000000#32) (ix2 (0 : Fin 1) q)
      = gemv w (nrm (fun j => x (ix2 (0 : Fin 1) j)) (fun j => nw (ix2 (0 : Fin 1) j))) q := by
  refine (Cert.KOps.gemv_apply d hd (nrmRow x nw) w h1 h2 q).trans ?_
  unfold gemv
  exact Finset.sum_congr rfl fun k _ => congrArg (· * w (ix2 q k)) (nrmRow_apply x nw k)

theorem pay0_apply (x0 x1 : Vec Ideal S1x4096 .f32) (x2 : Vec Ideal S512x4096 .f32) (q : Fin 512) :
    k0_pay1 (F := Ideal) x0 x1 x2 (ix2 (0 : Fin 1) q)
      = gemv x2 (nrm (fun k => x0 (ix2 (0 : Fin 1) k)) (fun k => x1 (ix2 (0 : Fin 1) k))) q := by
  unfold k0_pay1
  simp only [shapeCast_self]
  exact gemvNrm _ rfl x0 x1 x2 _ _ q

theorem pay1_apply (x0 : Vec Ideal S1x4096 .f32) (x1 : Vec Ideal S1x512 .f32) (x2 : Vec Ideal S512x4096 .f32) (q : Fin 512) :
    k1_pay1 (F := Ideal) x0 x1 x2 (ix2 (0 : Fin 1) q)
      = gemv x2 (fun k => thr (x0 (ix2 (0 : Fin 1) k))) q + x1 (ix2 (0 : Fin 1) q) := by
  unfold k1_pay1
  simp only [shapeCast_self]
  show FloatOps.addf _ _ = _
  refine congrArg (· + x1 (ix2 (0 : Fin 1) q)) ?_
  exact Cert.KOps.gemv_apply _ rfl _ x2 _ _ q

theorem pay2_apply (x0 x1 : Vec Ideal S1x4096 .f32) (x2 x3 : Vec Ideal S256x4096 .f32) (q : Fin 256) :
    k2_pay1 (F := Ideal) x0 x1 x2 x3 (ix2 (0 : Fin 1) q)
      = FloatOps.mulf (silu (gemv x2 (nrm (fun k => x0 (ix2 (0 : Fin 1) k)) (fun k => x1 (ix2 (0 : Fin 1) k))) q))
          (gemv x3 (nrm (fun k => x0 (ix2 (0 : Fin 1) k)) (fun k => x1 (ix2 (0 : Fin 1) k))) q) := by
  have h25 := gemvNrm dot_S1x4096_S256x4096_S1x256_1_1_0_0_n_n rfl x0 x1 x2 bitsLt_bf16_f32 bitsLt_bf16_f32 q
  have h26 := gemvNrm dot_S1x4096_S256x4096_S1x256_1_1_0_0_n_n rfl x0 x1 x3 bitsLt_bf16_f32 bitsLt_bf16_f32 q
  unfold k2_pay1
  simp only [shapeCast_self]
  unfold silu
  exact congrArg₂ FloatOps.mulf (congrArg₂ FloatOps.mulf h25 (congrArg FloatOps.logistic h25)) h26

theorem pay3_apply (x0 : Vec Ideal S1x11008 .f32) (x1 : Vec Ideal S1x256 .f32) (x2 : Vec Ideal S256x11008 .f32) (q : Fin 256) :
    k3_pay1 (F := Ideal) x0 x1 x2 (ix2 (0 : Fin 1) q)
      = gemv x2 (fun k => thr (x0 (ix2 (0 : Fin 1) k))) q + x1 (ix2 (0 : Fin 1) q) := by
  unfold k3_pay1
  simp only [shapeCast_self]
  show FloatOps.addf _ _ = _
  refine congrArg (· + x1 (ix2 (0 : Fin 1) q)) ?_
  exact Cert.KOps.gemv_apply _ rfl _ x2 _ _ q

end Cert.KernelIdeal.KPay

end
-- ==== Proof.KernelRegions.lean ====
/-
  What each of the four kernel launches leaves in its result array, as one function of the arrays it finds.

  A launch runs its body once per grid point t. At point t the row operands are whole rows (block index 0), the
  weight operand is rows tn·t … tn·t + tn − 1 of the weight matrix, and the result block is columns tn·t … tn·t + tn − 1
  of the result row; a residual operand is the same columns of its row. So what point t writes back is block t of ONE
  function G of the whole arrays (column n of the result depends on row n of the weights), the result blocks tile the
  result row (column n lies in the block of point n / tn), and the array after the launch is G. The arrays as the
  launch finds them are a parameter V, so each statement serves whatever the earlier segments left.
-/
import proofs.«136584_j38809324486825_2_alg».proof.Proof.Gen.KernelIdeal.Frame
import proofs.«136584_j38809324486825_2_alg».proof.Proof.KernelOps
import Idealize.ShloMosaic.Lib.Pipeline.Value
import Idealize.ShloMosaic.Lib.ValueIdx

noncomputable section

namespace Cert.KernelIdeal.KVal
open Idealize.ShloMosaic Idealize.ShloMosaic.TcCoe Idealize.ShloMosaic.ValueIdx Idealize.SL.Sem Cert.Spec Cert.KernelIdeal Cert.KernelIdeal.Gen Cert.KernelIdeal.KPay
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-! ## Region 0 -/

/-- The windows' block indices at point t, decided over the grid. -/
theorem idx_facts0 : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = t.val :=
  (by decide +kernel : ∀ t : Fin grid0.N, _)

theorem lt0 (t : Fin cfg0.N) : t.val < 24 := by
  have h := t.isLt
  have hN : cfg0.N = 24 := N_0
  omega

/-- Window 0's block is its whole row. -/
theorem iblk0_0 (c : Dev nD) (t : Fin cfg0.N) (k : Fin 4096) :
    iblk0 V c 0 t (ix2 (0 : Fin 1) k) = V c main_v0 (ix2 (0 : Fin 1) k) := by
  obtain ⟨e00, e01, _, _, _, _, _, _⟩ := idx_facts0 t
  unfold iblk0
  rw [View.read_apply]
  show V c main_v0 (((cfg0.win 0).blk t).view.emb (ix2 (0 : Fin 1) k)) = V c main_v0 (ix2 (0 : Fin 1) k)
  refine congrArg (V c main_v0) (funext fun a => Fin.ext ?_)
  match a with
  | ⟨0, _⟩ => show win0_0.index t (0 : Fin 2) * 1 + 1 * 0 = 0; omega
  | ⟨1, _⟩ => show win0_0.index t (1 : Fin 2) * 4096 + 1 * k.val = k.val; omega

/-- Window 1's block is its whole row. -/
theorem iblk0_1 (c : Dev nD) (t : Fin cfg0.N) (k : Fin 4096) :
    iblk0 V c 1 t (ix2 (0 : Fin 1) k) = V c main_v1 (ix2 (0 : Fin 1) k) := by
  obtain ⟨_, _, e10, e11, _, _, _, _⟩ := idx_facts0 t
  unfold iblk0
  rw [View.read_apply]
  show V c main_v1 (((cfg0.win 1).blk t).view.emb (ix2 (0 : Fin 1) k)) = V c main_v1 (ix2 (0 : Fin 1) k)
  refine congrArg (V c main_v1) (funext fun a => Fin.ext ?_)
  match a with
  | ⟨0, _⟩ => show win0_1.index t (0 : Fin 2) * 1 + 1 * 0 = 0; omega
  | ⟨1, _⟩ => show win0_1.index t (1 : Fin 2) * 4096 + 1 * k.val = k.val; omega

/-- Window 2's block at point t is rows 512 t … 512 t + 511 of the weights. -/
theorem iblk0_2 (c : Dev nD) (t : Fin cfg0.N) (q : Fin 512) (k : Fin 4096) (n : Fin 12288) (hn : n.val = t.val * 512 + q.val) :
    iblk0 V c 2 t (ix2 q k) = V c main_arg2 (ix2 n k) := by
  obtain ⟨_, _, _, _, e20, e21, _, _⟩ := idx_facts0 t
  unfold iblk0
  rw [View.read_apply]
  show V c main_arg2 (((cfg0.win 2).blk t).view.emb (ix2 q k)) = V c main_arg2 (ix2 n k)
  refine congrArg (V c main_arg2) (funext fun a => Fin.ext ?_)
  match a with
  | ⟨0, _⟩ => show win0_2.index t (0 : Fin 2) * 512 + 1 * q.val = n.val; omega
  | ⟨1, _⟩ => show win0_2.index t (1 : Fin 2) * 4096 + 1 * k.val = k.val; omega

/-- Region 0's result: column n is the thresholded normalized input against row n of the weights. -/
def G0 (x nw : FVec Ideal S1x4096 .f32) (W : FVec Ideal S12288x4096 .f32) : FVec Ideal S1x12288 .f32 :=
  fun i => gemv W (nrm (fun k => x (ix2 (0 : Fin 1) k)) (fun k => nw (ix2 (0 : Fin 1) k))) (⟨(i 1).val, (i 1).isLt⟩ : Fin 12288)

/-- What point t writes back is block t of that function of the arrays as the region finds them. -/
theorem flushed0 (c : Dev nD) (t : Fin cfg0.N) :
    (dat0 V c).flushed 3 t = ((cfg0.win 3).blk t).view.read (Elt Ideal) (G0 (V c main_v0) (V c main_v1) (V c main_arg2)) := by
  show (cfg0.win 3).cut (grid0.coords t) ((dat0 V c).after 3 t) = _
  rw [after0_3]
  unfold out0_3
  rw [View.canon_unit_zero hz]
  simp only [View.ld_unit_zero (S := S1x4096) hz, View.ld_unit_zero (S := S512x4096) hz]
  obtain ⟨_, _, _, _, _, _, e30, e31⟩ := idx_facts0 t
  have ht := lt0 t
  funext y
  obtain ⟨p, q, rfl⟩ : ∃ (p : Fin 1) (q : Fin 512), y = ix2 p q := ⟨y 0, y 1, eq_ix2 y⟩
  obtain rfl : p = 0 := Subsingleton.elim _ _
  rw [View.read_apply]
  show k0_pay1 (F := Ideal) (iblk0 V c 0 t) (iblk0 V c 1 t) (iblk0 V c 2 t) (ix2 (0 : Fin 1) q) = _
  rw [pay0_apply]
  unfold G0
  have hq : t.val * 512 + q.val < 12288 := by have := q.isLt; omega
  have hidx : (⟨((((cfg0.win 3).blk t).view.emb (ix2 (0 : Fin 1) q)) 1).val, ((((cfg0.win 3).blk t).view.emb (ix2 (0 : Fin 1) q)) 1).isLt⟩ : Fin 12288) = ⟨t.val * 512 + q.val, hq⟩ := by
    apply Fin.ext
    show win0_3.index t (1 : Fin 2) * 512 + 1 * q.val = t.val * 512 + q.val
    omega
  rw [hidx]
  unfold gemv
  simp only [iblk0_0, iblk0_1, fun k => iblk0_2 V c t q k ⟨t.val * 512 + q.val, hq⟩ rfl, cast_eq]

/-- An index of the result is in point t's block iff each coordinate is in the block's range. -/
theorem mem_blk0 (t : Fin cfg0.N) (i : S1x12288.Idx) :
    i ∈ ((cfg0.win 3).blk t).view.set ↔ ∀ a : Fin 2, win0_3.index t a * S1x512.size a ≤ (i a).val ∧ (i a).val < win0_3.index t a * S1x512.size a + S1x512.size a := by
  show i ∈ ((View.whole main_v3).slice (win0_3.rect t)).set ↔ _
  rw [View.set_slice_whole, Rect.mem_set_unit]
  exact Iff.rfl

/-- Column n of the result lies in the block of point n / 512. -/
theorem cover0 (i : S1x12288.Idx) : ∃ t : Fin cfg0.N, (cfg0.win 3).flush t = true ∧ i ∈ ((cfg0.win 3).blk t).view.set := by
  have hi0 : (i 0).val < 1 := (i 0).isLt
  have hi1 : (i 1).val < 12288 := (i 1).isLt
  have hN : cfg0.N = 24 := N_0
  have htl : (i 1).val / 512 < cfg0.N := by rw [hN]; omega
  obtain ⟨_, _, _, _, _, _, e30, e31⟩ := idx_facts0 ⟨(i 1).val / 512, htl⟩
  refine ⟨⟨(i 1).val / 512, htl⟩, flush0_3 _, ?_⟩
  rw [mem_blk0]
  intro a
  match a with
  | ⟨0, _⟩ => show win0_3.index ⟨(i 1).val / 512, htl⟩ (0 : Fin 2) * 1 ≤ (i 0).val ∧ (i 0).val < win0_3.index ⟨(i 1).val / 512, htl⟩ (0 : Fin 2) * 1 + 1; omega
  | ⟨1, _⟩ => show win0_3.index ⟨(i 1).val / 512, htl⟩ (1 : Fin 2) * 512 ≤ (i 1).val ∧ (i 1).val < win0_3.index ⟨(i 1).val / 512, htl⟩ (1 : Fin 2) * 512 + 512; (have e : (⟨(i 1).val / 512, htl⟩ : Fin cfg0.N).val = (i 1).val / 512 := rfl); omega

/-- The result array after the region: that function of the arrays as the region finds them. -/
theorem final0 (c : Dev nD) : (dat0 V c).arrAt 3 cfg0.N = G0 (V c main_v0) (V c main_v1) (V c main_arg2) :=
  (dat0 V c).arrAt_eq_of_cover 3 _ (fun t _ => flushed0 V c t) cover0

/-! ## Region 1 -/

/-- The windows' block indices at point t, decided over the grid. -/
theorem idx_facts1 : ∀ t : Fin cfg1.N, win1_0.index t (0 : Fin 2) = 0 ∧ win1_0.index t (1 : Fin 2) = 0
    ∧ win1_1.index t (0 : Fin 2) = 0 ∧ win1_1.index t (1 : Fin 2) = t.val
    ∧ win1_2.index t (0 : Fin 2) = t.val ∧ win1_2.index t (1 : Fin 2) = 0
    ∧ win1_3.index t (0 : Fin 2) = 0 ∧ win1_3.index t (1 : Fin 2) = t.val :=
  (by decide +kernel : ∀ t : Fin grid1.N, _)

theorem lt1 (t : Fin cfg1.N) : t.val < 8 := by
  have h := t.isLt
  have hN : cfg1.N = 8 := N_1
  omega

/-- Window 0's block is its whole row. -/
theorem iblk1_0 (c : Dev nD) (t : Fin cfg1.N) (k : Fin 4096) :
    iblk1 V c 0 t (ix2 (0 : Fin 1) k) = V c main_v93 (ix2 (0 : Fin 1) k) := by
  obtain ⟨e00, e01, _, _, _, _, _, _⟩ := idx_facts1 t
  unfold iblk1
  rw [View.read_apply]
  show V c main_v93 (((cfg1.win 0).blk t).view.emb (ix2 (0 : Fin 1) k)) = V c main_v93 (ix2 (0 : Fin 1) k)
  refine congrArg (V c main_v93) (funext fun a => Fin.ext ?_)
  match a with
  | ⟨0, _⟩ => show win1_0.index t (0 : Fin 2) * 1 + 1 * 0 = 0; omega
  | ⟨1, _⟩ => show win1_0.index t (1 : Fin 2) * 4096 + 1 * k.val = k.val; omega

/-- Window 1's block at point t is columns 512 t … 512 t + 511 of its row. -/
theorem iblk1_1 (c : Dev nD) (t : Fin cfg1.N) (q : Fin 512) (n : Fin 4096) (hn : n.val = t.val * 512 + q.val) :
    iblk1 V c 1 t (ix2 (0 : Fin 1) q) = V c main_v0 (ix2 (0 : Fin 1) n) := by
  obtain ⟨_, _, e10, e11, _, _, _, _⟩ := idx_facts1 t
  unfold iblk1
  rw [View.read_apply]
  show V c main_v0 (((cfg1.win 1).blk t).view.emb (ix2 (0 : Fin 1) q)) = V c main_v0 (ix2 (0 : Fin 1) n)
  refine congrArg (V c main_v0) (funext fun a => Fin.ext ?_)
  match a with
  | ⟨0, _⟩ => show win1_1.index t (0 : Fin 2) * 1 + 1 * 0 = 0; omega
  | ⟨1, _⟩ => show win1_1.index t (1 : Fin 2) * 512 + 1 * q.val = n.val; omega

/-- Window 2's block at point t is rows 512 t … 512 t + 511 of the weights. -/
theorem iblk1_2 (c : Dev nD) (t : Fin cfg1.N) (q : Fin 512) (k : Fin 4096) (n : Fin 4096) (hn : n.val = t.val * 512 + q.val) :
    iblk1 V c 2 t (ix2 q k) = V c main_arg3 (ix2 n k) := by
  obtain ⟨_, _, _, _, e20, e21, _, _⟩ := idx_facts1 t
  unfold iblk1
  rw [View.read_apply]
  show V c main_arg3 (((cfg1.win 2).blk t).view.emb (ix2 q k)) = V c main_arg3 (ix2 n k)
  refine congrArg (V c main_arg3) (funext fun a => Fin.ext ?_)
  match a with
  | ⟨0, _⟩ => show win1_2.index t (0 : Fin 2) * 512 + 1 * q.val = n.val; omega
  | ⟨1, _⟩ => show win1_2.index t (1 : Fin 2) * 4096 + 1 * k.val = k.val; omega

/-- Region 1's result: column n is the thresholded input against row n of the weights, plus the residual's column n. -/
def G1 (y x : FVec Ideal S1x4096 .f32) (W : FVec Ideal S4096x4096 .f32) : FVec Ideal S1x4096 .f32 :=
  fun i => gemv W (fun k => thr (y (ix2 (0 : Fin 1) k))) (⟨(i 1).val, (i 1).isLt⟩ : Fin 4096) + x (ix2 (0 : Fin 1) (⟨(i 1).val, (i 1).isLt⟩ : Fin 4096))

/-- What point t writes back is block t of that function of the arrays as the region finds them. -/
theorem flushed1 (c : Dev nD) (t : Fin cfg1.N) :
    (dat1 V c).flushed 3 t = ((cfg1.win 3).blk t).view.read (Elt Ideal) (G1 (V c main_v93) (V c main_v0) (V c main_arg3)) := by
  show (cfg1.win 3).cut (grid1.coords t) ((dat1 V c).after 3 t) = _
  rw [after1_3]
  unfold out1_3
  rw [View.canon_unit_zero hz]
  simp only [View.ld_unit_zero (S := S1x4096) hz, View.ld_unit_zero (S := S1x512) hz, View.ld_unit_zero (S := S512x4096) hz]
  obtain ⟨_, _, _, _, _, _, e30, e31⟩ := idx_facts1 t
  have ht := lt1 t
  funext y
  obtain ⟨p, q, rfl⟩ : ∃ (p : Fin 1) (q : Fin 512), y = ix2 p q := ⟨y 0, y 1, eq_ix2 y⟩
  obtain rfl : p = 0 := Subsingleton.elim _ _
  rw [View.read_apply]
  show k1_pay1 (F := Ideal) (iblk1 V c 0 t) (iblk1 V c 1 t) (iblk1 V c 2 t) (ix2 (0 : Fin 1) q) = _
  rw [pay1_apply]
  unfold G1
  have hq : t.val * 512 + q.val < 4096 := by have := q.isLt; omega
  have hidx : (⟨((((cfg1.win 3).blk t).view.emb (ix2 (0 : Fin 1) q)) 1).val, ((((cfg1.win 3).blk t).view.emb (ix2 (0 : Fin 1) q)) 1).isLt⟩ : Fin 4096) = ⟨t.val * 512 + q.val, hq⟩ := by
    apply Fin.ext
    show win1_3.index t (1 : Fin 2) * 512 + 1 * q.val = t.val * 512 + q.val
    omega
  rw [hidx]
  unfold gemv
  simp only [iblk1_0, iblk1_1 V c t q ⟨t.val * 512 + q.val, hq⟩ rfl, fun k => iblk1_2 V c t q k ⟨t.val * 512 + q.val, hq⟩ rfl, cast_eq]

/-- An index of the result is in point t's block iff each coordinate is in the block's range. -/
theorem mem_blk1 (t : Fin cfg1.N) (i : S1x4096.Idx) :
    i ∈ ((cfg1.win 3).blk t).view.set ↔ ∀ a : Fin 2, win1_3.index t a * S1x512.size a ≤ (i a).val ∧ (i a).val < win1_3.index t a * S1x512.size a + S1x512.size a := by
  show i ∈ ((View.whole main_v94).slice (win1_3.rect t)).set ↔ _
  rw [View.set_slice_whole, Rect.mem_set_unit]
  exact Iff.rfl

/-- Column n of the result lies in the block of point n / 512. -/
theorem cover1 (i : S1x4096.Idx) : ∃ t : Fin cfg1.N, (cfg1.win 3).flush t = true ∧ i ∈ ((cfg1.win 3).blk t).view.set := by
  have hi0 : (i 0).val < 1 := (i 0).isLt
  have hi1 : (i 1).val < 4096 := (i 1).isLt
  have hN : cfg1.N = 8 := N_1
  have htl : (i 1).val / 512 < cfg1.N := by rw [hN]; omega
  obtain ⟨_, _, _, _, _, _, e30, e31⟩ := idx_facts1 ⟨(i 1).val / 512, htl⟩
  refine ⟨⟨(i 1).val / 512, htl⟩, flush1_3 _, ?_⟩
  rw [mem_blk1]
  intro a
  match a with
  | ⟨0, _⟩ => show win1_3.index ⟨(i 1).val / 512, htl⟩ (0 : Fin 2) * 1 ≤ (i 0).val ∧ (i 0).val < win1_3.index ⟨(i 1).val / 512, htl⟩ (0 : Fin 2) * 1 + 1; omega
  | ⟨1, _⟩ => show win1_3.index ⟨(i 1).val / 512, htl⟩ (1 : Fin 2) * 512 ≤ (i 1).val ∧ (i 1).val < win1_3.index ⟨(i 1).val / 512, htl⟩ (1 : Fin 2) * 512 + 512; (have e : (⟨(i 1).val / 512, htl⟩ : Fin cfg1.N).val = (i 1).val / 512 := rfl); omega

/-- The result array after the region: that function of the arrays as the region finds them. -/
theorem final1 (c : Dev nD) : (dat1 V c).arrAt 3 cfg1.N = G1 (V c main_v93) (V c main_v0) (V c main_arg3) :=
  (dat1 V c).arrAt_eq_of_cover 3 _ (fun t _ => flushed1 V c t) cover1

/-! ## Region 2 -/

/-- The windows' block indices at point t, decided over the grid. -/
theorem idx_facts2 : ∀ t : Fin cfg2.N, win2_0.index t (0 : Fin 2) = 0 ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = 0 ∧ win2_4.index t (1 : Fin 2) = t.val :=
  (by decide +kernel : ∀ t : Fin grid2.N, _)

theorem lt2 (t : Fin cfg2.N) : t.val < 43 := by
  have h := t.isLt
  have hN : cfg2.N = 43 := N_2
  omega

/-- Window 0's block is its whole row. -/
theorem iblk2_0 (c : Dev nD) (t : Fin cfg2.N) (k : Fin 4096) :
    iblk2 V c 0 t (ix2 (0 : Fin 1) k) = V c main_v94 (ix2 (0 : Fin 1) k) := by
  obtain ⟨e00, e01, _, _, _, _, _, _, _, _⟩ := idx_facts2 t
  unfold iblk2
  rw [View.read_apply]
  show V c main_v94 (((cfg2.win 0).blk t).view.emb (ix2 (0 : Fin 1) k)) = V c main_v94 (ix2 (0 : Fin 1) k)
  refine congrArg (V c main_v94) (funext fun a => Fin.ext ?_)
  match a with
  | ⟨0, _⟩ => show win2_0.index t (0 : Fin 2) * 1 + 1 * 0 = 0; omega
  | ⟨1, _⟩ => show win2_0.index t (1 : Fin 2) * 4096 + 1 * k.val = k.val; omega

/-- Window 1's block is its whole row. -/
theorem iblk2_1 (c : Dev nD) (t : Fin cfg2.N) (k : Fin 4096) :
    iblk2 V c 1 t (ix2 (0 : Fin 1) k) = V c main_v2 (ix2 (0 : Fin 1) k) := by
  obtain ⟨_, _, e10, e11, _, _, _, _, _, _⟩ := idx_facts2 t
  unfold iblk2
  rw [View.read_apply]
  show V c main_v2 (((cfg2.win 1).blk t).view.emb (ix2 (0 : Fin 1) k)) = V c main_v2 (ix2 (0 : Fin 1) k)
  refine congrArg (V c main_v2) (funext fun a => Fin.ext ?_)
  match a with
  | ⟨0, _⟩ => show win2_1.index t (0 : Fin 2) * 1 + 1 * 0 = 0; omega
  | ⟨1, _⟩ => show win2_1.index t (1 : Fin 2) * 4096 + 1 * k.val = k.val; omega

/-- Window 2's block at point t is rows 256 t … 256 t + 255 of the weights. -/
theorem iblk2_2 (c : Dev nD) (t : Fin cfg2.N) (q : Fin 256) (k : Fin 4096) (n : Fin 11008) (hn : n.val = t.val * 256 + q.val) :
    iblk2 V c 2 t (ix2 q k) = V c main_arg4 (ix2 n k) := by
  obtain ⟨_, _, _, _, e20, e21, _, _, _, _⟩ := idx_facts2 t
  unfold iblk2
  rw [View.read_apply]
  show V c main_arg4 (((cfg2.win 2).blk t).view.emb (ix2 q k)) = V c main_arg4 (ix2 n k)
  refine congrArg (V c main_arg4) (funext fun a => Fin.ext ?_)
  match a with
  | ⟨0, _⟩ => show win2_2.index t (0 : Fin 2) * 256 + 1 * q.val = n.val; omega
  | ⟨1, _⟩ => show win2_2.index t (1 : Fin 2) * 4096 + 1 * k.val = k.val; omega

/-- Window 3's block at point t is rows 256 t … 256 t + 255 of the weights. -/
theorem iblk2_3 (c : Dev nD) (t : Fin cfg2.N) (q : Fin 256) (k : Fin 4096) (n : Fin 11008) (hn : n.val = t.val * 256 + q.val) :
    iblk2 V c 3 t (ix2 q k) = V c main_arg6 (ix2 n k) := by
  obtain ⟨_, _, _, _, _, _, e30, e31, _, _⟩ := idx_facts2 t
  unfold iblk2
  rw [View.read_apply]
  show V c main_arg6 (((cfg2.win 3).blk t).view.emb (ix2 q k)) = V c main_arg6 (ix2 n k)
  refine congrArg (V c main_arg6) (funext fun a => Fin.ext ?_)
  match a with
  | ⟨0, _⟩ => show win2_3.index t (0 : Fin 2) * 256 + 1 * q.val = n.val; omega
  | ⟨1, _⟩ => show win2_3.index t (1 : Fin 2) * 4096 + 1 * k.val = k.val; omega

/-- Region 2's result: column n is silu of the gate product times the up product, both of the thresholded normalized input. -/
def G2 (h nw : FVec Ideal S1x4096 .f32) (W1 W3 : FVec Ideal S11008x4096 .f32) : FVec Ideal S1x11008 .f32 :=
  fun i => FloatOps.mulf (silu (gemv W1 (nrm (fun k => h (ix2 (0 : Fin 1) k)) (fun k => nw (ix2 (0 : Fin 1) k))) (⟨(i 1).val, (i 1).isLt⟩ : Fin 11008)))
    (gemv W3 (nrm (fun k => h (ix2 (0 : Fin 1) k)) (fun k => nw (ix2 (0 : Fin 1) k))) (⟨(i 1).val, (i 1).isLt⟩ : Fin 11008))

/-- What point t writes back is block t of that function of the arrays as the region finds them. -/
theorem flushed2 (c : Dev nD) (t : Fin cfg2.N) :
    (dat2 V c).flushed 4 t = ((cfg2.win 4).blk t).view.read (Elt Ideal) (G2 (V c main_v94) (V c main_v2) (V c main_arg4) (V c main_arg6)) := by
  show (cfg2.win 4).cut (grid2.coords t) ((dat2 V c).after 4 t) = _
  rw [after2_4]
  unfold out2_4
  rw [View.canon_unit_zero hz]
  simp only [View.ld_unit_zero (S := S1x4096) hz, View.ld_unit_zero (S := S256x4096) hz]
  obtain ⟨_, _, _, _, _, _, _, _, e40, e41⟩ := idx_facts2 t
  have ht := lt2 t
  funext y
  obtain ⟨p, q, rfl⟩ : ∃ (p : Fin 1) (q : Fin 256), y = ix2 p q := ⟨y 0, y 1, eq_ix2 y⟩
  obtain rfl : p = 0 := Subsingleton.elim _ _
  rw [View.read_apply]
  show k2_pay1 (F := Ideal) (iblk2 V c 0 t) (iblk2 V c 1 t) (iblk2 V c 2 t) (iblk2 V c 3 t) (ix2 (0 : Fin 1) q) = _
  rw [pay2_apply]
  unfold G2
  have hq : t.val * 256 + q.val < 11008 := by have := q.isLt; omega
  have hidx : (⟨((((cfg2.win 4).blk t).view.emb (ix2 (0 : Fin 1) q)) 1).val, ((((cfg2.win 4).blk t).view.emb (ix2 (0 : Fin 1) q)) 1).isLt⟩ : Fin 11008) = ⟨t.val * 256 + q.val, hq⟩ := by
    apply Fin.ext
    show win2_4.index t (1 : Fin 2) * 256 + 1 * q.val = t.val * 256 + q.val
    omega
  rw [hidx]
  unfold gemv
  simp only [iblk2_0, iblk2_1, fun k => iblk2_2 V c t q k ⟨t.val * 256 + q.val, hq⟩ rfl, fun k => iblk2_3 V c t q k ⟨t.val * 256 + q.val, hq⟩ rfl, cast_eq]

/-- An index of the result is in point t's block iff each coordinate is in the block's range. -/
theorem mem_blk2 (t : Fin cfg2.N) (i : S1x11008.Idx) :
    i ∈ ((cfg2.win 4).blk t).view.set ↔ ∀ a : Fin 2, win2_4.index t a * S1x256.size a ≤ (i a).val ∧ (i a).val < win2_4.index t a * S1x256.size a + S1x256.size a := by
  show i ∈ ((View.whole main_v95).slice (win2_4.rect t)).set ↔ _
  rw [View.set_slice_whole, Rect.mem_set_unit]
  exact Iff.rfl

/-- Column n of the result lies in the block of point n / 256. -/
theorem cover2 (i : S1x11008.Idx) : ∃ t : Fin cfg2.N, (cfg2.win 4).flush t = true ∧ i ∈ ((cfg2.win 4).blk t).view.set := by
  have hi0 : (i 0).val < 1 := (i 0).isLt
  have hi1 : (i 1).val < 11008 := (i 1).isLt
  have hN : cfg2.N = 43 := N_2
  have htl : (i 1).val / 256 < cfg2.N := by rw [hN]; omega
  obtain ⟨_, _, _, _, _, _, _, _, e40, e41⟩ := idx_facts2 ⟨(i 1).val / 256, htl⟩
  refine ⟨⟨(i 1).val / 256, htl⟩, flush2_4 _, ?_⟩
  rw [mem_blk2]
  intro a
  match a with
  | ⟨0, _⟩ => show win2_4.index ⟨(i 1).val / 256, htl⟩ (0 : Fin 2) * 1 ≤ (i 0).val ∧ (i 0).val < win2_4.index ⟨(i 1).val / 256, htl⟩ (0 : Fin 2) * 1 + 1; omega
  | ⟨1, _⟩ => show win2_4.index ⟨(i 1).val / 256, htl⟩ (1 : Fin 2) * 256 ≤ (i 1).val ∧ (i 1).val < win2_4.index ⟨(i 1).val / 256, htl⟩ (1 : Fin 2) * 256 + 256; (have e : (⟨(i 1).val / 256, htl⟩ : Fin cfg2.N).val = (i 1).val / 256 := rfl); omega

/-- The result array after the region: that function of the arrays as the region finds them. -/
theorem final2 (c : Dev nD) : (dat2 V c).arrAt 4 cfg2.N = G2 (V c main_v94) (V c main_v2) (V c main_arg4) (V c main_arg6) :=
  (dat2 V c).arrAt_eq_of_cover 4 _ (fun t _ => flushed2 V c t) cover2

/-! ## Region 3 -/

/-- The windows' block indices at point t, decided over the grid. -/
theorem idx_facts3 : ∀ t : Fin cfg3.N, win3_0.index t (0 : Fin 2) = 0 ∧ win3_0.index t (1 : Fin 2) = 0
    ∧ win3_1.index t (0 : Fin 2) = 0 ∧ win3_1.index t (1 : Fin 2) = t.val
    ∧ win3_2.index t (0 : Fin 2) = t.val ∧ win3_2.index t (1 : Fin 2) = 0
    ∧ win3_3.index t (0 : Fin 2) = 0 ∧ win3_3.index t (1 : Fin 2) = t.val :=
  (by decide +kernel : ∀ t : Fin grid3.N, _)

theorem lt3 (t : Fin cfg3.N) : t.val < 16 := by
  have h := t.isLt
  have hN : cfg3.N = 16 := N_3
  omega

/-- Window 0's block is its whole row. -/
theorem iblk3_0 (c : Dev nD) (t : Fin cfg3.N) (k : Fin 11008) :
    iblk3 V c 0 t (ix2 (0 : Fin 1) k) = V c main_v95 (ix2 (0 : Fin 1) k) := by
  obtain ⟨e00, e01, _, _, _, _, _, _⟩ := idx_facts3 t
  unfold iblk3
  rw [View.read_apply]
  show V c main_v95 (((cfg3.win 0).blk t).view.emb (ix2 (0 : Fin 1) k)) = V c main_v95 (ix2 (0 : Fin 1) k)
  refine congrArg (V c main_v95) (funext fun a => Fin.ext ?_)
  match a with
  | ⟨0, _⟩ => show win3_0.index t (0 : Fin 2) * 1 + 1 * 0 = 0; omega
  | ⟨1, _⟩ => show win3_0.index t (1 : Fin 2) * 11008 + 1 * k.val = k.val; omega

/-- Window 1's block at point t is columns 256 t … 256 t + 255 of its row. -/
theorem iblk3_1 (c : Dev nD) (t : Fin cfg3.N) (q : Fin 256) (n : Fin 4096) (hn : n.val = t.val * 256 + q.val) :
    iblk3 V c 1 t (ix2 (0 : Fin 1) q) = V c main_v94 (ix2 (0 : Fin 1) n) := by
  obtain ⟨_, _, e10, e11, _, _, _, _⟩ := idx_facts3 t
  unfold iblk3
  rw [View.read_apply]
  show V c main_v94 (((cfg3.win 1).blk t).view.emb (ix2 (0 : Fin 1) q)) = V c main_v94 (ix2 (0 : Fin 1) n)
  refine congrArg (V c main_v94) (funext fun a => Fin.ext ?_)
  match a with
  | ⟨0, _⟩ => show win3_1.index t (0 : Fin 2) * 1 + 1 * 0 = 0; omega
  | ⟨1, _⟩ => show win3_1.index t (1 : Fin 2) * 256 + 1 * q.val = n.val; omega

/-- Window 2's block at point t is rows 256 t … 256 t + 255 of the weights. -/
theorem iblk3_2 (c : Dev nD) (t : Fin cfg3.N) (q : Fin 256) (k : Fin 11008) (n : Fin 4096) (hn : n.val = t.val * 256 + q.val) :
    iblk3 V c 2 t (ix2 q k) = V c main_arg5 (ix2 n k) := by
  obtain ⟨_, _, _, _, e20, e21, _, _⟩ := idx_facts3 t
  unfold iblk3
  rw [View.read_apply]
  show V c main_arg5 (((cfg3.win 2).blk t).view.emb (ix2 q k)) = V c main_arg5 (ix2 n k)
  refine congrArg (V c main_arg5) (funext fun a => Fin.ext ?_)
  match a with
  | ⟨0, _⟩ => show win3_2.index t (0 : Fin 2) * 256 + 1 * q.val = n.val; omega
  | ⟨1, _⟩ => show win3_2.index t (1 : Fin 2) * 11008 + 1 * k.val = k.val; omega

/-- Region 3's result: column n is the thresholded activation against row n of the weights, plus the residual's column n. -/
def G3 (a : FVec Ideal S1x11008 .f32) (h : FVec Ideal S1x4096 .f32) (W : FVec Ideal S4096x11008 .f32) : FVec Ideal S1x4096 .f32 :=
  fun i => gemv W (fun k => thr (a (ix2 (0 : Fin 1) k))) (⟨(i 1).val, (i 1).isLt⟩ : Fin 4096) + h (ix2 (0 : Fin 1) (⟨(i 1).val, (i 1).isLt⟩ : Fin 4096))

/-- What point t writes back is block t of that function of the arrays as the region finds them. -/
theorem flushed3 (c : Dev nD) (t : Fin cfg3.N) :
    (dat3 V c).flushed 3 t = ((cfg3.win 3).blk t).view.read (Elt Ideal) (G3 (V c main_v95) (V c main_v94) (V c main_arg5)) := by
  show (cfg3.win 3).cut (grid3.coords t) ((dat3 V c).after 3 t) = _
  rw [after3_3]
  unfold out3_3
  rw [View.canon_unit_zero hz]
  simp only [View.ld_unit_zero (S := S1x11008) hz, View.ld_unit_zero (S := S1x256) hz, View.ld_unit_zero (S := S256x11008) hz]
  obtain ⟨_, _, _, _, _, _, e30, e31⟩ := idx_facts3 t
  have ht := lt3 t
  funext y
  obtain ⟨p, q, rfl⟩ : ∃ (p : Fin 1) (q : Fin 256), y = ix2 p q := ⟨y 0, y 1, eq_ix2 y⟩
  obtain rfl : p = 0 := Subsingleton.elim _ _
  rw [View.read_apply]
  show k3_pay1 (F := Ideal) (iblk3 V c 0 t) (iblk3 V c 1 t) (iblk3 V c 2 t) (ix2 (0 : Fin 1) q) = _
  rw [pay3_apply]
  unfold G3
  have hq : t.val * 256 + q.val < 4096 := by have := q.isLt; omega
  have hidx : (⟨((((cfg3.win 3).blk t).view.emb (ix2 (0 : Fin 1) q)) 1).val, ((((cfg3.win 3).blk t).view.emb (ix2 (0 : Fin 1) q)) 1).isLt⟩ : Fin 4096) = ⟨t.val * 256 + q.val, hq⟩ := by
    apply Fin.ext
    show win3_3.index t (1 : Fin 2) * 256 + 1 * q.val = t.val * 256 + q.val
    omega
  rw [hidx]
  unfold gemv
  simp only [iblk3_0, iblk3_1 V c t q ⟨t.val * 256 + q.val, hq⟩ rfl, fun k => iblk3_2 V c t q k ⟨t.val * 256 + q.val, hq⟩ rfl, cast_eq]

/-- An index of the result is in point t's block iff each coordinate is in the block's range. -/
theorem mem_blk3 (t : Fin cfg3.N) (i : S1x4096.Idx) :
    i ∈ ((cfg3.win 3).blk t).view.set ↔ ∀ a : Fin 2, win3_3.index t a * S1x256.size a ≤ (i a).val ∧ (i a).val < win3_3.index t a * S1x256.size a + S1x256.size a := by
  show i ∈ ((View.whole main_v96).slice (win3_3.rect t)).set ↔ _
  rw [View.set_slice_whole, Rect.mem_set_unit]
  exact Iff.rfl

/-- Column n of the result lies in the block of point n / 256. -/
theorem cover3 (i : S1x4096.Idx) : ∃ t : Fin cfg3.N, (cfg3.win 3).flush t = true ∧ i ∈ ((cfg3.win 3).blk t).view.set := by
  have hi0 : (i 0).val < 1 := (i 0).isLt
  have hi1 : (i 1).val < 4096 := (i 1).isLt
  have hN : cfg3.N = 16 := N_3
  have htl : (i 1).val / 256 < cfg3.N := by rw [hN]; omega
  obtain ⟨_, _, _, _, _, _, e30, e31⟩ := idx_facts3 ⟨(i 1).val / 256, htl⟩
  refine ⟨⟨(i 1).val / 256, htl⟩, flush3_3 _, ?_⟩
  rw [mem_blk3]
  intro a
  match a with
  | ⟨0, _⟩ => show win3_3.index ⟨(i 1).val / 256, htl⟩ (0 : Fin 2) * 1 ≤ (i 0).val ∧ (i 0).val < win3_3.index ⟨(i 1).val / 256, htl⟩ (0 : Fin 2) * 1 + 1; omega
  | ⟨1, _⟩ => show win3_3.index ⟨(i 1).val / 256, htl⟩ (1 : Fin 2) * 256 ≤ (i 1).val ∧ (i 1).val < win3_3.index ⟨(i 1).val / 256, htl⟩ (1 : Fin 2) * 256 + 256; (have e : (⟨(i 1).val / 256, htl⟩ : Fin cfg3.N).val = (i 1).val / 256 := rfl); omega

/-- The result array after the region: that function of the arrays as the region finds them. -/
theorem final3 (c : Dev nD) : (dat3 V c).arrAt 3 cfg3.N = G3 (V c main_v95) (V c main_v94) (V c main_arg5) :=
  (dat3 V c).arrAt_eq_of_cover 3 _ (fun t _ => flushed3 V c t) cover3

end Cert.KernelIdeal.KVal

end
-- ==== Proof.KernelHost.lean ====
/-
  The buffers the four kernel launches read, traced through the program's host segments.

  The generated frame certificate folds the buffer contents through the program's nine segments: W1 after the three
  reshapes that open the program, W2 after the first launch, W3, W4, W5 after the three stretches of the attention glue,
  W6, W7, W8 after the second, third and fourth launches, W9 after the closing reshape. A host stretch leaves a buffer
  as it was unless one of its operations writes it; a launch leaves every buffer that is not one of its arrays, and
  its input arrays too, and its result array ends as the whole-array function of the previous module. These lemmas
  carry each buffer a later launch reads back to where it was last written.
-/
import proofs.«136584_j38809324486825_2_alg».proof.Proof.Gen.KernelIdeal.Frame
import proofs.«136584_j38809324486825_2_alg».proof.Proof.KernelRegions
import Idealize.ShloMosaic.Lib.StableHlo.Run
import Idealize.ShloMosaic.Lib.Pipeline.Value
import Idealize.ShloMosaic.PureOps.Ideal.Laws

noncomputable section

namespace Cert.KernelIdeal.KHost

open Cert.KernelIdeal Cert.KernelIdeal.Gen Cert.KernelIdeal.KVal
open Idealize.ShloMosaic Idealize.ShloMosaic.TcCoe Idealize.ShloMosaic.Tactic Idealize.SL.Sem Idealize.ShloMosaic.StableHlo

variable (m : (ℓ : Loc nD τ sig) → Buf (Elt Ideal) ℓ) (ρ : Dev nD → PrngReg)

/-! ## The three reshapes that open the program -/

/-- The input as a row. -/
theorem W1_v0 (c : Dev nD) : W1 m ρ c (Proc.devRef .tc main_v0)
    = shapeCast S1x4096 (m ((c : Thread nD τ).loc main_arg0)) shapeCasts_S1x1x4096_S1x4096 := by
  dsimp only [W1, hostOps0]
  after_results <;> rfl

/-- The first norm weight as a row. -/
theorem W1_v1 (c : Dev nD) : W1 m ρ c (Proc.devRef .tc main_v1)
    = shapeCast S1x4096 (m ((c : Thread nD τ).loc main_arg7)) shapeCasts_S4096_S1x4096 := by
  dsimp only [W1, hostOps0]
  after_results <;> rfl

/-- The second norm weight as a row. -/
theorem W1_v2 (c : Dev nD) : W1 m ρ c (Proc.devRef .tc main_v2)
    = shapeCast S1x4096 (m ((c : Thread nD τ).loc main_arg8)) shapeCasts_S4096_S1x4096 := by
  dsimp only [W1, hostOps0]
  after_results <;> rfl

/-! ## Buffers that pass segments unchanged -/

/-- The fused projection's weights reach the first launch as launched. -/
theorem W1_arg2 (c : Dev nD) : W1 m ρ c (Proc.devRef .tc main_arg2) = m ((c : Thread nD τ).loc main_arg2) :=
  calc W1 m ρ c (Proc.devRef .tc main_arg2)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- The rotary table is as launched after the first launch. -/
theorem W2_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- The attention mask is as launched after the first launch. -/
theorem W2_arg9 (c : Dev nD) : W2 m ρ c (Proc.devRef .tc main_arg9) = m ((c : Thread nD τ).loc main_arg9) :=
  calc W2 m ρ c (Proc.devRef .tc main_arg9)
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

/-- The reshaped input row reaches the second launch as the first host stretch wrote it. -/
theorem W5_v0 (c : Dev nD) : W5 m ρ c (Proc.devRef .tc main_v0) = W1 m ρ c (Proc.devRef .tc main_v0) :=
  calc W5 m ρ c (Proc.devRef .tc main_v0)
    _ = W4 m ρ c (Proc.devRef .tc main_v0) := StableHlo.after_of_forall_not_mem (b := Proc.devRef .tc main_v0) _ _ (List.forall_iff_forall_mem.mp (by
          simp only [hostOps1_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v0) := StableHlo.after_of_forall_not_mem (b := Proc.devRef .tc main_v0) _ _ (List.forall_iff_forall_mem.mp (by
          simp only [hostOps1_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v0) := StableHlo.after_of_forall_not_mem (b := Proc.devRef .tc main_v0) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v0) := (W2_arr m ρ c 0).trans (((dat0 (V1 m ρ) c).arrAt_in 0 rfl cfg0.N).trans (A_eq0 (V1 m ρ) c 0))

/-- The output projection's weights reach the second launch as launched. -/
theorem W5_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_forall_not_mem (b := Proc.devRef .tc main_arg3) _ _ (List.forall_iff_forall_mem.mp (by
          simp only [hostOps1_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg3) := StableHlo.after_of_forall_not_mem (b := Proc.devRef .tc main_arg3) _ _ (List.forall_iff_forall_mem.mp (by
          simp only [hostOps1_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- The reshaped second norm weight reaches the third launch as the first host stretch wrote it. -/
theorem W6_v2 (c : Dev nD) : W6 m ρ c (Proc.devRef .tc main_v2) = W1 m ρ c (Proc.devRef .tc main_v2) :=
  calc W6 m ρ c (Proc.devRef .tc main_v2)
    _ = W5 m ρ c (Proc.devRef .tc main_v2) := W6_of_ne m ρ c main_v2 (by decide)
    _ = W4 m ρ c (Proc.devRef .tc main_v2) := StableHlo.after_of_forall_not_mem (b := Proc.devRef .tc main_v2) _ _ (List.forall_iff_forall_mem.mp (by
          simp only [hostOps1_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v2) := StableHlo.after_of_forall_not_mem (b := Proc.devRef .tc main_v2) _ _ (List.forall_iff_forall_mem.mp (by
          simp only [hostOps1_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v2) := StableHlo.after_of_forall_not_mem (b := Proc.devRef .tc main_v2) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v2) := W2_of_ne m ρ c main_v2 (by decide)

/-- The gate weights reach the third launch as launched. -/
theorem W6_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := StableHlo.after_of_forall_not_mem (b := Proc.devRef .tc main_arg4) _ _ (List.forall_iff_forall_mem.mp (by
          simp only [hostOps1_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg4) := StableHlo.after_of_forall_not_mem (b := Proc.devRef .tc main_arg4) _ _ (List.forall_iff_forall_mem.mp (by
          simp only [hostOps1_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-- The up weights reach the third launch as launched. -/
theorem W6_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := StableHlo.after_of_forall_not_mem (b := Proc.devRef .tc main_arg6) _ _ (List.forall_iff_forall_mem.mp (by
          simp only [hostOps1_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg6) := StableHlo.after_of_forall_not_mem (b := Proc.devRef .tc main_arg6) _ _ (List.forall_iff_forall_mem.mp (by
          simp only [hostOps1_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

/-- The down weights reach the fourth launch as launched. -/
theorem W7_arg5 (c : Dev nD) : W7 m ρ c (Proc.devRef .tc main_arg5) = m ((c : Thread nD τ).loc main_arg5) :=
  calc W7 m ρ c (Proc.devRef .tc main_arg5)
    _ = W6 m ρ c (Proc.devRef .tc main_arg5) := W7_of_ne m ρ c main_arg5 (by decide)
    _ = W5 m ρ c (Proc.devRef .tc main_arg5) := W6_of_ne m ρ c main_arg5 (by decide)
    _ = W4 m ρ c (Proc.devRef .tc main_arg5) := StableHlo.after_of_forall_not_mem (b := Proc.devRef .tc main_arg5) _ _ (List.forall_iff_forall_mem.mp (by
          simp only [hostOps1_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg5) := StableHlo.after_of_forall_not_mem (b := Proc.devRef .tc main_arg5) _ _ (List.forall_iff_forall_mem.mp (by
          simp only [hostOps1_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-- The second launch's result reaches the fourth launch as the third launch found it. -/
theorem W7_v94 (c : Dev nD) : W7 m ρ c (Proc.devRef .tc main_v94) = W6 m ρ c (Proc.devRef .tc main_v94) :=
  calc W7 m ρ c (Proc.devRef .tc main_v94)
    _ = W6 m ρ c (Proc.devRef .tc main_v94) := (W7_arr m ρ c 0).trans (((dat2 (V6 m ρ) c).arrAt_in 0 rfl cfg2.N).trans (A_eq2 (V6 m ρ) c 0))

/-! ## The launches' result arrays -/

/-- After the first launch the fused projection's array is the first region's function of what the launch found. -/
theorem W2_v3 (c : Dev nD) : W2 m ρ c (Proc.devRef .tc main_v3)
    = G0 (V1 m ρ c main_v0) (V1 m ρ c main_v1) (V1 m ρ c main_arg2) :=
  (W2_arr m ρ c 3).trans (final0 (V1 m ρ) c)

/-- After the second launch its result array is the second region's function of what the launch found. -/
theorem W6_v94 (c : Dev nD) : W6 m ρ c (Proc.devRef .tc main_v94)
    = G1 (V5 m ρ c main_v93) (V5 m ρ c main_v0) (V5 m ρ c main_arg3) :=
  (W6_arr m ρ c 3).trans (final1 (V5 m ρ) c)

/-- After the third launch its result array is the third region's function of what the launch found. -/
theorem W7_v95 (c : Dev nD) : W7 m ρ c (Proc.devRef .tc main_v95)
    = G2 (V6 m ρ c main_v94) (V6 m ρ c main_v2) (V6 m ρ c main_arg4) (V6 m ρ c main_arg6) :=
  (W7_arr m ρ c 4).trans (final2 (V6 m ρ) c)

/-- After the fourth launch its result array is the fourth region's function of what the launch found. -/
theorem W8_v96 (c : Dev nD) : W8 m ρ c (Proc.devRef .tc main_v96)
    = G3 (V7 m ρ c main_v95) (V7 m ρ c main_v94) (V7 m ρ c main_arg5) :=
  (W8_arr m ρ c 3).trans (final3 (V7 m ρ) c)

/-- The program's result is the fourth launch's row, reshaped. -/
theorem W9_v97 (c : Dev nD) : W9 m ρ c (Proc.devRef .tc main_v97)
    = shapeCast S1x1x4096 (W8 m ρ c (Proc.devRef .tc main_v96)) shapeCasts_S1x4096_S1x1x4096 := by
  dsimp only [W9, hostOps4]
  after_results <;> rfl

end Cert.KernelIdeal.KHost

end
-- ==== Proof.LibConcat.lean ====
/-
  Two arrays joined along an axis, as a function of the two arrays.

  The join of a list of arrays takes its operands as a list of (shape, array) pairs. For a two-operand join the same
  array is named here as a function of the two arrays, so that a statement about either operand can be used in place
  inside a join.
-/
import Idealize.ShloMosaic.PureOps.ShapeOps

noncomputable section

namespace Cert.LibConcat

open Idealize.ShloMosaic

/-- Two arrays joined along an axis. -/
def concat2 {α : Type} (t : Shape) (a : Fin t.rank) (s1 s2 : Shape) (x : s1.Idx → α) (y : s2.Idx → α)
    (h : Shape.Concatenates [s1, s2] t a) : t.Idx → α :=
  concatenate t a [⟨s1, x⟩, ⟨s2, y⟩] h

/-- The join of a two-element list is that function of its two arrays. -/
theorem concat2_fold {α : Type} (t : Shape) (a : Fin t.rank) (s1 s2 : Shape) (x : s1.Idx → α) (y : s2.Idx → α)
    (h : Shape.Concatenates [s1, s2] t a) : concatenate t a [⟨s1, x⟩, ⟨s2, y⟩] h = concat2 t a s1 s2 x y h := rfl

end Cert.LibConcat

end
-- ==== Proof.KernelChain.lean ====
/-
  The attention glue between the first and second launches, against the reference's own stages.

  Both programs apply the same host operations to the three projections: the rotary rotation of the query and key
  heads, the scaled scores, the mask, the softmax over the one key position, the weighted value, and the reshape back
  to a row. The kernel program runs them in three stretches. For any buffer contents entering a stretch, what the
  stretch leaves in the few buffers read later is the reference's stage of the same inputs: both sides are the same
  composition of the same operations, so after the stretch's operations are read off and the reference's stage
  definitions opened, the two terms coincide.
-/
import proofs.«136584_j38809324486825_2_alg».proof.Proof.Gen.KernelIdeal.Frame
import proofs.«136584_j38809324486825_2_alg».proof.Proof.RefReadP
import proofs.«136584_j38809324486825_2_alg».proof.Proof.LibConcat
import Idealize.ShloMosaic.Lib.StableHlo.Run
import Idealize.ShloMosaic.Lib.Pipeline.Value
import Idealize.ShloMosaic.PureOps.Ideal.Laws

noncomputable section

namespace Cert.KernelIdeal.KChain
open Cert.KernelIdeal Cert.KernelIdeal.Gen
open Idealize.ShloMosaic Idealize.ShloMosaic.TcCoe Idealize.ShloMosaic.Tactic Idealize.SL.Sem Idealize.ShloMosaic.StableHlo

namespace RP
export Cert.ReferenceIdeal.ReadP (val_main_v33 val_main_v34 val_main_v35 val_main_v36 val_main_v37 val_main_v38 val_main_v39 val_main_v40 val_main_v41 val_main_v42 val_main_v43 val_main_v44 val_main_v45 val_main_v46 val_main_v47 val_main_v48 val_main_v49 val_main_v50 val_main_v51 val_main_v52 val_main_v53 val_main_v54 val_main_v55 val_main_v56 val_main_v57 val_main_v58 val_main_v59 val_main_v60 val_main_v61 val_main_v62 val_main_v63 val_main_v64 val_main_v65 val_main_v66 val_main_v67 val_main_v68 val_main_v69 val_main_v70 val_main_v71 val_main_v72 val_main_v73 val_main_v74 val_main_v75 val_main_v76 val_main_v77 val_main_v78 val_main_v79 val_main_v80 val_main_v81 val_main_v82 val_main_v83 val_main_v84 val_main_v85 val_main_v86 val_main_v87 val_main_v88 val_main_v89 val_main_v90 val_main_v91 val_main_v92 val_main_v93 val_main_v94 val_main_v95 val_main_v96 val_main_v97 val_main_v98 val_main_v99 val_main_v100 val_main_cst_8 val_main_v101 val_main_v102 val_main_cst_9 val_main_call3_v0 val_main_call3_v1 val_main_v103 val_main_cst_10 val_main_v104 val_main_cst_11 val_main_v105 val_main_v106 val_main_v107 val_main_v108 val_main_v109 val_main_cst_12 val_main_v110 val_main_v111 val_main_v112 val_main_v113 val_main_v114 val_main_v115 val_main_v20 val_main_v26 val_main_v32)
end RP

variable (V : Valuation τ sig (Elt Ideal))
variable (x0 : (⟨Cert.ReferenceIdeal.S1x1x4096, .f32⟩ : BufTy).Contents (Elt Ideal))
  (x1 : (⟨Cert.ReferenceIdeal.S1x64x2, .f32⟩ : BufTy).Contents (Elt Ideal))
  (x2 : (⟨Cert.ReferenceIdeal.S12288x4096, .f32⟩ : BufTy).Contents (Elt Ideal))
  (x7 : (⟨Cert.ReferenceIdeal.S4096, .f32⟩ : BufTy).Contents (Elt Ideal))
  (x9 : (⟨Cert.ReferenceIdeal.S1x1x1x1, .i1⟩ : BufTy).Contents (Elt Ideal))

/-- The query, key and value arrays of the kernel program: three column ranges of the fused projection (the contents
    of its buffer in V), each as 32 heads of 128. -/
abbrev qK : FVec Ideal S1x1x32x128 .f32 :=
  shapeCast S1x1x32x128 (extractStridedSlice S1x4096 ![0, 0] (V (Proc.devRef .tc main_v3)) slices_S1x12288_S1x4096_0_0) shapeCasts_S1x4096_S1x1x32x128
abbrev kK : FVec Ideal S1x1x32x128 .f32 :=
  shapeCast S1x1x32x128 (extractStridedSlice S1x4096 ![0, 4096] (V (Proc.devRef .tc main_v3)) slices_S1x12288_S1x4096_0_4096) shapeCasts_S1x4096_S1x1x32x128
abbrev vK : FVec Ideal S1x1x32x128 .f32 :=
  shapeCast S1x1x32x128 (extractStridedSlice S1x4096 ![0, 8192] (V (Proc.devRef .tc main_v3)) slices_S1x12288_S1x4096_0_8192) shapeCasts_S1x4096_S1x1x32x128

set_option maxHeartbeats 8000000 in
/-- The transposed value array after the first stretch is the reference's, when the value arrays agree. -/
theorem s1_v76 (hv : vK V = RP.val_main_v32 (F := Ideal) x0 x2 x7) :
    StableHlo.after hostOps1 V (Proc.devRef .tc main_v76) = RP.val_main_v99 (F := Ideal) x0 x2 x7 := by
  dsimp only [hostOps1]
  simp (disch := decide) only [Cert.LibConcat.concat2_fold, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
  simp only [RP.val_main_v99]
  rw [← hv]
  rfl

set_option maxHeartbeats 8000000 in
/-- The masking constant after the first stretch. -/
theorem s1_cst0 : StableHlo.after hostOps1 V (Proc.devRef .tc main_cst_0) = RP.val_main_cst_9 (F := Ideal) := by
  dsimp only [hostOps1]
  simp (disch := decide) only [Cert.LibConcat.concat2_fold, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
  rfl

set_option maxHeartbeats 8000000 in
/-- The mask passes the first stretch. -/
theorem s1_arg9 : StableHlo.after hostOps1 V (Proc.devRef .tc main_arg9) = V (Proc.devRef .tc main_arg9) := by
  dsimp only [hostOps1]
  simp (disch := decide) only [Cert.LibConcat.concat2_fold, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']

set_option maxHeartbeats 8000000 in
/-- The masked scores after the second stretch are the reference's, when what the stretch reads agrees. -/
theorem s2_v80 (h79 : V (Proc.devRef .tc main_v79) = RP.val_main_v102 (F := Ideal) x0 x1 x2 x7)
    (h9 : V (Proc.devRef .tc main_arg9) = x9) (hc : V (Proc.devRef .tc main_cst_0) = RP.val_main_cst_9 (F := Ideal)) :
    StableHlo.after hostOps1_1 V (Proc.devRef .tc main_v80) = RP.val_main_v103 (F := Ideal) x0 x1 x2 x7 x9 := by
  dsimp only [hostOps1_1]
  simp (disch := decide) only [Cert.LibConcat.concat2_fold, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
  rw [h79, h9, hc]
  simp only [RP.val_main_v103, RP.val_main_call3_v0, RP.val_main_call3_v1]
  rfl

set_option maxHeartbeats 8000000 in
/-- The transposed value array passes the second stretch. -/
theorem s2_v76 : StableHlo.after hostOps1_1 V (Proc.devRef .tc main_v76) = V (Proc.devRef .tc main_v76) := by
  dsimp only [hostOps1_1]
  simp (disch := decide) only [Cert.LibConcat.concat2_fold, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']

set_option maxHeartbeats 8000000 in
/-- The attention output after the third stretch is the reference's, reshaped to a row, when the masked scores and
    the transposed values agree. -/
theorem s3_v93 (h80 : V (Proc.devRef .tc main_v80) = RP.val_main_v103 (F := Ideal) x0 x1 x2 x7 x9)
    (h76 : V (Proc.devRef .tc main_v76) = RP.val_main_v99 (F := Ideal) x0 x2 x7) :
    StableHlo.after hostOps1_2 V (Proc.devRef .tc main_v93) = shapeCast S1x4096 (RP.val_main_v115 (F := Ideal) x0 x1 x2 x7 x9) shapeCasts_S1x1x4096_S1x4096 := by
  dsimp only [hostOps1_2]
  simp (disch := decide) only [Cert.LibConcat.concat2_fold, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
  rw [h80, h76]
  simp only [RP.val_main_cst_10, RP.val_main_v104, RP.val_main_cst_11, RP.val_main_v105, RP.val_main_v106, RP.val_main_v107, RP.val_main_v108, RP.val_main_v109, RP.val_main_cst_12, RP.val_main_v110, RP.val_main_v111, RP.val_main_v112, RP.val_main_v113, RP.val_main_v114, RP.val_main_v115]
  rfl

set_option maxHeartbeats 8000000 in
/-- The scaled scores after the first stretch are the reference's, when the query and key arrays and the rotary table agree. -/
theorem s1_v79 (h1 : V (Proc.devRef .tc main_arg1) = x1) (hq : qK V = RP.val_main_v20 (F := Ideal) x0 x2 x7)
    (hk : kK V = RP.val_main_v26 (F := Ideal) x0 x2 x7) :
    StableHlo.after hostOps1 V (Proc.devRef .tc main_v79) = RP.val_main_v102 (F := Ideal) x0 x1 x2 x7 := by
  dsimp only [hostOps1]
  simp (disch := decide) only [Cert.LibConcat.concat2_fold, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
  rw [h1]
  simp only [RP.val_main_v33, RP.val_main_v34, RP.val_main_v35, RP.val_main_v36, RP.val_main_v37, RP.val_main_v38, RP.val_main_v39, RP.val_main_v40, RP.val_main_v41, RP.val_main_v42, RP.val_main_v43, RP.val_main_v44, RP.val_main_v45, RP.val_main_v46, RP.val_main_v47, RP.val_main_v48, RP.val_main_v49, RP.val_main_v50, RP.val_main_v51, RP.val_main_v52, RP.val_main_v53, RP.val_main_v54, RP.val_main_v55, RP.val_main_v56, RP.val_main_v57, RP.val_main_v58, RP.val_main_v59, RP.val_main_v60, RP.val_main_v61, RP.val_main_v62, RP.val_main_v63, RP.val_main_v64, RP.val_main_v65, RP.val_main_v66, RP.val_main_v67, RP.val_main_v68, RP.val_main_v69, RP.val_main_v70, RP.val_main_v71, RP.val_main_v72, RP.val_main_v73, RP.val_main_v74, RP.val_main_v75, RP.val_main_v76, RP.val_main_v77, RP.val_main_v78, RP.val_main_v79, RP.val_main_v80, RP.val_main_v81, RP.val_main_v82, RP.val_main_v83, RP.val_main_v84, RP.val_main_v85, RP.val_main_v86, RP.val_main_v87, RP.val_main_v88, RP.val_main_v89, RP.val_main_v90, RP.val_main_v91, RP.val_main_v92, RP.val_main_v93, RP.val_main_v94, RP.val_main_v95, RP.val_main_v96, RP.val_main_v97, RP.val_main_v98, RP.val_main_v100, RP.val_main_cst_8, RP.val_main_v101, RP.val_main_v102]
  rw [← hq, ← hk]
  rfl

end Cert.KernelIdeal.KChain

end
-- ==== Proof.RefSpec.lean ====
/-
  The reference program's stages, read entry by entry as the formulas of the decode step.

  Each array of shape [1,1,n] is read as a flat vector (f3), each array of shape [n] likewise (f1). The families below say:
  * the thresholded RMS-normalized input, computed three times, is  nrm x w  at every entry:
    thr (x(k) · (Σⱼ x(j)² / 4096 + ε)^(-1/2) · w(k));
  * the three projections of it are matrix-vector products against rows 0.., 4096.. and 8192.. of one 12288×4096
    weight array (the program slices that array into three 4096×4096 blocks);
  * the first residual sum is the input plus the matrix-vector product of the thresholded attention output (the
    attention output itself is left as it is);
  * the gated unit on the normalized first residual sum is  silu(gate) · up, the two factors being matrix-vector
    products of the same thresholded normalized vector, and  g · (1 / (1 + e^(-g)))  being silu g;
  * the second residual sum is the first plus the matrix-vector product of the thresholded gated unit.
  In each case the proof reads the stages from the last one back to its operands: a sum stage is a sum over the
  contracted coordinate, a broadcast or a slice is a change of index, and the pointwise stages are the scalar
  operations themselves.
-/
import proofs.«136584_j38809324486825_2_alg».proof.Proof.RefReadP
import proofs.«136584_j38809324486825_2_alg».proof.Proof.Spec

noncomputable section

namespace Cert.ReferenceIdeal.RefSpec

open Idealize.ShloMosaic Idealize.ShloMosaic.ValueIdx Cert.ReferenceIdeal Cert.ReferenceIdeal.ReadP Cert.Spec
open scoped BigOperators

/-- A [1,1,n] array as a flat vector. -/
def f3 {n : ℕ} (a : FVec Ideal ⟨3, ![1, 1, n]⟩ .f32) : Fin n → E := fun k => a (ix3 (0 : Fin 1) (0 : Fin 1) k)
/-- An [n] array as a flat vector. -/
def f1 {n : ℕ} (a : FVec Ideal ⟨1, ![n]⟩ .f32) : Fin n → E := fun k => a (ix1 k)

/-- The single-precision pattern 0x3F800000 is the extended real one. -/
theorem one_f32 : Ideal.ofBits .f32 0x3F800000#32 = 1 := by
  rw [show (1 : EReal) = ((1 : ℝ) : EReal) by norm_cast]
  simp [Ideal.ofBits, Ideal.ieee, -EReal.coe_mul]; norm_num

/-! ## The input normalization and the three projections -/

/-- The sum of squares of the input, read at the one entry of the [1,1,1] array. -/
theorem v2_sum (x0 : (⟨S1x1x4096, .f32⟩ : BufTy).Contents (Elt Ideal)) (j : S1x1x1.Idx) :
    val_main_v2 (F := Ideal) x0 j = ∑ k : Fin 4096, FloatOps.mulf (f3 x0 k) (f3 x0 k) := by
  rw [val_main_v2_apply, val_main_v1_apply, val_main_cst_apply, Ideal.ofBits_def, Ideal.ofBits_zero_f32, zero_add]
  refine Finset.sum_congr rfl fun k _ => ?_
  have e : idx_main_v1 (idx_main_v2 j) k = (ix3 (0 : Fin 1) (0 : Fin 1) k) :=
    funext fun a => Fin.ext (by match a with | ⟨0, _⟩ => rfl | ⟨1, _⟩ => rfl | ⟨2, _⟩ => rfl)
  rw [val_main_v0_apply, e]
  rfl

/-- The reciprocal root-mean-square of the input. -/
theorem v7_scale (x0 : (⟨S1x1x4096, .f32⟩ : BufTy).Contents (Elt Ideal)) (j : S1x1x1.Idx) : val_main_v7 (F := Ideal) x0 j = scale (f3 x0) := by
  rw [val_main_v7_apply, val_main_v6_apply, val_main_v4_apply, v2_sum, val_main_v3_apply, val_main_cst_0_apply,
    val_main_v5_apply, val_main_cst_1_apply]
  rfl

/-- The normalized input before the threshold: x(k) · scale x · w(k). -/
theorem v11_flat (x0 : (⟨S1x1x4096, .f32⟩ : BufTy).Contents (Elt Ideal)) (x7 : (⟨S4096, .f32⟩ : BufTy).Contents (Elt Ideal)) (k : Fin 4096) :
    val_main_v11 (F := Ideal) x0 x7 (ix3 (0 : Fin 1) (0 : Fin 1) k)
      = FloatOps.mulf (FloatOps.mulf (f3 x0 k) (scale (f3 x0))) (f1 x7 k) := by
  have e : idx_main_v10 (ix3 (0 : Fin 1) (0 : Fin 1) k) = ix1 k :=
    funext fun a => Fin.ext (by match a with | ⟨0, _⟩ => rfl)
  rw [val_main_v11_apply, val_main_v9_apply, val_main_v8_apply, v7_scale, val_main_v10_apply, e]
  rfl

/-- The thresholded normalized input (first copy). -/
theorem v18_flat (x0 : (⟨S1x1x4096, .f32⟩ : BufTy).Contents (Elt Ideal)) (x7 : (⟨S4096, .f32⟩ : BufTy).Contents (Elt Ideal)) (k : Fin 4096) :
    val_main_v18 (F := Ideal) x0 x7 (ix3 (0 : Fin 1) (0 : Fin 1) k) = nrm (f3 x0) (f1 x7) k := by
  rw [val_main_v18_apply, val_main_v17_apply, val_main_v15_apply, val_main_v16_apply, val_main_cst_2_apply,
    val_main_call0_v0_apply, val_main_cst_3_apply, v11_flat]
  rfl

/-- The thresholded normalized input (second copy). -/
theorem v24_flat (x0 : (⟨S1x1x4096, .f32⟩ : BufTy).Contents (Elt Ideal)) (x7 : (⟨S4096, .f32⟩ : BufTy).Contents (Elt Ideal)) (k : Fin 4096) :
    val_main_v24 (F := Ideal) x0 x7 (ix3 (0 : Fin 1) (0 : Fin 1) k) = nrm (f3 x0) (f1 x7) k := by
  rw [val_main_v24_apply, val_main_v23_apply, val_main_v21_apply, val_main_v22_apply, val_main_cst_4_apply,
    val_main_call1_v0_apply, val_main_cst_5_apply, v11_flat]
  rfl

/-- The thresholded normalized input (third copy). -/
theorem v30_flat (x0 : (⟨S1x1x4096, .f32⟩ : BufTy).Contents (Elt Ideal)) (x7 : (⟨S4096, .f32⟩ : BufTy).Contents (Elt Ideal)) (k : Fin 4096) :
    val_main_v30 (F := Ideal) x0 x7 (ix3 (0 : Fin 1) (0 : Fin 1) k) = nrm (f3 x0) (f1 x7) k := by
  rw [val_main_v30_apply, val_main_v29_apply, val_main_v27_apply, val_main_v28_apply, val_main_cst_6_apply,
    val_main_call2_v0_apply, val_main_cst_7_apply, v11_flat]
  rfl

/-- A projection of the thresholded normalized input against rows 0 to 4095 of the weight array. -/
theorem v19_flat (x0 : (⟨S1x1x4096, .f32⟩ : BufTy).Contents (Elt Ideal)) (x2 : (⟨S12288x4096, .f32⟩ : BufTy).Contents (Elt Ideal)) (x7 : (⟨S4096, .f32⟩ : BufTy).Contents (Elt Ideal)) (j : Fin 4096) :
    val_main_v19 (F := Ideal) x0 x2 x7 (ix3 (0 : Fin 1) (0 : Fin 1) j)
      = gemv x2 (nrm (f3 x0) (f1 x7)) (⟨j.val, by omega⟩ : Fin 12288) := by
  rw [val_main_v19_apply]
  unfold gemv
  refine Finset.sum_congr rfl fun k _ => ?_
  have el : lidx_main_v19 (ix3 (0 : Fin 1) (0 : Fin 1) j) k = (ix3 (0 : Fin 1) (0 : Fin 1) k) :=
    funext fun a => Fin.ext (by match a with | ⟨0, _⟩ => rfl | ⟨1, _⟩ => rfl | ⟨2, _⟩ => rfl)
  have er : idx_main_v12 (ridx_main_v19 (ix3 (0 : Fin 1) (0 : Fin 1) j) k) = ix2 (⟨j.val, by omega⟩ : Fin 12288) k :=
    funext fun a => Fin.ext (by match a with | ⟨0, _⟩ => rfl | ⟨1, _⟩ => rfl)
  rw [el, v18_flat, val_main_v12_apply, er]

/-- A projection of the thresholded normalized input against rows 4096 to 8191 of the weight array. -/
theorem v25_flat (x0 : (⟨S1x1x4096, .f32⟩ : BufTy).Contents (Elt Ideal)) (x2 : (⟨S12288x4096, .f32⟩ : BufTy).Contents (Elt Ideal)) (x7 : (⟨S4096, .f32⟩ : BufTy).Contents (Elt Ideal)) (j : Fin 4096) :
    val_main_v25 (F := Ideal) x0 x2 x7 (ix3 (0 : Fin 1) (0 : Fin 1) j)
      = gemv x2 (nrm (f3 x0) (f1 x7)) (⟨4096 + j.val, by omega⟩ : Fin 12288) := by
  rw [val_main_v25_apply]
  unfold gemv
  refine Finset.sum_congr rfl fun k _ => ?_
  have el : lidx_main_v25 (ix3 (0 : Fin 1) (0 : Fin 1) j) k = (ix3 (0 : Fin 1) (0 : Fin 1) k) :=
    funext fun a => Fin.ext (by match a with | ⟨0, _⟩ => rfl | ⟨1, _⟩ => rfl | ⟨2, _⟩ => rfl)
  have er : idx_main_v13 (ridx_main_v25 (ix3 (0 : Fin 1) (0 : Fin 1) j) k) = ix2 (⟨4096 + j.val, by omega⟩ : Fin 12288) k :=
    funext fun a => Fin.ext (by match a with | ⟨0, _⟩ => rfl | ⟨1, _⟩ => rfl)
  rw [el, v24_flat, val_main_v13_apply, er]

/-- A projection of the thresholded normalized input against rows 8192 to 12287 of the weight array. -/
theorem v31_flat (x0 : (⟨S1x1x4096, .f32⟩ : BufTy).Contents (Elt Ideal)) (x2 : (⟨S12288x4096, .f32⟩ : BufTy).Contents (Elt Ideal)) (x7 : (⟨S4096, .f32⟩ : BufTy).Contents (Elt Ideal)) (j : Fin 4096) :
    val_main_v31 (F := Ideal) x0 x2 x7 (ix3 (0 : Fin 1) (0 : Fin 1) j)
      = gemv x2 (nrm (f3 x0) (f1 x7)) (⟨8192 + j.val, by omega⟩ : Fin 12288) := by
  rw [val_main_v31_apply]
  unfold gemv
  refine Finset.sum_congr rfl fun k _ => ?_
  have el : lidx_main_v31 (ix3 (0 : Fin 1) (0 : Fin 1) j) k = (ix3 (0 : Fin 1) (0 : Fin 1) k) :=
    funext fun a => Fin.ext (by match a with | ⟨0, _⟩ => rfl | ⟨1, _⟩ => rfl | ⟨2, _⟩ => rfl)
  have er : idx_main_v14 (ridx_main_v31 (ix3 (0 : Fin 1) (0 : Fin 1) j) k) = ix2 (⟨8192 + j.val, by omega⟩ : Fin 12288) k :=
    funext fun a => Fin.ext (by match a with | ⟨0, _⟩ => rfl | ⟨1, _⟩ => rfl)
  rw [el, v30_flat, val_main_v14_apply, er]

/-! ## The output projection of the attention and the first residual sum -/

/-- The thresholded attention output, entry by entry. -/
theorem v119_thr (x0 : (⟨S1x1x4096, .f32⟩ : BufTy).Contents (Elt Ideal)) (x1 : (⟨S1x64x2, .f32⟩ : BufTy).Contents (Elt Ideal)) (x2 : (⟨S12288x4096, .f32⟩ : BufTy).Contents (Elt Ideal)) (x7 : (⟨S4096, .f32⟩ : BufTy).Contents (Elt Ideal)) (x9 : (⟨S1x1x1x1, .i1⟩ : BufTy).Contents (Elt Ideal)) (i : S1x1x4096.Idx) :
    val_main_v119 (F := Ideal) x0 x1 x2 x7 x9 i = thr (val_main_v115 (F := Ideal) x0 x1 x2 x7 x9 i) := by
  rw [val_main_v119_apply, val_main_v118_apply, val_main_v116_apply, val_main_v117_apply, val_main_cst_13_apply,
    val_main_call4_v0_apply, val_main_cst_14_apply]
  rfl

/-- The first residual sum: the input plus the projection of the thresholded attention output. -/
theorem v121_flat (x0 : (⟨S1x1x4096, .f32⟩ : BufTy).Contents (Elt Ideal)) (x1 : (⟨S1x64x2, .f32⟩ : BufTy).Contents (Elt Ideal)) (x2 : (⟨S12288x4096, .f32⟩ : BufTy).Contents (Elt Ideal)) (x3 : (⟨S4096x4096, .f32⟩ : BufTy).Contents (Elt Ideal)) (x7 : (⟨S4096, .f32⟩ : BufTy).Contents (Elt Ideal)) (x9 : (⟨S1x1x1x1, .i1⟩ : BufTy).Contents (Elt Ideal)) (n : Fin 4096) :
    val_main_v121 (F := Ideal) x0 x1 x2 x3 x7 x9 (ix3 (0 : Fin 1) (0 : Fin 1) n)
      = x0 (ix3 (0 : Fin 1) (0 : Fin 1) n) + gemv x3 (fun k => thr (val_main_v115 (F := Ideal) x0 x1 x2 x7 x9 (ix3 (0 : Fin 1) (0 : Fin 1) k))) n := by
  rw [val_main_v121_apply, Ideal.addf_def, val_main_v120_apply]
  unfold gemv
  refine congrArg (x0 (ix3 (0 : Fin 1) (0 : Fin 1) n) + ·) (Finset.sum_congr rfl fun k _ => ?_)
  have el : lidx_main_v120 (ix3 (0 : Fin 1) (0 : Fin 1) n) k = (ix3 (0 : Fin 1) (0 : Fin 1) k) :=
    funext fun a => Fin.ext (by match a with | ⟨0, _⟩ => rfl | ⟨1, _⟩ => rfl | ⟨2, _⟩ => rfl)
  have er : ridx_main_v120 (ix3 (0 : Fin 1) (0 : Fin 1) n) k = ix2 n k :=
    funext fun a => Fin.ext (by match a with | ⟨0, _⟩ => rfl | ⟨1, _⟩ => rfl)
  rw [el, er, v119_thr]

/-! ## The gated unit on the normalized first residual sum -/

/-- The sum of squares of the first residual sum. -/
theorem v124_sum (x0 : (⟨S1x1x4096, .f32⟩ : BufTy).Contents (Elt Ideal)) (x1 : (⟨S1x64x2, .f32⟩ : BufTy).Contents (Elt Ideal)) (x2 : (⟨S12288x4096, .f32⟩ : BufTy).Contents (Elt Ideal)) (x3 : (⟨S4096x4096, .f32⟩ : BufTy).Contents (Elt Ideal)) (x7 : (⟨S4096, .f32⟩ : BufTy).Contents (Elt Ideal)) (x9 : (⟨S1x1x1x1, .i1⟩ : BufTy).Contents (Elt Ideal)) (j : S1x1x1.Idx) :
    val_main_v124 (F := Ideal) x0 x1 x2 x3 x7 x9 j = ∑ k : Fin 4096, FloatOps.mulf (f3 (val_main_v121 (F := Ideal) x0 x1 x2 x3 x7 x9) k) (f3 (val_main_v121 (F := Ideal) x0 x1 x2 x3 x7 x9) k) := by
  rw [val_main_v124_apply, val_main_v123_apply, val_main_cst_15_apply, Ideal.ofBits_def, Ideal.ofBits_zero_f32, zero_add]
  refine Finset.sum_congr rfl fun k _ => ?_
  have e : idx_main_v123 (idx_main_v124 j) k = (ix3 (0 : Fin 1) (0 : Fin 1) k) :=
    funext fun a => Fin.ext (by match a with | ⟨0, _⟩ => rfl | ⟨1, _⟩ => rfl | ⟨2, _⟩ => rfl)
  rw [val_main_v122_apply, e]
  rfl

/-- The reciprocal root-mean-square of the first residual sum. -/
theorem v129_scale (x0 : (⟨S1x1x4096, .f32⟩ : BufTy).Contents (Elt Ideal)) (x1 : (⟨S1x64x2, .f32⟩ : BufTy).Contents (Elt Ideal)) (x2 : (⟨S12288x4096, .f32⟩ : BufTy).Contents (Elt Ideal)) (x3 : (⟨S4096x4096, .f32⟩ : BufTy).Contents (Elt Ideal)) (x7 : (⟨S4096, .f32⟩ : BufTy).Contents (Elt Ideal)) (x9 : (⟨S1x1x1x1, .i1⟩ : BufTy).Contents (Elt Ideal)) (j : S1x1x1.Idx) :
    val_main_v129 (F := Ideal) x0 x1 x2 x3 x7 x9 j = scale (f3 (val_main_v121 (F := Ideal) x0 x1 x2 x3 x7 x9)) := by
  rw [val_main_v129_apply, val_main_v128_apply, val_main_v126_apply, v124_sum, val_main_v125_apply, val_main_cst_16_apply,
    val_main_v127_apply, val_main_cst_17_apply]
  rfl

/-- The normalized first residual sum before the threshold. -/
theorem v133_flat (x0 : (⟨S1x1x4096, .f32⟩ : BufTy).Contents (Elt Ideal)) (x1 : (⟨S1x64x2, .f32⟩ : BufTy).Contents (Elt Ideal)) (x2 : (⟨S12288x4096, .f32⟩ : BufTy).Contents (Elt Ideal)) (x3 : (⟨S4096x4096, .f32⟩ : BufTy).Contents (Elt Ideal)) (x7 : (⟨S4096, .f32⟩ : BufTy).Contents (Elt Ideal)) (x8 : (⟨S4096, .f32⟩ : BufTy).Contents (Elt Ideal)) (x9 : (⟨S1x1x1x1, .i1⟩ : BufTy).Contents (Elt Ideal)) (k : Fin 4096) :
    val_main_v133 (F := Ideal) x0 x1 x2 x3 x7 x8 x9 (ix3 (0 : Fin 1) (0 : Fin 1) k)
      = FloatOps.mulf (FloatOps.mulf (f3 (val_main_v121 (F := Ideal) x0 x1 x2 x3 x7 x9) k) (scale (f3 (val_main_v121 (F := Ideal) x0 x1 x2 x3 x7 x9)))) (f1 x8 k) := by
  have e : idx_main_v132 (ix3 (0 : Fin 1) (0 : Fin 1) k) = ix1 k :=
    funext fun a => Fin.ext (by match a with | ⟨0, _⟩ => rfl)
  rw [val_main_v133_apply, val_main_v131_apply, val_main_v130_apply, v129_scale, val_main_v132_apply, e]
  rfl

/-- The thresholded normalized first residual sum (copy feeding the gate projection). -/
theorem v137_flat (x0 : (⟨S1x1x4096, .f32⟩ : BufTy).Contents (Elt Ideal)) (x1 : (⟨S1x64x2, .f32⟩ : BufTy).Contents (Elt Ideal)) (x2 : (⟨S12288x4096, .f32⟩ : BufTy).Contents (Elt Ideal)) (x3 : (⟨S4096x4096, .f32⟩ : BufTy).Contents (Elt Ideal)) (x7 : (⟨S4096, .f32⟩ : BufTy).Contents (Elt Ideal)) (x8 : (⟨S4096, .f32⟩ : BufTy).Contents (Elt Ideal)) (x9 : (⟨S1x1x1x1, .i1⟩ : BufTy).Contents (Elt Ideal)) (k : Fin 4096) :
    val_main_v137 (F := Ideal) x0 x1 x2 x3 x7 x8 x9 (ix3 (0 : Fin 1) (0 : Fin 1) k) = nrm (f3 (val_main_v121 (F := Ideal) x0 x1 x2 x3 x7 x9)) (f1 x8) k := by
  rw [val_main_v137_apply, val_main_v136_apply, val_main_v134_apply, val_main_v135_apply, val_main_cst_18_apply,
    val_main_call5_v0_apply, val_main_cst_19_apply, v133_flat]
  rfl

/-- The thresholded normalized first residual sum (copy feeding the up projection). -/
theorem v142_flat (x0 : (⟨S1x1x4096, .f32⟩ : BufTy).Contents (Elt Ideal)) (x1 : (⟨S1x64x2, .f32⟩ : BufTy).Contents (Elt Ideal)) (x2 : (⟨S12288x4096, .f32⟩ : BufTy).Contents (Elt Ideal)) (x3 : (⟨S4096x4096, .f32⟩ : BufTy).Contents (Elt Ideal)) (x7 : (⟨S4096, .f32⟩ : BufTy).Contents (Elt Ideal)) (x8 : (⟨S4096, .f32⟩ : BufTy).Contents (Elt Ideal)) (x9 : (⟨S1x1x1x1, .i1⟩ : BufTy).Contents (Elt Ideal)) (k : Fin 4096) :
    val_main_v142 (F := Ideal) x0 x1 x2 x3 x7 x8 x9 (ix3 (0 : Fin 1) (0 : Fin 1) k) = nrm (f3 (val_main_v121 (F := Ideal) x0 x1 x2 x3 x7 x9)) (f1 x8) k := by
  rw [val_main_v142_apply, val_main_v141_apply, val_main_v139_apply, val_main_v140_apply, val_main_cst_20_apply,
    val_main_call6_v0_apply, val_main_cst_21_apply, v133_flat]
  rfl

/-- The gate projection. -/
theorem v138_flat (x0 : (⟨S1x1x4096, .f32⟩ : BufTy).Contents (Elt Ideal)) (x1 : (⟨S1x64x2, .f32⟩ : BufTy).Contents (Elt Ideal)) (x2 : (⟨S12288x4096, .f32⟩ : BufTy).Contents (Elt Ideal)) (x3 : (⟨S4096x4096, .f32⟩ : BufTy).Contents (Elt Ideal)) (x4 : (⟨S11008x4096, .f32⟩ : BufTy).Contents (Elt Ideal)) (x7 : (⟨S4096, .f32⟩ : BufTy).Contents (Elt Ideal)) (x8 : (⟨S4096, .f32⟩ : BufTy).Contents (Elt Ideal)) (x9 : (⟨S1x1x1x1, .i1⟩ : BufTy).Contents (Elt Ideal)) (n : Fin 11008) :
    val_main_v138 (F := Ideal) x0 x1 x2 x3 x4 x7 x8 x9 (ix3 (0 : Fin 1) (0 : Fin 1) n) = gemv x4 (nrm (f3 (val_main_v121 (F := Ideal) x0 x1 x2 x3 x7 x9)) (f1 x8)) n := by
  rw [val_main_v138_apply]
  unfold gemv
  refine Finset.sum_congr rfl fun k _ => ?_
  have el : lidx_main_v138 (ix3 (0 : Fin 1) (0 : Fin 1) n) k = (ix3 (0 : Fin 1) (0 : Fin 1) k) :=
    funext fun a => Fin.ext (by match a with | ⟨0, _⟩ => rfl | ⟨1, _⟩ => rfl | ⟨2, _⟩ => rfl)
  have er : ridx_main_v138 (ix3 (0 : Fin 1) (0 : Fin 1) n) k = ix2 n k :=
    funext fun a => Fin.ext (by match a with | ⟨0, _⟩ => rfl | ⟨1, _⟩ => rfl)
  rw [el, er, v137_flat]

/-- The up projection. -/
theorem v143_flat (x0 : (⟨S1x1x4096, .f32⟩ : BufTy).Contents (Elt Ideal)) (x1 : (⟨S1x64x2, .f32⟩ : BufTy).Contents (Elt Ideal)) (x2 : (⟨S12288x4096, .f32⟩ : BufTy).Contents (Elt Ideal)) (x3 : (⟨S4096x4096, .f32⟩ : BufTy).Contents (Elt Ideal)) (x6 : (⟨S11008x4096, .f32⟩ : BufTy).Contents (Elt Ideal)) (x7 : (⟨S4096, .f32⟩ : BufTy).Contents (Elt Ideal)) (x8 : (⟨S4096, .f32⟩ : BufTy).Contents (Elt Ideal)) (x9 : (⟨S1x1x1x1, .i1⟩ : BufTy).Contents (Elt Ideal)) (n : Fin 11008) :
    val_main_v143 (F := Ideal) x0 x1 x2 x3 x6 x7 x8 x9 (ix3 (0 : Fin 1) (0 : Fin 1) n) = gemv x6 (nrm (f3 (val_main_v121 (F := Ideal) x0 x1 x2 x3 x7 x9)) (f1 x8)) n := by
  rw [val_main_v143_apply]
  unfold gemv
  refine Finset.sum_congr rfl fun k _ => ?_
  have el : lidx_main_v143 (ix3 (0 : Fin 1) (0 : Fin 1) n) k = (ix3 (0 : Fin 1) (0 : Fin 1) k) :=
    funext fun a => Fin.ext (by match a with | ⟨0, _⟩ => rfl | ⟨1, _⟩ => rfl | ⟨2, _⟩ => rfl)
  have er : ridx_main_v143 (ix3 (0 : Fin 1) (0 : Fin 1) n) k = ix2 n k :=
    funext fun a => Fin.ext (by match a with | ⟨0, _⟩ => rfl | ⟨1, _⟩ => rfl)
  rw [el, er, v142_flat]

/-- g · (1 / (1 + e^(-g))) is silu g, entry by entry of the gate projection. -/
theorem v144_silu (x0 : (⟨S1x1x4096, .f32⟩ : BufTy).Contents (Elt Ideal)) (x1 : (⟨S1x64x2, .f32⟩ : BufTy).Contents (Elt Ideal)) (x2 : (⟨S12288x4096, .f32⟩ : BufTy).Contents (Elt Ideal)) (x3 : (⟨S4096x4096, .f32⟩ : BufTy).Contents (Elt Ideal)) (x4 : (⟨S11008x4096, .f32⟩ : BufTy).Contents (Elt Ideal)) (x7 : (⟨S4096, .f32⟩ : BufTy).Contents (Elt Ideal)) (x8 : (⟨S4096, .f32⟩ : BufTy).Contents (Elt Ideal)) (x9 : (⟨S1x1x1x1, .i1⟩ : BufTy).Contents (Elt Ideal)) (i : S1x1x11008.Idx) :
    val_main_v144 (F := Ideal) x0 x1 x2 x3 x4 x7 x8 x9 i = silu (val_main_v138 (F := Ideal) x0 x1 x2 x3 x4 x7 x8 x9 i) := by
  rw [val_main_v144_apply, val_main_call7_v5_apply, val_main_call7_v4_apply, val_main_call7_cst_0_apply,
    val_main_call7_v3_apply, val_main_call7_v2_apply, val_main_call7_cst_apply, val_main_call7_v1_apply,
    val_main_call7_v0_apply, Ideal.ofBits_def, one_f32]
  rfl

/-- The gated unit: silu of the gate projection times the up projection. -/
theorem v145_flat (x0 : (⟨S1x1x4096, .f32⟩ : BufTy).Contents (Elt Ideal)) (x1 : (⟨S1x64x2, .f32⟩ : BufTy).Contents (Elt Ideal)) (x2 : (⟨S12288x4096, .f32⟩ : BufTy).Contents (Elt Ideal)) (x3 : (⟨S4096x4096, .f32⟩ : BufTy).Contents (Elt Ideal)) (x4 : (⟨S11008x4096, .f32⟩ : BufTy).Contents (Elt Ideal)) (x6 : (⟨S11008x4096, .f32⟩ : BufTy).Contents (Elt Ideal)) (x7 : (⟨S4096, .f32⟩ : BufTy).Contents (Elt Ideal)) (x8 : (⟨S4096, .f32⟩ : BufTy).Contents (Elt Ideal)) (x9 : (⟨S1x1x1x1, .i1⟩ : BufTy).Contents (Elt Ideal)) (n : Fin 11008) :
    val_main_v145 (F := Ideal) x0 x1 x2 x3 x4 x6 x7 x8 x9 (ix3 (0 : Fin 1) (0 : Fin 1) n)
      = FloatOps.mulf (silu (gemv x4 (nrm (f3 (val_main_v121 (F := Ideal) x0 x1 x2 x3 x7 x9)) (f1 x8)) n)) (gemv x6 (nrm (f3 (val_main_v121 (F := Ideal) x0 x1 x2 x3 x7 x9)) (f1 x8)) n) := by
  rw [val_main_v145_apply, v144_silu, v138_flat, v143_flat]

/-! ## The down projection and the second residual sum -/

/-- The thresholded gated unit, entry by entry. -/
theorem v149_thr (x0 : (⟨S1x1x4096, .f32⟩ : BufTy).Contents (Elt Ideal)) (x1 : (⟨S1x64x2, .f32⟩ : BufTy).Contents (Elt Ideal)) (x2 : (⟨S12288x4096, .f32⟩ : BufTy).Contents (Elt Ideal)) (x3 : (⟨S4096x4096, .f32⟩ : BufTy).Contents (Elt Ideal)) (x4 : (⟨S11008x4096, .f32⟩ : BufTy).Contents (Elt Ideal)) (x6 : (⟨S11008x4096, .f32⟩ : BufTy).Contents (Elt Ideal)) (x7 : (⟨S4096, .f32⟩ : BufTy).Contents (Elt Ideal)) (x8 : (⟨S4096, .f32⟩ : BufTy).Contents (Elt Ideal)) (x9 : (⟨S1x1x1x1, .i1⟩ : BufTy).Contents (Elt Ideal)) (i : S1x1x11008.Idx) :
    val_main_v149 (F := Ideal) x0 x1 x2 x3 x4 x6 x7 x8 x9 i = thr (val_main_v145 (F := Ideal) x0 x1 x2 x3 x4 x6 x7 x8 x9 i) := by
  rw [val_main_v149_apply, val_main_v148_apply, val_main_v146_apply, val_main_v147_apply, val_main_cst_22_apply,
    val_main_call8_v0_apply, val_main_cst_23_apply]
  rfl

/-- The second residual sum: the first plus the down projection of the thresholded gated unit. -/
theorem v151_flat (x0 : (⟨S1x1x4096, .f32⟩ : BufTy).Contents (Elt Ideal)) (x1 : (⟨S1x64x2, .f32⟩ : BufTy).Contents (Elt Ideal)) (x2 : (⟨S12288x4096, .f32⟩ : BufTy).Contents (Elt Ideal)) (x3 : (⟨S4096x4096, .f32⟩ : BufTy).Contents (Elt Ideal)) (x4 : (⟨S11008x4096, .f32⟩ : BufTy).Contents (Elt Ideal)) (x5 : (⟨S4096x11008, .f32⟩ : BufTy).Contents (Elt Ideal)) (x6 : (⟨S11008x4096, .f32⟩ : BufTy).Contents (Elt Ideal)) (x7 : (⟨S4096, .f32⟩ : BufTy).Contents (Elt Ideal)) (x8 : (⟨S4096, .f32⟩ : BufTy).Contents (Elt Ideal)) (x9 : (⟨S1x1x1x1, .i1⟩ : BufTy).Contents (Elt Ideal)) (n : Fin 4096) :
    val_main_v151 (F := Ideal) x0 x1 x2 x3 x4 x5 x6 x7 x8 x9 (ix3 (0 : Fin 1) (0 : Fin 1) n)
      = val_main_v121 (F := Ideal) x0 x1 x2 x3 x7 x9 (ix3 (0 : Fin 1) (0 : Fin 1) n)
        + gemv x5 (fun k => thr (val_main_v145 (F := Ideal) x0 x1 x2 x3 x4 x6 x7 x8 x9 (ix3 (0 : Fin 1) (0 : Fin 1) k))) n := by
  rw [val_main_v151_apply, Ideal.addf_def, val_main_v150_apply]
  unfold gemv
  refine congrArg (val_main_v121 (F := Ideal) x0 x1 x2 x3 x7 x9 (ix3 (0 : Fin 1) (0 : Fin 1) n) + ·) (Finset.sum_congr rfl fun k _ => ?_)
  have el : lidx_main_v150 (ix3 (0 : Fin 1) (0 : Fin 1) n) k = (ix3 (0 : Fin 1) (0 : Fin 1) k) :=
    funext fun a => Fin.ext (by match a with | ⟨0, _⟩ => rfl | ⟨1, _⟩ => rfl | ⟨2, _⟩ => rfl)
  have er : ridx_main_v150 (ix3 (0 : Fin 1) (0 : Fin 1) n) k = ix2 n k :=
    funext fun a => Fin.ext (by match a with | ⟨0, _⟩ => rfl | ⟨1, _⟩ => rfl)
  rw [el, er, v149_thr]

end Cert.ReferenceIdeal.RefSpec

end
-- ==== Proof.Bridge.lean ====
/-
  The layout bridges between the two programs.

  One program keeps the three projections of the normalized input as a single row of 12288 entries, cuts it into three
  rows of 4096 and reshapes each to 32 heads of 128 entries; the other computes three separate products, each against
  4096 rows of the same 12288×4096 weight array, and reshapes each to heads. Entry (h, d) of a head array sits at
  row-major position 128·h + d of its row of 4096, so when the single row holds, at column n, the product with weight
  row n, the three cut-and-reshaped arrays are the three head arrays of the other program: both read, at (h, d), the
  product with weight row  off + 128·h + d  for off = 0, 4096, 8192.

  The file also states three reshapes between the shapes [1,1,n], [1,n] and [n] read at an entry: all of them keep the
  last coordinate and only add or drop unit axes.
-/
import proofs.«136584_j38809324486825_2_alg».proof.KernelIdeal
import proofs.«136584_j38809324486825_2_alg».proof.Proof.RefSpec
import Idealize.ShloMosaic.Lib.Pipeline.Value
import Idealize.ShloMosaic.Lib.ValueIdx
import Idealize.ShloMosaic.Lib.ValueLayout

noncomputable section

namespace Cert.Bridge

open Idealize.ShloMosaic Idealize.ShloMosaic.ValueIdx Cert.Spec Cert.ReferenceIdeal.ReadP Cert.ReferenceIdeal.RefSpec

variable {α : Type}

/-! ## Three reshapes between [1,1,n], [1,n] and [n], read at an entry -/

/-- A [1,1,n] array cast to [1,n] reads, at (0,k), the operand at (0,0,k). -/
theorem cast3_2 {n : ℕ} (y : (⟨3, ![1, 1, n]⟩ : Shape).Idx → α) (h : (⟨3, ![1, 1, n]⟩ : Shape).ShapeCasts ⟨2, ![1, n]⟩)
    (k : Fin n) : shapeCast ⟨2, ![1, n]⟩ y h (ix2 (0 : Fin 1) k) = y (ix3 (0 : Fin 1) (0 : Fin 1) k) :=
  shapeCast_1ab_ab_apply y h 0 k

/-- A [1,n] array cast to [1,1,n] reads, at (0,0,k), the operand at (0,k). -/
theorem cast2_3 {n : ℕ} (o : (⟨2, ![1, n]⟩ : Shape).Idx → α) (h : (⟨2, ![1, n]⟩ : Shape).ShapeCasts ⟨3, ![1, 1, n]⟩)
    (k : Fin n) : shapeCast ⟨3, ![1, 1, n]⟩ o h (ix3 (0 : Fin 1) (0 : Fin 1) k) = o (ix2 (0 : Fin 1) k) :=
  shapeCast_ab_1ab_apply o h 0 0 k

/-- An [n] array cast to [1,n] reads, at (0,k), the operand at k. -/
theorem cast1_2 {n : ℕ} (w : (⟨1, ![n]⟩ : Shape).Idx → α) (h : (⟨1, ![n]⟩ : Shape).ShapeCasts ⟨2, ![1, n]⟩)
    (k : Fin n) : shapeCast ⟨2, ![1, n]⟩ w h (ix2 (0 : Fin 1) k) = w (ix1 k) :=
  shapeCast_a_1a_apply w h 0 k

/-! ## The three projections as one [1,12288] row, cut in three and reshaped to heads -/

/-- Columns 0 to 4095 of a row holding the three projections, as 32 heads of 128 entries, are the reference's query array: entry (h, d) of either is the product with weight row 128·h + d. -/
theorem q_bridge (Q : FVec Ideal Cert.KernelIdeal.S1x12288 .f32) (x0 : (⟨Cert.ReferenceIdeal.S1x1x4096, .f32⟩ : BufTy).Contents (Elt Ideal)) (x2 : (⟨Cert.ReferenceIdeal.S12288x4096, .f32⟩ : BufTy).Contents (Elt Ideal)) (x7 : (⟨Cert.ReferenceIdeal.S4096, .f32⟩ : BufTy).Contents (Elt Ideal))
    (hs : Cert.KernelIdeal.S1x12288.Slices ![0, 0] Cert.KernelIdeal.S1x4096) (hc : Cert.KernelIdeal.S1x4096.ShapeCasts Cert.KernelIdeal.S1x1x32x128)
    (hQ : ∀ n : Fin 12288, Q (ix2 (0 : Fin 1) n) = gemv x2 (nrm (f3 x0) (f1 x7)) n) :
    shapeCast Cert.KernelIdeal.S1x1x32x128 (extractStridedSlice Cert.KernelIdeal.S1x4096 ![0, 0] Q hs) hc
      = val_main_v20 (F := Ideal) x0 x2 x7 := by
  funext i
  obtain ⟨a, b, h, d, rfl⟩ : ∃ (a : Fin 1) (b : Fin 1) (h : Fin 32) (d : Fin 128), i = ix4 a b h d :=
    ⟨i 0, i 1, i 2, i 3, eq_ix4 i⟩
  obtain rfl : a = 0 := Subsingleton.elim _ _
  obtain rfl : b = 0 := Subsingleton.elim _ _
  have hlt : 128 * h.val + d.val < 4096 := by omega
  have hL : shapeCast Cert.KernelIdeal.S1x1x32x128 (extractStridedSlice Cert.KernelIdeal.S1x4096 ![0, 0] Q hs) hc (ix4 (0 : Fin 1) (0 : Fin 1) h d)
      = extractStridedSlice Cert.KernelIdeal.S1x4096 ![0, 0] Q hs (ix2 (0 : Fin 1) (⟨128 * h.val + d.val, hlt⟩ : Fin 4096)) :=
    shapeCast_apply _ hc _ _ (by
      rw [Shape.rowMajor_val_two, Shape.rowMajor_val_four]
      show 0 * 4096 + (128 * h.val + d.val) = ((0 * 1 + 0) * 32 + h.val) * 128 + d.val
      omega)
  have e : idx_main_v20 (ix4 (0 : Fin 1) (0 : Fin 1) h d) = ix3 (0 : Fin 1) (0 : Fin 1) (⟨128 * h.val + d.val, hlt⟩ : Fin 4096) :=
    funext fun a => Fin.ext (by
      match a with
      | ⟨0, _⟩ => rfl
      | ⟨1, _⟩ => rfl
      | ⟨2, _⟩ =>
        show (((0 * 1 + 0) * 32 + h.val) * 128 + d.val) % 4096 = 128 * h.val + d.val
        omega)
  rw [hL, slice2_axis1_eq, hQ, val_main_v20_apply, e, v19_flat]
  exact congrArg (gemv x2 _) (Fin.ext (by show 0 + (128 * h.val + d.val) = 128 * h.val + d.val; omega))

/-- Columns 4096 to 8191 of the same row, as 32 heads of 128 entries, are the reference's key array: entry (h, d) of either is the product with weight row 4096 + 128·h + d. -/
theorem k_bridge (Q : FVec Ideal Cert.KernelIdeal.S1x12288 .f32) (x0 : (⟨Cert.ReferenceIdeal.S1x1x4096, .f32⟩ : BufTy).Contents (Elt Ideal)) (x2 : (⟨Cert.ReferenceIdeal.S12288x4096, .f32⟩ : BufTy).Contents (Elt Ideal)) (x7 : (⟨Cert.ReferenceIdeal.S4096, .f32⟩ : BufTy).Contents (Elt Ideal))
    (hs : Cert.KernelIdeal.S1x12288.Slices ![0, 4096] Cert.KernelIdeal.S1x4096) (hc : Cert.KernelIdeal.S1x4096.ShapeCasts Cert.KernelIdeal.S1x1x32x128)
    (hQ : ∀ n : Fin 12288, Q (ix2 (0 : Fin 1) n) = gemv x2 (nrm (f3 x0) (f1 x7)) n) :
    shapeCast Cert.KernelIdeal.S1x1x32x128 (extractStridedSlice Cert.KernelIdeal.S1x4096 ![0, 4096] Q hs) hc
      = val_main_v26 (F := Ideal) x0 x2 x7 := by
  funext i
  obtain ⟨a, b, h, d, rfl⟩ : ∃ (a : Fin 1) (b : Fin 1) (h : Fin 32) (d : Fin 128), i = ix4 a b h d :=
    ⟨i 0, i 1, i 2, i 3, eq_ix4 i⟩
  obtain rfl : a = 0 := Subsingleton.elim _ _
  obtain rfl : b = 0 := Subsingleton.elim _ _
  have hlt : 128 * h.val + d.val < 4096 := by omega
  have hL : shapeCast Cert.KernelIdeal.S1x1x32x128 (extractStridedSlice Cert.KernelIdeal.S1x4096 ![0, 4096] Q hs) hc (ix4 (0 : Fin 1) (0 : Fin 1) h d)
      = extractStridedSlice Cert.KernelIdeal.S1x4096 ![0, 4096] Q hs (ix2 (0 : Fin 1) (⟨128 * h.val + d.val, hlt⟩ : Fin 4096)) :=
    shapeCast_apply _ hc _ _ (by
      rw [Shape.rowMajor_val_two, Shape.rowMajor_val_four]
      show 0 * 4096 + (128 * h.val + d.val) = ((0 * 1 + 0) * 32 + h.val) * 128 + d.val
      omega)
  have e : idx_main_v26 (ix4 (0 : Fin 1) (0 : Fin 1) h d) = ix3 (0 : Fin 1) (0 : Fin 1) (⟨128 * h.val + d.val, hlt⟩ : Fin 4096) :=
    funext fun a => Fin.ext (by
      match a with
      | ⟨0, _⟩ => rfl
      | ⟨1, _⟩ => rfl
      | ⟨2, _⟩ =>
        show (((0 * 1 + 0) * 32 + h.val) * 128 + d.val) % 4096 = 128 * h.val + d.val
        omega)
  rw [hL, slice2_axis1_eq, hQ, val_main_v26_apply, e, v25_flat]

/-- Columns 8192 to 12287 of the same row, as 32 heads of 128 entries, are the reference's value array: entry (h, d) of either is the product with weight row 8192 + 128·h + d. -/
theorem v_bridge (Q : FVec Ideal Cert.KernelIdeal.S1x12288 .f32) (x0 : (⟨Cert.ReferenceIdeal.S1x1x4096, .f32⟩ : BufTy).Contents (Elt Ideal)) (x2 : (⟨Cert.ReferenceIdeal.S12288x4096, .f32⟩ : BufTy).Contents (Elt Ideal)) (x7 : (⟨Cert.ReferenceIdeal.S4096, .f32⟩ : BufTy).Contents (Elt Ideal))
    (hs : Cert.KernelIdeal.S1x12288.Slices ![0, 8192] Cert.KernelIdeal.S1x4096) (hc : Cert.KernelIdeal.S1x4096.ShapeCasts Cert.KernelIdeal.S1x1x32x128)
    (hQ : ∀ n : Fin 12288, Q (ix2 (0 : Fin 1) n) = gemv x2 (nrm (f3 x0) (f1 x7)) n) :
    shapeCast Cert.KernelIdeal.S1x1x32x128 (extractStridedSlice Cert.KernelIdeal.S1x4096 ![0, 8192] Q hs) hc
      = val_main_v32 (F := Ideal) x0 x2 x7 := by
  funext i
  obtain ⟨a, b, h, d, rfl⟩ : ∃ (a : Fin 1) (b : Fin 1) (h : Fin 32) (d : Fin 128), i = ix4 a b h d :=
    ⟨i 0, i 1, i 2, i 3, eq_ix4 i⟩
  obtain rfl : a = 0 := Subsingleton.elim _ _
  obtain rfl : b = 0 := Subsingleton.elim _ _
  have hlt : 128 * h.val + d.val < 4096 := by omega
  have hL : shapeCast Cert.KernelIdeal.S1x1x32x128 (extractStridedSlice Cert.KernelIdeal.S1x4096 ![0, 8192] Q hs) hc (ix4 (0 : Fin 1) (0 : Fin 1) h d)
      = extractStridedSlice Cert.KernelIdeal.S1x4096 ![0, 8192] Q hs (ix2 (0 : Fin 1) (⟨128 * h.val + d.val, hlt⟩ : Fin 4096)) :=
    shapeCast_apply _ hc _ _ (by
      rw [Shape.rowMajor_val_two, Shape.rowMajor_val_four]
      show 0 * 4096 + (128 * h.val + d.val) = ((0 * 1 + 0) * 32 + h.val) * 128 + d.val
      omega)
  have e : idx_main_v32 (ix4 (0 : Fin 1) (0 : Fin 1) h d) = ix3 (0 : Fin 1) (0 : Fin 1) (⟨128 * h.val + d.val, hlt⟩ : Fin 4096) :=
    funext fun a => Fin.ext (by
      match a with
      | ⟨0, _⟩ => rfl
      | ⟨1, _⟩ => rfl
      | ⟨2, _⟩ =>
        show (((0 * 1 + 0) * 32 + h.val) * 128 + d.val) % 4096 = 128 * h.val + d.val
        omega)
  rw [hL, slice2_axis1_eq, hQ, val_main_v32_apply, e, v31_flat]

end Cert.Bridge

end
-- ==== Proof.Join.lean ====
/-
  The four launches composed are the reference's final stage.

  The first launch's result row holds the three projections: column n is the product of the thresholded normalized
  input with weight row n. The second adds, to the residual input, the product of the thresholded attention output
  with the output weights; the third forms  silu(gate) · up  from the thresholded normalized second row; the fourth adds,
  to the second row, the product of the thresholded third row with the down weights. Read entry by entry these are the
  reference's first residual sum, gated unit and second residual sum. The only algebra is the order of the two terms of
  each residual sum (product + residual on one side, residual + product on the other), which is commutativity of the sum.
-/
import proofs.«136584_j38809324486825_2_alg».proof.Proof.KernelRegions
import proofs.«136584_j38809324486825_2_alg».proof.Proof.Bridge

noncomputable section

namespace Cert.Join

open Idealize.ShloMosaic Idealize.ShloMosaic.ValueIdx Cert.Spec Cert.ReferenceIdeal.ReadP Cert.ReferenceIdeal.RefSpec Cert.Bridge Cert.KernelIdeal.KVal

/-- The first launch's row holds, at column n, the product of the thresholded normalized input with weight row n. -/
theorem G0_row (X NA : FVec Ideal Cert.KernelIdeal.S1x4096 .f32) (x0 : (⟨Cert.ReferenceIdeal.S1x1x4096, .f32⟩ : BufTy).Contents (Elt Ideal)) (x2 : (⟨Cert.ReferenceIdeal.S12288x4096, .f32⟩ : BufTy).Contents (Elt Ideal)) (x7 : (⟨Cert.ReferenceIdeal.S4096, .f32⟩ : BufTy).Contents (Elt Ideal))
    (hX : ∀ k : Fin 4096, X (ix2 (0 : Fin 1) k) = x0 (ix3 (0 : Fin 1) (0 : Fin 1) k))
    (hNA : ∀ k : Fin 4096, NA (ix2 (0 : Fin 1) k) = x7 (ix1 k)) (n : Fin 12288) :
    G0 X NA x2 (ix2 (0 : Fin 1) n) = gemv x2 (nrm (f3 x0) (f1 x7)) n := by
  have e1 : (fun k => X (ix2 (0 : Fin 1) k)) = f3 x0 := funext hX
  have e2 : (fun k => NA (ix2 (0 : Fin 1) k)) = f1 x7 := funext hNA
  show gemv x2 (nrm (fun k => X (ix2 (0 : Fin 1) k)) (fun k => NA (ix2 (0 : Fin 1) k))) n = _
  rw [e1, e2]

/-- The second launch's row is the reference's first residual sum: the two add the same two terms in opposite orders. -/
theorem H_row (x0 : (⟨Cert.ReferenceIdeal.S1x1x4096, .f32⟩ : BufTy).Contents (Elt Ideal)) (x1 : (⟨Cert.ReferenceIdeal.S1x64x2, .f32⟩ : BufTy).Contents (Elt Ideal)) (x2 : (⟨Cert.ReferenceIdeal.S12288x4096, .f32⟩ : BufTy).Contents (Elt Ideal)) (x3 : (⟨Cert.ReferenceIdeal.S4096x4096, .f32⟩ : BufTy).Contents (Elt Ideal)) (x7 : (⟨Cert.ReferenceIdeal.S4096, .f32⟩ : BufTy).Contents (Elt Ideal)) (x9 : (⟨Cert.ReferenceIdeal.S1x1x1x1, .i1⟩ : BufTy).Contents (Elt Ideal)) (X Y : FVec Ideal Cert.KernelIdeal.S1x4096 .f32)
    (hX : ∀ k : Fin 4096, X (ix2 (0 : Fin 1) k) = x0 (ix3 (0 : Fin 1) (0 : Fin 1) k))
    (hY : ∀ k : Fin 4096, Y (ix2 (0 : Fin 1) k) = val_main_v115 (F := Ideal) x0 x1 x2 x7 x9 (ix3 (0 : Fin 1) (0 : Fin 1) k)) (n : Fin 4096) :
    G1 Y X x3 (ix2 (0 : Fin 1) n) = val_main_v121 (F := Ideal) x0 x1 x2 x3 x7 x9 (ix3 (0 : Fin 1) (0 : Fin 1) n) := by
  have e : (fun k => thr (Y (ix2 (0 : Fin 1) k))) = fun k => thr (val_main_v115 (F := Ideal) x0 x1 x2 x7 x9 (ix3 (0 : Fin 1) (0 : Fin 1) k)) :=
    funext fun k => congrArg thr (hY k)
  show gemv x3 (fun k => thr (Y (ix2 (0 : Fin 1) k))) n + X (ix2 (0 : Fin 1) n) = _
  rw [v121_flat, hX n, e]
  exact add_comm _ _

/-- The third launch's row, fed the second launch's row, is the reference's gated unit. -/
theorem A_row (x0 : (⟨Cert.ReferenceIdeal.S1x1x4096, .f32⟩ : BufTy).Contents (Elt Ideal)) (x1 : (⟨Cert.ReferenceIdeal.S1x64x2, .f32⟩ : BufTy).Contents (Elt Ideal)) (x2 : (⟨Cert.ReferenceIdeal.S12288x4096, .f32⟩ : BufTy).Contents (Elt Ideal)) (x3 : (⟨Cert.ReferenceIdeal.S4096x4096, .f32⟩ : BufTy).Contents (Elt Ideal)) (x4 : (⟨Cert.ReferenceIdeal.S11008x4096, .f32⟩ : BufTy).Contents (Elt Ideal)) (x6 : (⟨Cert.ReferenceIdeal.S11008x4096, .f32⟩ : BufTy).Contents (Elt Ideal)) (x7 : (⟨Cert.ReferenceIdeal.S4096, .f32⟩ : BufTy).Contents (Elt Ideal)) (x8 : (⟨Cert.ReferenceIdeal.S4096, .f32⟩ : BufTy).Contents (Elt Ideal)) (x9 : (⟨Cert.ReferenceIdeal.S1x1x1x1, .i1⟩ : BufTy).Contents (Elt Ideal)) (X NF Y : FVec Ideal Cert.KernelIdeal.S1x4096 .f32)
    (hX : ∀ k : Fin 4096, X (ix2 (0 : Fin 1) k) = x0 (ix3 (0 : Fin 1) (0 : Fin 1) k))
    (hNF : ∀ k : Fin 4096, NF (ix2 (0 : Fin 1) k) = x8 (ix1 k))
    (hY : ∀ k : Fin 4096, Y (ix2 (0 : Fin 1) k) = val_main_v115 (F := Ideal) x0 x1 x2 x7 x9 (ix3 (0 : Fin 1) (0 : Fin 1) k)) (n : Fin 11008) :
    G2 (G1 Y X x3) NF x4 x6 (ix2 (0 : Fin 1) n) = val_main_v145 (F := Ideal) x0 x1 x2 x3 x4 x6 x7 x8 x9 (ix3 (0 : Fin 1) (0 : Fin 1) n) := by
  have e1 : (fun k => G1 Y X x3 (ix2 (0 : Fin 1) k)) = f3 (val_main_v121 (F := Ideal) x0 x1 x2 x3 x7 x9) :=
    funext fun k => H_row x0 x1 x2 x3 x7 x9 X Y hX hY k
  have e2 : (fun k => NF (ix2 (0 : Fin 1) k)) = f1 x8 := funext hNF
  show FloatOps.mulf
      (silu (gemv x4 (nrm (fun k => G1 Y X x3 (ix2 (0 : Fin 1) k)) (fun k => NF (ix2 (0 : Fin 1) k))) n))
      (gemv x6 (nrm (fun k => G1 Y X x3 (ix2 (0 : Fin 1) k)) (fun k => NF (ix2 (0 : Fin 1) k))) n) = _
  rw [e1, e2, v145_flat]

/-- The four launches composed, reshaped to [1,1,4096], are the reference's second residual sum. -/
theorem join (x0 : (⟨Cert.ReferenceIdeal.S1x1x4096, .f32⟩ : BufTy).Contents (Elt Ideal)) (x1 : (⟨Cert.ReferenceIdeal.S1x64x2, .f32⟩ : BufTy).Contents (Elt Ideal)) (x2 : (⟨Cert.ReferenceIdeal.S12288x4096, .f32⟩ : BufTy).Contents (Elt Ideal)) (x3 : (⟨Cert.ReferenceIdeal.S4096x4096, .f32⟩ : BufTy).Contents (Elt Ideal)) (x4 : (⟨Cert.ReferenceIdeal.S11008x4096, .f32⟩ : BufTy).Contents (Elt Ideal)) (x5 : (⟨Cert.ReferenceIdeal.S4096x11008, .f32⟩ : BufTy).Contents (Elt Ideal)) (x6 : (⟨Cert.ReferenceIdeal.S11008x4096, .f32⟩ : BufTy).Contents (Elt Ideal)) (x7 : (⟨Cert.ReferenceIdeal.S4096, .f32⟩ : BufTy).Contents (Elt Ideal)) (x8 : (⟨Cert.ReferenceIdeal.S4096, .f32⟩ : BufTy).Contents (Elt Ideal)) (x9 : (⟨Cert.ReferenceIdeal.S1x1x1x1, .i1⟩ : BufTy).Contents (Elt Ideal)) (X NF Y : FVec Ideal Cert.KernelIdeal.S1x4096 .f32)
    (hX : ∀ k : Fin 4096, X (ix2 (0 : Fin 1) k) = x0 (ix3 (0 : Fin 1) (0 : Fin 1) k))
    (hNF : ∀ k : Fin 4096, NF (ix2 (0 : Fin 1) k) = x8 (ix1 k))
    (hY : ∀ k : Fin 4096, Y (ix2 (0 : Fin 1) k) = val_main_v115 (F := Ideal) x0 x1 x2 x7 x9 (ix3 (0 : Fin 1) (0 : Fin 1) k))
    (hc : Cert.KernelIdeal.S1x4096.ShapeCasts Cert.KernelIdeal.S1x1x4096) :
    shapeCast Cert.KernelIdeal.S1x1x4096 (G3 (G2 (G1 Y X x3) NF x4 x6) (G1 Y X x3) x5) hc
      = val_main_v151 (F := Ideal) x0 x1 x2 x3 x4 x5 x6 x7 x8 x9 := by
  funext i
  obtain ⟨a, b, n, rfl⟩ : ∃ (a : Fin 1) (b : Fin 1) (n : Fin 4096), i = ix3 a b n := ⟨i 0, i 1, i 2, eq_ix3 i⟩
  obtain rfl : a = 0 := Subsingleton.elim _ _
  obtain rfl : b = 0 := Subsingleton.elim _ _
  have e : (fun k => thr (G2 (G1 Y X x3) NF x4 x6 (ix2 (0 : Fin 1) k))) = fun k => thr (val_main_v145 (F := Ideal) x0 x1 x2 x3 x4 x6 x7 x8 x9 (ix3 (0 : Fin 1) (0 : Fin 1) k)) :=
    funext fun k => congrArg thr (A_row x0 x1 x2 x3 x4 x6 x7 x8 x9 X NF Y hX hNF hY k)
  rw [cast2_3, v151_flat]
  show gemv x5 (fun k => thr (G2 (G1 Y X x3) NF x4 x6 (ix2 (0 : Fin 1) k))) n + G1 Y X x3 (ix2 (0 : Fin 1) n) = _
  rw [e, H_row x0 x1 x2 x3 x7 x9 X Y hX hY n]
  exact add_comm _ _

end Cert.Join

end
-- ==== Proof.KernelResult.lean ====
/-
  The idealized kernel program's result is the reference's final stage of the launch arguments.

  Following the program's segments: the first launch leaves the fused projection of the thresholded normalized input;
  its three column ranges, as 32 heads of 128, are the reference's three projections, so the attention glue — the same
  host operations in both programs — leaves the reference's attention output as a row; the second launch adds its
  thresholded product with the output weights to the input row; the third launch forms silu(gate) · up of the
  thresholded normalized sum; the fourth adds the thresholded activation's product with the down weights. The join of
  these four functions is the reference's last stage, up to the order of the two residual sums.
-/
import proofs.«136584_j38809324486825_2_alg».proof.Proof.KernelHost
import proofs.«136584_j38809324486825_2_alg».proof.Proof.KernelChain
import proofs.«136584_j38809324486825_2_alg».proof.Proof.Join

noncomputable section

namespace Cert.KernelIdeal.KResult

open Cert.KernelIdeal Cert.KernelIdeal.Gen Cert.KernelIdeal.KVal Cert.KernelIdeal.KHost Cert.KernelIdeal.KChain
open Idealize.ShloMosaic Idealize.ShloMosaic.TcCoe Idealize.ShloMosaic.ValueIdx Idealize.SL.Sem Idealize.ShloMosaic.StableHlo
open Cert.Spec Cert.Bridge Cert.Join

variable (m : (ℓ : Loc nD τ sig) → Buf (Elt Ideal) ℓ) (ρ : Dev nD → PrngReg)

set_option maxHeartbeats 4000000 in
/-- The result buffer at the last boundary holds the reference's final stage of the arguments as launched. -/
theorem result_eq (c : Dev nD) :
    W9 m ρ c (Proc.devRef .tc main_v97)
      = Cert.ReferenceIdeal.ReadP.val_main_v151 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  -- the three reshaped rows the launches read
  have hX : ∀ k : Fin 4096, W1 m ρ c (Proc.devRef .tc main_v0) (ix2 (0 : Fin 1) k) = (m ((c : Thread nD τ).loc main_arg0)) (ix3 (0 : Fin 1) (0 : Fin 1) k) := fun k => by
    rw [W1_v0]; exact cast3_2 _ _ k
  have hNA : ∀ k : Fin 4096, W1 m ρ c (Proc.devRef .tc main_v1) (ix2 (0 : Fin 1) k) = (m ((c : Thread nD τ).loc main_arg7)) (ix1 k) := fun k => by
    rw [W1_v1]; exact cast1_2 _ _ k
  have hNF : ∀ k : Fin 4096, W1 m ρ c (Proc.devRef .tc main_v2) (ix2 (0 : Fin 1) k) = (m ((c : Thread nD τ).loc main_arg8)) (ix1 k) := fun k => by
    rw [W1_v2]; exact cast1_2 _ _ k
  -- the first launch's result, and its three column ranges against the reference's projections
  have hQ : W2 m ρ c (Proc.devRef .tc main_v3)
      = G0 (W1 m ρ c (Proc.devRef .tc main_v0)) (W1 m ρ c (Proc.devRef .tc main_v1)) (m ((c : Thread nD τ).loc main_arg2)) := by
    rw [W2_v3]
    show G0 (W1 m ρ c (Proc.devRef .tc main_v0)) (W1 m ρ c (Proc.devRef .tc main_v1)) (W1 m ρ c (Proc.devRef .tc main_arg2)) = _
    rw [W1_arg2]
  have hrow := G0_row (W1 m ρ c (Proc.devRef .tc main_v0)) (W1 m ρ c (Proc.devRef .tc main_v1)) (m ((c : Thread nD τ).loc main_arg0)) (m ((c : Thread nD τ).loc main_arg2)) (m ((c : Thread nD τ).loc main_arg7)) hX hNA
  have hq : qK (W2 m ρ c) = Cert.ReferenceIdeal.ReadP.val_main_v20 (F := Ideal) (m ((c : Thread nD τ).loc main_arg0)) (m ((c : Thread nD τ).loc main_arg2)) (m ((c : Thread nD τ).loc main_arg7)) := by
    show shapeCast S1x1x32x128 (extractStridedSlice S1x4096 ![0, 0] (W2 m ρ c (Proc.devRef .tc main_v3)) slices_S1x12288_S1x4096_0_0) shapeCasts_S1x4096_S1x1x32x128 = _
    rw [hQ]
    exact q_bridge _ _ _ _ _ _ hrow
  have hk : kK (W2 m ρ c) = Cert.ReferenceIdeal.ReadP.val_main_v26 (F := Ideal) (m ((c : Thread nD τ).loc main_arg0)) (m ((c : Thread nD τ).loc main_arg2)) (m ((c : Thread nD τ).loc main_arg7)) := by
    show shapeCast S1x1x32x128 (extractStridedSlice S1x4096 ![0, 4096] (W2 m ρ c (Proc.devRef .tc main_v3)) slices_S1x12288_S1x4096_0_4096) shapeCasts_S1x4096_S1x1x32x128 = _
    rw [hQ]
    exact k_bridge _ _ _ _ _ _ hrow
  have hv : vK (W2 m ρ c) = Cert.ReferenceIdeal.ReadP.val_main_v32 (F := Ideal) (m ((c : Thread nD τ).loc main_arg0)) (m ((c : Thread nD τ).loc main_arg2)) (m ((c : Thread nD τ).loc main_arg7)) := by
    show shapeCast S1x1x32x128 (extractStridedSlice S1x4096 ![0, 8192] (W2 m ρ c (Proc.devRef .tc main_v3)) slices_S1x12288_S1x4096_0_8192) shapeCasts_S1x4096_S1x1x32x128 = _
    rw [hQ]
    exact v_bridge _ _ _ _ _ _ hrow
  -- the attention glue, stretch by stretch
  have h79 : W3 m ρ c (Proc.devRef .tc main_v79) = Cert.ReferenceIdeal.ReadP.val_main_v102 (F := Ideal) (m ((c : Thread nD τ).loc main_arg0)) (m ((c : Thread nD τ).loc main_arg1)) (m ((c : Thread nD τ).loc main_arg2)) (m ((c : Thread nD τ).loc main_arg7)) :=
    s1_v79 (W2 m ρ c) _ _ _ _ (W2_arg1 m ρ c) hq hk
  have h76 : W3 m ρ c (Proc.devRef .tc main_v76) = Cert.ReferenceIdeal.ReadP.val_main_v99 (F := Ideal) (m ((c : Thread nD τ).loc main_arg0)) (m ((c : Thread nD τ).loc main_arg2)) (m ((c : Thread nD τ).loc main_arg7)) :=
    s1_v76 (W2 m ρ c) _ _ _ hv
  have h9 : W3 m ρ c (Proc.devRef .tc main_arg9) = (m ((c : Thread nD τ).loc main_arg9)) := (s1_arg9 (W2 m ρ c)).trans (W2_arg9 m ρ c)
  have h80 : W4 m ρ c (Proc.devRef .tc main_v80) = Cert.ReferenceIdeal.ReadP.val_main_v103 (F := Ideal) (m ((c : Thread nD τ).loc main_arg0)) (m ((c : Thread nD τ).loc main_arg1)) (m ((c : Thread nD τ).loc main_arg2)) (m ((c : Thread nD τ).loc main_arg7)) (m ((c : Thread nD τ).loc main_arg9)) :=
    s2_v80 (W3 m ρ c) _ _ _ _ _ h79 h9 (s1_cst0 (W2 m ρ c))
  have h76' : W4 m ρ c (Proc.devRef .tc main_v76) = Cert.ReferenceIdeal.ReadP.val_main_v99 (F := Ideal) (m ((c : Thread nD τ).loc main_arg0)) (m ((c : Thread nD τ).loc main_arg2)) (m ((c : Thread nD τ).loc main_arg7)) :=
    (s2_v76 (W3 m ρ c)).trans h76
  have h93 : W5 m ρ c (Proc.devRef .tc main_v93)
      = shapeCast S1x4096 (Cert.ReferenceIdeal.ReadP.val_main_v115 (F := Ideal) (m ((c : Thread nD τ).loc main_arg0)) (m ((c : Thread nD τ).loc main_arg1)) (m ((c : Thread nD τ).loc main_arg2)) (m ((c : Thread nD τ).loc main_arg7)) (m ((c : Thread nD τ).loc main_arg9))) shapeCasts_S1x1x4096_S1x4096 :=
    s3_v93 (W4 m ρ c) _ _ _ _ _ h80 h76'
  have hY : ∀ k : Fin 4096, W5 m ρ c (Proc.devRef .tc main_v93) (ix2 (0 : Fin 1) k)
      = Cert.ReferenceIdeal.ReadP.val_main_v115 (F := Ideal) (m ((c : Thread nD τ).loc main_arg0)) (m ((c : Thread nD τ).loc main_arg1)) (m ((c : Thread nD τ).loc main_arg2)) (m ((c : Thread nD τ).loc main_arg7)) (m ((c : Thread nD τ).loc main_arg9)) (ix3 (0 : Fin 1) (0 : Fin 1) k) := fun k => by
    rw [h93]; exact cast3_2 _ _ k
  -- the second, third and fourth launches' results
  have hH : W6 m ρ c (Proc.devRef .tc main_v94)
      = G1 (W5 m ρ c (Proc.devRef .tc main_v93)) (W1 m ρ c (Proc.devRef .tc main_v0)) (m ((c : Thread nD τ).loc main_arg3)) := by
    rw [W6_v94]
    show G1 (W5 m ρ c (Proc.devRef .tc main_v93)) (W5 m ρ c (Proc.devRef .tc main_v0)) (W5 m ρ c (Proc.devRef .tc main_arg3)) = _
    rw [W5_v0, W5_arg3]
  have hA : W7 m ρ c (Proc.devRef .tc main_v95)
      = G2 (G1 (W5 m ρ c (Proc.devRef .tc main_v93)) (W1 m ρ c (Proc.devRef .tc main_v0)) (m ((c : Thread nD τ).loc main_arg3))) (W1 m ρ c (Proc.devRef .tc main_v2)) (m ((c : Thread nD τ).loc main_arg4)) (m ((c : Thread nD τ).loc main_arg6)) := by
    rw [W7_v95]
    show G2 (W6 m ρ c (Proc.devRef .tc main_v94)) (W6 m ρ c (Proc.devRef .tc main_v2)) (W6 m ρ c (Proc.devRef .tc main_arg4)) (W6 m ρ c (Proc.devRef .tc main_arg6)) = _
    rw [hH, W6_v2, W6_arg4, W6_arg6]
  have hO : W8 m ρ c (Proc.devRef .tc main_v96)
      = G3 (G2 (G1 (W5 m ρ c (Proc.devRef .tc main_v93)) (W1 m ρ c (Proc.devRef .tc main_v0)) (m ((c : Thread nD τ).loc main_arg3))) (W1 m ρ c (Proc.devRef .tc main_v2)) (m ((c : Thread nD τ).loc main_arg4)) (m ((c : Thread nD τ).loc main_arg6)))
          (G1 (W5 m ρ c (Proc.devRef .tc main_v93)) (W1 m ρ c (Proc.devRef .tc main_v0)) (m ((c : Thread nD τ).loc main_arg3))) (m ((c : Thread nD τ).loc main_arg5)) := by
    rw [W8_v96]
    show G3 (W7 m ρ c (Proc.devRef .tc main_v95)) (W7 m ρ c (Proc.devRef .tc main_v94)) (W7 m ρ c (Proc.devRef .tc main_arg5)) = _
    rw [hA, W7_v94, hH, W7_arg5]
  rw [W9_v97, hO]
  exact join _ _ _ _ _ _ _ _ _ _ _ _ _ hX hNF hY _

end Cert.KernelIdeal.KResult

end
-- ==== Proof.RefRunS.lean ====
/-
  The reference program's run, in five segments.

  The program is a straight line of 194 array operations. Running a line from buffer contents V rewrites, operation
  by operation, the one buffer each operation writes; running two lines one after the other is running their
  concatenation. The line is cut into five consecutive segments: up to the three head arrays, from there to the
  attention output, to the first residual sum, to the gated unit, and to the second residual sum. For each segment,
  and for ARBITRARY contents V entering it, the buffer the later segments read is the matching stage function of the
  values V holds at the few buffers the segment reads from outside itself; and a buffer the segment does not write
  keeps its contents. Chaining the five statements from the launch contents gives the last buffer as the last stage
  function of the ten arguments, and the arguments, written by no operation, unchanged.
-/
import proofs.«136584_j38809324486825_2_alg».proof.Proof.RefOpsP
import proofs.«136584_j38809324486825_2_alg».proof.Proof.RefReadP
import proofs.«136584_j38809324486825_2_alg».proof.Proof.LibConcat

noncomputable section

namespace Cert.ReferenceIdeal.RunS

open Cert.ReferenceIdeal Cert.ReferenceIdeal.Gen Idealize.ShloMosaic Idealize.ShloMosaic.TcCoe Idealize.SL.Sem Idealize.ShloMosaic.StableHlo

variable {F : FTy → Type} [FloatOps F]

/-! ## Two general facts -/

/-- An operation whose one written buffer is on a list of references writes inside that list's buffers. -/
theorem writes_sub_of_mem {W : List (Ref sig .tc)} {op : HloOp τ sig (Elt Ideal)} {y : Ref sig .tc}
    (hw : op.writes = {Proc.devRef (τ := τ) .tc y}) (hy : y ∈ W) :
    op.writes ⊆ (W.map (Proc.devRef (τ := τ) .tc)).toFinset := by
  rw [hw, Finset.singleton_subset_iff, List.mem_toFinset]
  exact List.mem_map.mpr ⟨y, hy, rfl⟩

/-- Running two lists one after the other is running their concatenation. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => exact ih (op.result V)

/-! ## The five segments -/
/-- The operations up to the three head arrays. -/
def opsA : List (HloOp τ sig (Elt F)) :=
  [
    binary main_arg0 main_arg0 main_v0 (mulf : (⟨S1x1x4096, .f32⟩ : BufTy).Contents (Elt F) → (⟨S1x1x4096, .f32⟩ : BufTy).Contents (Elt F) → (⟨S1x1x4096, .f32⟩ : BufTy).Contents (Elt F)),
    nullary main_cst (constant S_ .f32 0x00000000#32),
    binary main_v0 main_cst main_v1 ((fun x v => Host.reduceAdd x v reducesTo_S1x1x4096_S1x1_d2 h_S_) : (⟨S1x1x4096, .f32⟩ : BufTy).Contents (Elt F) → (⟨S_, .f32⟩ : BufTy).Contents (Elt F) → (⟨S1x1, .f32⟩ : BufTy).Contents (Elt F)),
    unary main_v1 main_v2 (broadcastInDim S1x1x1 ![0, 1] bcast_S1x1_S1x1x1_0_1 : (⟨S1x1, .f32⟩ : BufTy).Contents (Elt F) → (⟨S1x1x1, .f32⟩ : BufTy).Contents (Elt F)),
    nullary main_cst_0 (constant S_ .f32 0x45800000#32),
    unary main_cst_0 main_v3 (broadcastInDim S1x1x1 ![] bcast_S_S1x1x1 : (⟨S_, .f32⟩ : BufTy).Contents (Elt F) → (⟨S1x1x1, .f32⟩ : BufTy).Contents (Elt F)),
    binary main_v2 main_v3 main_v4 (Host.divf : (⟨S1x1x1, .f32⟩ : BufTy).Contents (Elt F) → (⟨S1x1x1, .f32⟩ : BufTy).Contents (Elt F) → (⟨S1x1x1, .f32⟩ : BufTy).Contents (Elt F)),
    nullary main_cst_1 (constant S_ .f32 0x3727C5AC#32),
    unary main_cst_1 main_v5 (broadcastInDim S1x1x1 ![] bcast_S_S1x1x1 : (⟨S_, .f32⟩ : BufTy).Contents (Elt F) → (⟨S1x1x1, .f32⟩ : BufTy).Contents (Elt F)),
    binary main_v4 main_v5 main_v6 (addf : (⟨S1x1x1, .f32⟩ : BufTy).Contents (Elt F) → (⟨S1x1x1, .f32⟩ : BufTy).Contents (Elt F) → (⟨S1x1x1, .f32⟩ : BufTy).Contents (Elt F)),
    unary main_v6 main_v7 (Host.rsqrt : (⟨S1x1x1, .f32⟩ : BufTy).Contents (Elt F) → (⟨S1x1x1, .f32⟩ : BufTy).Contents (Elt F)),
    unary main_v7 main_v8 (broadcastInDim S1x1x4096 ![0, 1, 2] bcast_S1x1x1_S1x1x4096_0_1_2 : (⟨S1x1x1, .f32⟩ : BufTy).Contents (Elt F) → (⟨S1x1x4096, .f32⟩ : BufTy).Contents (Elt F)),
    binary main_arg0 main_v8 main_v9 (mulf : (⟨S1x1x4096, .f32⟩ : BufTy).Contents (Elt F) → (⟨S1x1x4096, .f32⟩ : BufTy).Contents (Elt F) → (⟨S1x1x4096, .f32⟩ : BufTy).Contents (Elt F)),
    unary main_arg7 main_v10 (broadcastInDim S1x1x4096 ![2] bcast_S4096_S1x1x4096_2 : (⟨S4096, .f32⟩ : BufTy).Contents (Elt F) → (⟨S1x1x4096, .f32⟩ : BufTy).Contents (Elt F)),
    binary main_v9 main_v10 main_v11 (mulf : (⟨S1x1x4096, .f32⟩ : BufTy).Contents (Elt F) → (⟨S1x1x4096, .f32⟩ : BufTy).Contents (Elt F) → (⟨S1x1x4096, .f32⟩ : BufTy).Contents (Elt F)),
    unary main_arg2 main_v12 ((extractStridedSlice S4096x4096 ![0, 0] · slices_S12288x4096_S4096x4096_0_0) : (⟨S12288x4096, .f32⟩ : BufTy).Contents (Elt F) → (⟨S4096x4096, .f32⟩ : BufTy).Contents (Elt F)),
    unary main_arg2 main_v13 ((extractStridedSlice S4096x4096 ![4096, 0] · slices_S12288x4096_S4096x4096_4096_0) : (⟨S12288x4096, .f32⟩ : BufTy).Contents (Elt F) → (⟨S4096x4096, .f32⟩ : BufTy).Contents (Elt F)),
    unary main_arg2 main_v14 ((extractStridedSlice S4096x4096 ![8192, 0] · slices_S12288x4096_S4096x4096_8192_0) : (⟨S12288x4096, .f32⟩ : BufTy).Contents (Elt F) → (⟨S4096x4096, .f32⟩ : BufTy).Contents (Elt F)),
    unary main_v11 main_v15 (Host.absf : (⟨S1x1x4096, .f32⟩ : BufTy).Contents (Elt F) → (⟨S1x1x4096, .f32⟩ : BufTy).Contents (Elt F)),
    nullary main_cst_2 (constant S_ .f32 0x3D4CCCCD#32),
    unary main_cst_2 main_v16 (broadcastInDim S1x1x4096 ![] bcast_S_S1x1x4096 : (⟨S_, .f32⟩ : BufTy).Contents (Elt F) → (⟨S1x1x4096, .f32⟩ : BufTy).Contents (Elt F)),
    binary main_v15 main_v16 main_v17 (cmpf .ogt : (⟨S1x1x4096, .f32⟩ : BufTy).Contents (Elt F) → (⟨S1x1x4096, .f32⟩ : BufTy).Contents (Elt F) → (⟨S1x1x4096, .i1⟩ : BufTy).Contents (Elt F)),
    nullary main_cst_3 (constant S_ .f32 0x00000000#32),
    TRef.unary (TRef.of (T := ⟨S_, .f32⟩) main_cst_3) (TRef.of (T := ⟨S1x1x4096, .f32⟩) main_call0_v0) (broadcastInDim S1x1x4096 ![] bcast_S_S1x1x4096),
    TRef.ternary (TRef.of (T := ⟨S1x1x4096, .i1⟩) main_v17) (TRef.of (T := ⟨S1x1x4096, .f32⟩) main_v11) (TRef.of (T := ⟨S1x1x4096, .f32⟩) main_call0_v0) (TRef.of (T := ⟨S1x1x4096, .f32⟩) main_v18) select,
    binary main_v18 main_v12 main_v19 ((fun l r => Host.dotGeneral dot_S1x1x4096_S4096x4096_S1x1x4096_2_1_01_0_n_n none l r) : (⟨S1x1x4096, .f32⟩ : BufTy).Contents (Elt F) → (⟨S4096x4096, .f32⟩ : BufTy).Contents (Elt F) → (⟨S1x1x4096, .f32⟩ : BufTy).Contents (Elt F)),
    reshape main_v19 main_v20 rfl shapeCasts_S1x1x4096_S1x1x32x128,
    unary main_v11 main_v21 (Host.absf : (⟨S1x1x4096, .f32⟩ : BufTy).Contents (Elt F) → (⟨S1x1x4096, .f32⟩ : BufTy).Contents (Elt F)),
    nullary main_cst_4 (constant S_ .f32 0x3D4CCCCD#32),
    unary main_cst_4 main_v22 (broadcastInDim S1x1x4096 ![] bcast_S_S1x1x4096 : (⟨S_, .f32⟩ : BufTy).Contents (Elt F) → (⟨S1x1x4096, .f32⟩ : BufTy).Contents (Elt F)),
    binary main_v21 main_v22 main_v23 (cmpf .ogt : (⟨S1x1x4096, .f32⟩ : BufTy).Contents (Elt F) → (⟨S1x1x4096, .f32⟩ : BufTy).Contents (Elt F) → (⟨S1x1x4096, .i1⟩ : BufTy).Contents (Elt F)),
    nullary main_cst_5 (constant S_ .f32 0x00000000#32),
    TRef.unary (TRef.of (T := ⟨S_, .f32⟩) main_cst_5) (TRef.of (T := ⟨S1x1x4096, .f32⟩) main_call1_v0) (broadcastInDim S1x1x4096 ![] bcast_S_S1x1x4096),
    TRef.ternary (TRef.of (T := ⟨S1x1x4096, .i1⟩) main_v23) (TRef.of (T := ⟨S1x1x4096, .f32⟩) main_v11) (TRef.of (T := ⟨S1x1x4096, .f32⟩) main_call1_v0) (TRef.of (T := ⟨S1x1x4096, .f32⟩) main_v24) select,
    binary main_v24 main_v13 main_v25 ((fun l r => Host.dotGeneral dot_S1x1x4096_S4096x4096_S1x1x4096_2_1_01_0_n_n none l r) : (⟨S1x1x4096, .f32⟩ : BufTy).Contents (Elt F) → (⟨S4096x4096, .f32⟩ : BufTy).Contents (Elt F) → (⟨S1x1x4096, .f32⟩ : BufTy).Contents (Elt F)),
    reshape main_v25 main_v26 rfl shapeCasts_S1x1x4096_S1x1x32x128,
    unary main_v11 main_v27 (Host.absf : (⟨S1x1x4096, .f32⟩ : BufTy).Contents (Elt F) → (⟨S1x1x4096, .f32⟩ : BufTy).Contents (Elt F)),
    nullary main_cst_6 (constant S_ .f32 0x3D4CCCCD#32),
    unary main_cst_6 main_v28 (broadcastInDim S1x1x4096 ![] bcast_S_S1x1x4096 : (⟨S_, .f32⟩ : BufTy).Contents (Elt F) → (⟨S1x1x4096, .f32⟩ : BufTy).Contents (Elt F)),
    binary main_v27 main_v28 main_v29 (cmpf .ogt : (⟨S1x1x4096, .f32⟩ : BufTy).Contents (Elt F) → (⟨S1x1x4096, .f32⟩ : BufTy).Contents (Elt F) → (⟨S1x1x4096, .i1⟩ : BufTy).Contents (Elt F)),
    nullary main_cst_7 (constant S_ .f32 0x00000000#32),
    TRef.unary (TRef.of (T := ⟨S_, .f32⟩) main_cst_7) (TRef.of (T := ⟨S1x1x4096, .f32⟩) main_call2_v0) (broadcastInDim S1x1x4096 ![] bcast_S_S1x1x4096),
    TRef.ternary (TRef.of (T := ⟨S1x1x4096, .i1⟩) main_v29) (TRef.of (T := ⟨S1x1x4096, .f32⟩) main_v11) (TRef.of (T := ⟨S1x1x4096, .f32⟩) main_call2_v0) (TRef.of (T := ⟨S1x1x4096, .f32⟩) main_v30) select,
    binary main_v30 main_v14 main_v31 ((fun l r => Host.dotGeneral dot_S1x1x4096_S4096x4096_S1x1x4096_2_1_01_0_n_n none l r) : (⟨S1x1x4096, .f32⟩ : BufTy).Contents (Elt F) → (⟨S4096x4096, .f32⟩ : BufTy).Contents (Elt F) → (⟨S1x1x4096, .f32⟩ : BufTy).Contents (Elt F)),
    reshape main_v31 main_v32 rfl shapeCasts_S1x1x4096_S1x1x32x128 ]

set_option maxHeartbeats 8000000 in
/-- After the first segment the query array is its stage function of the arguments. -/
theorem segA20 (V : Valuation τ sig (Elt Ideal))
   :
    after (opsA (F := Ideal)) V (Proc.devRef (τ := τ) .tc main_v20) = ReadP.val_main_v20 (F := Ideal) (V (Proc.devRef (τ := τ) .tc main_arg0)) (V (Proc.devRef (τ := τ) .tc main_arg2)) (V (Proc.devRef (τ := τ) .tc main_arg7)) := by
  dsimp only [opsA]
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']

  simp only [ReadP.val_main_v0, ReadP.val_main_cst, ReadP.val_main_v1, ReadP.val_main_v2, ReadP.val_main_cst_0, ReadP.val_main_v3, ReadP.val_main_v4, ReadP.val_main_cst_1, ReadP.val_main_v5, ReadP.val_main_v6, ReadP.val_main_v7, ReadP.val_main_v8, ReadP.val_main_v9, ReadP.val_main_v10, ReadP.val_main_v11, ReadP.val_main_v12, ReadP.val_main_v13, ReadP.val_main_v14, ReadP.val_main_v15, ReadP.val_main_cst_2, ReadP.val_main_v16, ReadP.val_main_v17, ReadP.val_main_cst_3, ReadP.val_main_call0_v0, ReadP.val_main_v18, ReadP.val_main_v19, ReadP.val_main_v20, ReadP.val_main_v21, ReadP.val_main_cst_4, ReadP.val_main_v22, ReadP.val_main_v23, ReadP.val_main_cst_5, ReadP.val_main_call1_v0, ReadP.val_main_v24, ReadP.val_main_v25, ReadP.val_main_v26, ReadP.val_main_v27, ReadP.val_main_cst_6, ReadP.val_main_v28, ReadP.val_main_v29, ReadP.val_main_cst_7, ReadP.val_main_call2_v0, ReadP.val_main_v30, ReadP.val_main_v31, ReadP.val_main_v32]
  rfl

set_option maxHeartbeats 8000000 in
/-- After the first segment the key array is its stage function of the arguments. -/
theorem segA26 (V : Valuation τ sig (Elt Ideal))
   :
    after (opsA (F := Ideal)) V (Proc.devRef (τ := τ) .tc main_v26) = ReadP.val_main_v26 (F := Ideal) (V (Proc.devRef (τ := τ) .tc main_arg0)) (V (Proc.devRef (τ := τ) .tc main_arg2)) (V (Proc.devRef (τ := τ) .tc main_arg7)) := by
  dsimp only [opsA]
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']

  simp only [ReadP.val_main_v0, ReadP.val_main_cst, ReadP.val_main_v1, ReadP.val_main_v2, ReadP.val_main_cst_0, ReadP.val_main_v3, ReadP.val_main_v4, ReadP.val_main_cst_1, ReadP.val_main_v5, ReadP.val_main_v6, ReadP.val_main_v7, ReadP.val_main_v8, ReadP.val_main_v9, ReadP.val_main_v10, ReadP.val_main_v11, ReadP.val_main_v12, ReadP.val_main_v13, ReadP.val_main_v14, ReadP.val_main_v15, ReadP.val_main_cst_2, ReadP.val_main_v16, ReadP.val_main_v17, ReadP.val_main_cst_3, ReadP.val_main_call0_v0, ReadP.val_main_v18, ReadP.val_main_v19, ReadP.val_main_v20, ReadP.val_main_v21, ReadP.val_main_cst_4, ReadP.val_main_v22, ReadP.val_main_v23, ReadP.val_main_cst_5, ReadP.val_main_call1_v0, ReadP.val_main_v24, ReadP.val_main_v25, ReadP.val_main_v26, ReadP.val_main_v27, ReadP.val_main_cst_6, ReadP.val_main_v28, ReadP.val_main_v29, ReadP.val_main_cst_7, ReadP.val_main_call2_v0, ReadP.val_main_v30, ReadP.val_main_v31, ReadP.val_main_v32]
  rfl

set_option maxHeartbeats 8000000 in
/-- After the first segment the value array is its stage function of the arguments. -/
theorem segA32 (V : Valuation τ sig (Elt Ideal))
   :
    after (opsA (F := Ideal)) V (Proc.devRef (τ := τ) .tc main_v32) = ReadP.val_main_v32 (F := Ideal) (V (Proc.devRef (τ := τ) .tc main_arg0)) (V (Proc.devRef (τ := τ) .tc main_arg2)) (V (Proc.devRef (τ := τ) .tc main_arg7)) := by
  dsimp only [opsA]
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']

  simp only [ReadP.val_main_v0, ReadP.val_main_cst, ReadP.val_main_v1, ReadP.val_main_v2, ReadP.val_main_cst_0, ReadP.val_main_v3, ReadP.val_main_v4, ReadP.val_main_cst_1, ReadP.val_main_v5, ReadP.val_main_v6, ReadP.val_main_v7, ReadP.val_main_v8, ReadP.val_main_v9, ReadP.val_main_v10, ReadP.val_main_v11, ReadP.val_main_v12, ReadP.val_main_v13, ReadP.val_main_v14, ReadP.val_main_v15, ReadP.val_main_cst_2, ReadP.val_main_v16, ReadP.val_main_v17, ReadP.val_main_cst_3, ReadP.val_main_call0_v0, ReadP.val_main_v18, ReadP.val_main_v19, ReadP.val_main_v20, ReadP.val_main_v21, ReadP.val_main_cst_4, ReadP.val_main_v22, ReadP.val_main_v23, ReadP.val_main_cst_5, ReadP.val_main_call1_v0, ReadP.val_main_v24, ReadP.val_main_v25, ReadP.val_main_v26, ReadP.val_main_v27, ReadP.val_main_cst_6, ReadP.val_main_v28, ReadP.val_main_v29, ReadP.val_main_cst_7, ReadP.val_main_call2_v0, ReadP.val_main_v30, ReadP.val_main_v31, ReadP.val_main_v32]
  rfl

/-- The references the first segment writes. -/
def WA : List (Ref sig .tc) := [main_v0, main_cst, main_v1, main_v2, main_cst_0, main_v3, main_v4, main_cst_1, main_v5, main_v6, main_v7, main_v8, main_v9, main_v10, main_v11, main_v12, main_v13, main_v14, main_v15, main_cst_2, main_v16, main_v17, main_cst_3, main_call0_v0, main_v18, main_v19, main_v20, main_v21, main_cst_4, main_v22, main_v23, main_cst_5, main_call1_v0, main_v24, main_v25, main_v26, main_v27, main_cst_6, main_v28, main_v29, main_cst_7, main_call2_v0, main_v30, main_v31, main_v32]

set_option maxHeartbeats 8000000 in
set_option maxRecDepth 8192 in
/-- Every operation of the first segment writes one of them. -/
theorem hWA : (opsA (F := Ideal)).Forall fun op => op.writes ⊆ ((WA).map (Proc.devRef (τ := τ) .tc)).toFinset := by
  unfold opsA
  exact ⟨writes_sub_of_mem (y := main_v0) rfl (by decide),
    writes_sub_of_mem (y := main_cst) rfl (by decide),
    writes_sub_of_mem (y := main_v1) rfl (by decide),
    writes_sub_of_mem (y := main_v2) rfl (by decide),
    writes_sub_of_mem (y := main_cst_0) rfl (by decide),
    writes_sub_of_mem (y := main_v3) rfl (by decide),
    writes_sub_of_mem (y := main_v4) rfl (by decide),
    writes_sub_of_mem (y := main_cst_1) rfl (by decide),
    writes_sub_of_mem (y := main_v5) rfl (by decide),
    writes_sub_of_mem (y := main_v6) rfl (by decide),
    writes_sub_of_mem (y := main_v7) rfl (by decide),
    writes_sub_of_mem (y := main_v8) rfl (by decide),
    writes_sub_of_mem (y := main_v9) rfl (by decide),
    writes_sub_of_mem (y := main_v10) rfl (by decide),
    writes_sub_of_mem (y := main_v11) rfl (by decide),
    writes_sub_of_mem (y := main_v12) rfl (by decide),
    writes_sub_of_mem (y := main_v13) rfl (by decide),
    writes_sub_of_mem (y := main_v14) rfl (by decide),
    writes_sub_of_mem (y := main_v15) rfl (by decide),
    writes_sub_of_mem (y := main_cst_2) rfl (by decide),
    writes_sub_of_mem (y := main_v16) rfl (by decide),
    writes_sub_of_mem (y := main_v17) rfl (by decide),
    writes_sub_of_mem (y := main_cst_3) rfl (by decide),
    writes_sub_of_mem (y := main_call0_v0) rfl (by decide),
    writes_sub_of_mem (y := main_v18) rfl (by decide),
    writes_sub_of_mem (y := main_v19) rfl (by decide),
    writes_sub_of_mem (y := main_v20) rfl (by decide),
    writes_sub_of_mem (y := main_v21) rfl (by decide),
    writes_sub_of_mem (y := main_cst_4) rfl (by decide),
    writes_sub_of_mem (y := main_v22) rfl (by decide),
    writes_sub_of_mem (y := main_v23) rfl (by decide),
    writes_sub_of_mem (y := main_cst_5) rfl (by decide),
    writes_sub_of_mem (y := main_call1_v0) rfl (by decide),
    writes_sub_of_mem (y := main_v24) rfl (by decide),
    writes_sub_of_mem (y := main_v25) rfl (by decide),
    writes_sub_of_mem (y := main_v26) rfl (by decide),
    writes_sub_of_mem (y := main_v27) rfl (by decide),
    writes_sub_of_mem (y := main_cst_6) rfl (by decide),
    writes_sub_of_mem (y := main_v28) rfl (by decide),
    writes_sub_of_mem (y := main_v29) rfl (by decide),
    writes_sub_of_mem (y := main_cst_7) rfl (by decide),
    writes_sub_of_mem (y := main_call2_v0) rfl (by decide),
    writes_sub_of_mem (y := main_v30) rfl (by decide),
    writes_sub_of_mem (y := main_v31) rfl (by decide),
    writes_sub_of_mem (y := main_v32) rfl (by decide)⟩

/-- The first segment leaves every other buffer as it was. -/
theorem keepA (V : Valuation τ sig (Elt Ideal)) {r : Ref sig .tc} (hr : r ∉ WA) :
    after (opsA (F := Ideal)) V (Proc.devRef .tc r) = V (Proc.devRef .tc r) :=
  after_of_writes_sub _ V hWA hr
/-- The operations from the three head arrays to the attention output. -/
def opsB : List (HloOp τ sig (Elt F)) :=
  [
    reshape main_v20 main_v33 rfl shapeCasts_S1x1x32x128_S1x1x32x64x2,
    reshape main_arg1 main_v34 rfl shapeCasts_S1x64x2_S1x1x1x64x2,
    unary main_v33 main_v35 ((extractStridedSlice S1x1x32x64x1 ![0, 0, 0, 0, 0] · slices_S1x1x32x64x2_S1x1x32x64x1_0_0_0_0_0) : (⟨S1x1x32x64x2, .f32⟩ : BufTy).Contents (Elt F) → (⟨S1x1x32x64x1, .f32⟩ : BufTy).Contents (Elt F)),
    reshape main_v35 main_v36 rfl shapeCasts_S1x1x32x64x1_S1x1x32x64,
    unary main_v34 main_v37 ((extractStridedSlice S1x1x1x64x1 ![0, 0, 0, 0, 0] · slices_S1x1x1x64x2_S1x1x1x64x1_0_0_0_0_0) : (⟨S1x1x1x64x2, .f32⟩ : BufTy).Contents (Elt F) → (⟨S1x1x1x64x1, .f32⟩ : BufTy).Contents (Elt F)),
    reshape main_v37 main_v38 rfl shapeCasts_S1x1x1x64x1_S1x1x1x64,
    unary main_v38 main_v39 (broadcastInDim S1x1x32x64 ![0, 1, 2, 3] bcast_S1x1x1x64_S1x1x32x64_0_1_2_3 : (⟨S1x1x1x64, .f32⟩ : BufTy).Contents (Elt F) → (⟨S1x1x32x64, .f32⟩ : BufTy).Contents (Elt F)),
    binary main_v36 main_v39 main_v40 (mulf : (⟨S1x1x32x64, .f32⟩ : BufTy).Contents (Elt F) → (⟨S1x1x32x64, .f32⟩ : BufTy).Contents (Elt F) → (⟨S1x1x32x64, .f32⟩ : BufTy).Contents (Elt F)),
    unary main_v33 main_v41 ((extractStridedSlice S1x1x32x64x1 ![0, 0, 0, 0, 1] · slices_S1x1x32x64x2_S1x1x32x64x1_0_0_0_0_1) : (⟨S1x1x32x64x2, .f32⟩ : BufTy).Contents (Elt F) → (⟨S1x1x32x64x1, .f32⟩ : BufTy).Contents (Elt F)),
    reshape main_v41 main_v42 rfl shapeCasts_S1x1x32x64x1_S1x1x32x64,
    unary main_v34 main_v43 ((extractStridedSlice S1x1x1x64x1 ![0, 0, 0, 0, 1] · slices_S1x1x1x64x2_S1x1x1x64x1_0_0_0_0_1) : (⟨S1x1x1x64x2, .f32⟩ : BufTy).Contents (Elt F) → (⟨S1x1x1x64x1, .f32⟩ : BufTy).Contents (Elt F)),
    reshape main_v43 main_v44 rfl shapeCasts_S1x1x1x64x1_S1x1x1x64,
    unary main_v44 main_v45 (broadcastInDim S1x1x32x64 ![0, 1, 2, 3] bcast_S1x1x1x64_S1x1x32x64_0_1_2_3 : (⟨S1x1x1x64, .f32⟩ : BufTy).Contents (Elt F) → (⟨S1x1x32x64, .f32⟩ : BufTy).Contents (Elt F)),
    binary main_v42 main_v45 main_v46 (mulf : (⟨S1x1x32x64, .f32⟩ : BufTy).Contents (Elt F) → (⟨S1x1x32x64, .f32⟩ : BufTy).Contents (Elt F) → (⟨S1x1x32x64, .f32⟩ : BufTy).Contents (Elt F)),
    binary main_v40 main_v46 main_v47 (subf : (⟨S1x1x32x64, .f32⟩ : BufTy).Contents (Elt F) → (⟨S1x1x32x64, .f32⟩ : BufTy).Contents (Elt F) → (⟨S1x1x32x64, .f32⟩ : BufTy).Contents (Elt F)),
    unary main_v33 main_v48 ((extractStridedSlice S1x1x32x64x1 ![0, 0, 0, 0, 1] · slices_S1x1x32x64x2_S1x1x32x64x1_0_0_0_0_1) : (⟨S1x1x32x64x2, .f32⟩ : BufTy).Contents (Elt F) → (⟨S1x1x32x64x1, .f32⟩ : BufTy).Contents (Elt F)),
    reshape main_v48 main_v49 rfl shapeCasts_S1x1x32x64x1_S1x1x32x64,
    unary main_v34 main_v50 ((extractStridedSlice S1x1x1x64x1 ![0, 0, 0, 0, 0] · slices_S1x1x1x64x2_S1x1x1x64x1_0_0_0_0_0) : (⟨S1x1x1x64x2, .f32⟩ : BufTy).Contents (Elt F) → (⟨S1x1x1x64x1, .f32⟩ : BufTy).Contents (Elt F)),
    reshape main_v50 main_v51 rfl shapeCasts_S1x1x1x64x1_S1x1x1x64,
    unary main_v51 main_v52 (broadcastInDim S1x1x32x64 ![0, 1, 2, 3] bcast_S1x1x1x64_S1x1x32x64_0_1_2_3 : (⟨S1x1x1x64, .f32⟩ : BufTy).Contents (Elt F) → (⟨S1x1x32x64, .f32⟩ : BufTy).Contents (Elt F)),
    binary main_v49 main_v52 main_v53 (mulf : (⟨S1x1x32x64, .f32⟩ : BufTy).Contents (Elt F) → (⟨S1x1x32x64, .f32⟩ : BufTy).Contents (Elt F) → (⟨S1x1x32x64, .f32⟩ : BufTy).Contents (Elt F)),
    unary main_v33 main_v54 ((extractStridedSlice S1x1x32x64x1 ![0, 0, 0, 0, 0] · slices_S1x1x32x64x2_S1x1x32x64x1_0_0_0_0_0) : (⟨S1x1x32x64x2, .f32⟩ : BufTy).Contents (Elt F) → (⟨S1x1x32x64x1, .f32⟩ : BufTy).Contents (Elt F)),
    reshape main_v54 main_v55 rfl shapeCasts_S1x1x32x64x1_S1x1x32x64,
    unary main_v34 main_v56 ((extractStridedSlice S1x1x1x64x1 ![0, 0, 0, 0, 1] · slices_S1x1x1x64x2_S1x1x1x64x1_0_0_0_0_1) : (⟨S1x1x1x64x2, .f32⟩ : BufTy).Contents (Elt F) → (⟨S1x1x1x64x1, .f32⟩ : BufTy).Contents (Elt F)),
    reshape main_v56 main_v57 rfl shapeCasts_S1x1x1x64x1_S1x1x1x64,
    unary main_v57 main_v58 (broadcastInDim S1x1x32x64 ![0, 1, 2, 3] bcast_S1x1x1x64_S1x1x32x64_0_1_2_3 : (⟨S1x1x1x64, .f32⟩ : BufTy).Contents (Elt F) → (⟨S1x1x32x64, .f32⟩ : BufTy).Contents (Elt F)),
    binary main_v55 main_v58 main_v59 (mulf : (⟨S1x1x32x64, .f32⟩ : BufTy).Contents (Elt F) → (⟨S1x1x32x64, .f32⟩ : BufTy).Contents (Elt F) → (⟨S1x1x32x64, .f32⟩ : BufTy).Contents (Elt F)),
    binary main_v53 main_v59 main_v60 (addf : (⟨S1x1x32x64, .f32⟩ : BufTy).Contents (Elt F) → (⟨S1x1x32x64, .f32⟩ : BufTy).Contents (Elt F) → (⟨S1x1x32x64, .f32⟩ : BufTy).Contents (Elt F)),
    unary main_v47 main_v61 (broadcastInDim S1x1x32x64x1 ![0, 1, 2, 3] bcast_S1x1x32x64_S1x1x32x64x1_0_1_2_3 : (⟨S1x1x32x64, .f32⟩ : BufTy).Contents (Elt F) → (⟨S1x1x32x64x1, .f32⟩ : BufTy).Contents (Elt F)),
    unary main_v60 main_v62 (broadcastInDim S1x1x32x64x1 ![0, 1, 2, 3] bcast_S1x1x32x64_S1x1x32x64x1_0_1_2_3 : (⟨S1x1x32x64, .f32⟩ : BufTy).Contents (Elt F) → (⟨S1x1x32x64x1, .f32⟩ : BufTy).Contents (Elt F)),
    binary main_v61 main_v62 main_v63 ((fun a b => concatenate S1x1x32x64x2 4 [⟨S1x1x32x64x1, a⟩, ⟨S1x1x32x64x1, b⟩] concatenates_S1x1x32x64x1_S1x1x32x64x1_S1x1x32x64x2_d4) : (⟨S1x1x32x64x1, .f32⟩ : BufTy).Contents (Elt F) → (⟨S1x1x32x64x1, .f32⟩ : BufTy).Contents (Elt F) → (⟨S1x1x32x64x2, .f32⟩ : BufTy).Contents (Elt F)),
    reshape main_v63 main_v64 rfl shapeCasts_S1x1x32x64x2_S1x1x32x128,
    unary main_v64 main_v65 ((transpose S1x32x1x128 [0, 2, 1, 3] · transposes_S1x1x32x128_S1x32x1x128_0_2_1_3) : (⟨S1x1x32x128, .f32⟩ : BufTy).Contents (Elt F) → (⟨S1x32x1x128, .f32⟩ : BufTy).Contents (Elt F)),
    reshape main_v26 main_v66 rfl shapeCasts_S1x1x32x128_S1x1x32x64x2,
    reshape main_arg1 main_v67 rfl shapeCasts_S1x64x2_S1x1x1x64x2,
    unary main_v66 main_v68 ((extractStridedSlice S1x1x32x64x1 ![0, 0, 0, 0, 0] · slices_S1x1x32x64x2_S1x1x32x64x1_0_0_0_0_0) : (⟨S1x1x32x64x2, .f32⟩ : BufTy).Contents (Elt F) → (⟨S1x1x32x64x1, .f32⟩ : BufTy).Contents (Elt F)),
    reshape main_v68 main_v69 rfl shapeCasts_S1x1x32x64x1_S1x1x32x64,
    unary main_v67 main_v70 ((extractStridedSlice S1x1x1x64x1 ![0, 0, 0, 0, 0] · slices_S1x1x1x64x2_S1x1x1x64x1_0_0_0_0_0) : (⟨S1x1x1x64x2, .f32⟩ : BufTy).Contents (Elt F) → (⟨S1x1x1x64x1, .f32⟩ : BufTy).Contents (Elt F)),
    reshape main_v70 main_v71 rfl shapeCasts_S1x1x1x64x1_S1x1x1x64,
    unary main_v71 main_v72 (broadcastInDim S1x1x32x64 ![0, 1, 2, 3] bcast_S1x1x1x64_S1x1x32x64_0_1_2_3 : (⟨S1x1x1x64, .f32⟩ : BufTy).Contents (Elt F) → (⟨S1x1x32x64, .f32⟩ : BufTy).Contents (Elt F)),
    binary main_v69 main_v72 main_v73 (mulf : (⟨S1x1x32x64, .f32⟩ : BufTy).Contents (Elt F) → (⟨S1x1x32x64, .f32⟩ : BufTy).Contents (Elt F) → (⟨S1x1x32x64, .f32⟩ : BufTy).Contents (Elt F)),
    unary main_v66 main_v74 ((extractStridedSlice S1x1x32x64x1 ![0, 0, 0, 0, 1] · slices_S1x1x32x64x2_S1x1x32x64x1_0_0_0_0_1) : (⟨S1x1x32x64x2, .f32⟩ : BufTy).Contents (Elt F) → (⟨S1x1x32x64x1, .f32⟩ : BufTy).Contents (Elt F)),
    reshape main_v74 main_v75 rfl shapeCasts_S1x1x32x64x1_S1x1x32x64,
    unary main_v67 main_v76 ((extractStridedSlice S1x1x1x64x1 ![0, 0, 0, 0, 1] · slices_S1x1x1x64x2_S1x1x1x64x1_0_0_0_0_1) : (⟨S1x1x1x64x2, .f32⟩ : BufTy).Contents (Elt F) → (⟨S1x1x1x64x1, .f32⟩ : BufTy).Contents (Elt F)),
    reshape main_v76 main_v77 rfl shapeCasts_S1x1x1x64x1_S1x1x1x64,
    unary main_v77 main_v78 (broadcastInDim S1x1x32x64 ![0, 1, 2, 3] bcast_S1x1x1x64_S1x1x32x64_0_1_2_3 : (⟨S1x1x1x64, .f32⟩ : BufTy).Contents (Elt F) → (⟨S1x1x32x64, .f32⟩ : BufTy).Contents (Elt F)),
    binary main_v75 main_v78 main_v79 (mulf : (⟨S1x1x32x64, .f32⟩ : BufTy).Contents (Elt F) → (⟨S1x1x32x64, .f32⟩ : BufTy).Contents (Elt F) → (⟨S1x1x32x64, .f32⟩ : BufTy).Contents (Elt F)),
    binary main_v73 main_v79 main_v80 (subf : (⟨S1x1x32x64, .f32⟩ : BufTy).Contents (Elt F) → (⟨S1x1x32x64, .f32⟩ : BufTy).Contents (Elt F) → (⟨S1x1x32x64, .f32⟩ : BufTy).Contents (Elt F)),
    unary main_v66 main_v81 ((extractStridedSlice S1x1x32x64x1 ![0, 0, 0, 0, 1] · slices_S1x1x32x64x2_S1x1x32x64x1_0_0_0_0_1) : (⟨S1x1x32x64x2, .f32⟩ : BufTy).Contents (Elt F) → (⟨S1x1x32x64x1, .f32⟩ : BufTy).Contents (Elt F)),
    reshape main_v81 main_v82 rfl shapeCasts_S1x1x32x64x1_S1x1x32x64,
    unary main_v67 main_v83 ((extractStridedSlice S1x1x1x64x1 ![0, 0, 0, 0, 0] · slices_S1x1x1x64x2_S1x1x1x64x1_0_0_0_0_0) : (⟨S1x1x1x64x2, .f32⟩ : BufTy).Contents (Elt F) → (⟨S1x1x1x64x1, .f32⟩ : BufTy).Contents (Elt F)),
    reshape main_v83 main_v84 rfl shapeCasts_S1x1x1x64x1_S1x1x1x64,
    unary main_v84 main_v85 (broadcastInDim S1x1x32x64 ![0, 1, 2, 3] bcast_S1x1x1x64_S1x1x32x64_0_1_2_3 : (⟨S1x1x1x64, .f32⟩ : BufTy).Contents (Elt F) → (⟨S1x1x32x64, .f32⟩ : BufTy).Contents (Elt F)),
    binary main_v82 main_v85 main_v86 (mulf : (⟨S1x1x32x64, .f32⟩ : BufTy).Contents (Elt F) → (⟨S1x1x32x64, .f32⟩ : BufTy).Contents (Elt F) → (⟨S1x1x32x64, .f32⟩ : BufTy).Contents (Elt F)),
    unary main_v66 main_v87 ((extractStridedSlice S1x1x32x64x1 ![0, 0, 0, 0, 0] · slices_S1x1x32x64x2_S1x1x32x64x1_0_0_0_0_0) : (⟨S1x1x32x64x2, .f32⟩ : BufTy).Contents (Elt F) → (⟨S1x1x32x64x1, .f32⟩ : BufTy).Contents (Elt F)),
    reshape main_v87 main_v88 rfl shapeCasts_S1x1x32x64x1_S1x1x32x64,
    unary main_v67 main_v89 ((extractStridedSlice S1x1x1x64x1 ![0, 0, 0, 0, 1] · slices_S1x1x1x64x2_S1x1x1x64x1_0_0_0_0_1) : (⟨S1x1x1x64x2, .f32⟩ : BufTy).Contents (Elt F) → (⟨S1x1x1x64x1, .f32⟩ : BufTy).Contents (Elt F)),
    reshape main_v89 main_v90 rfl shapeCasts_S1x1x1x64x1_S1x1x1x64,
    unary main_v90 main_v91 (broadcastInDim S1x1x32x64 ![0, 1, 2, 3] bcast_S1x1x1x64_S1x1x32x64_0_1_2_3 : (⟨S1x1x1x64, .f32⟩ : BufTy).Contents (Elt F) → (⟨S1x1x32x64, .f32⟩ : BufTy).Contents (Elt F)),
    binary main_v88 main_v91 main_v92 (mulf : (⟨S1x1x32x64, .f32⟩ : BufTy).Contents (Elt F) → (⟨S1x1x32x64, .f32⟩ : BufTy).Contents (Elt F) → (⟨S1x1x32x64, .f32⟩ : BufTy).Contents (Elt F)),
    binary main_v86 main_v92 main_v93 (addf : (⟨S1x1x32x64, .f32⟩ : BufTy).Contents (Elt F) → (⟨S1x1x32x64, .f32⟩ : BufTy).Contents (Elt F) → (⟨S1x1x32x64, .f32⟩ : BufTy).Contents (Elt F)),
    unary main_v80 main_v94 (broadcastInDim S1x1x32x64x1 ![0, 1, 2, 3] bcast_S1x1x32x64_S1x1x32x64x1_0_1_2_3 : (⟨S1x1x32x64, .f32⟩ : BufTy).Contents (Elt F) → (⟨S1x1x32x64x1, .f32⟩ : BufTy).Contents (Elt F)),
    unary main_v93 main_v95 (broadcastInDim S1x1x32x64x1 ![0, 1, 2, 3] bcast_S1x1x32x64_S1x1x32x64x1_0_1_2_3 : (⟨S1x1x32x64, .f32⟩ : BufTy).Contents (Elt F) → (⟨S1x1x32x64x1, .f32⟩ : BufTy).Contents (Elt F)),
    binary main_v94 main_v95 main_v96 ((fun a b => concatenate S1x1x32x64x2 4 [⟨S1x1x32x64x1, a⟩, ⟨S1x1x32x64x1, b⟩] concatenates_S1x1x32x64x1_S1x1x32x64x1_S1x1x32x64x2_d4) : (⟨S1x1x32x64x1, .f32⟩ : BufTy).Contents (Elt F) → (⟨S1x1x32x64x1, .f32⟩ : BufTy).Contents (Elt F) → (⟨S1x1x32x64x2, .f32⟩ : BufTy).Contents (Elt F)),
    reshape main_v96 main_v97 rfl shapeCasts_S1x1x32x64x2_S1x1x32x128,
    unary main_v97 main_v98 ((transpose S1x32x1x128 [0, 2, 1, 3] · transposes_S1x1x32x128_S1x32x1x128_0_2_1_3) : (⟨S1x1x32x128, .f32⟩ : BufTy).Contents (Elt F) → (⟨S1x32x1x128, .f32⟩ : BufTy).Contents (Elt F)),
    unary main_v32 main_v99 ((transpose S1x32x1x128 [0, 2, 1, 3] · transposes_S1x1x32x128_S1x32x1x128_0_2_1_3) : (⟨S1x1x32x128, .f32⟩ : BufTy).Contents (Elt F) → (⟨S1x32x1x128, .f32⟩ : BufTy).Contents (Elt F)),
    binary main_v65 main_v98 main_v100 ((fun l r => Host.dotGeneral dot_S1x32x1x128_S1x32x1x128_S1x32x1x1_3_3_2_2_01_01 none l r) : (⟨S1x32x1x128, .f32⟩ : BufTy).Contents (Elt F) → (⟨S1x32x1x128, .f32⟩ : BufTy).Contents (Elt F) → (⟨S1x32x1x1, .f32⟩ : BufTy).Contents (Elt F)),
    nullary main_cst_8 (constant S_ .f32 0x3DB504F3#32),
    unary main_cst_8 main_v101 (broadcastInDim S1x32x1x1 ![] bcast_S_S1x32x1x1 : (⟨S_, .f32⟩ : BufTy).Contents (Elt F) → (⟨S1x32x1x1, .f32⟩ : BufTy).Contents (Elt F)),
    binary main_v100 main_v101 main_v102 (mulf : (⟨S1x32x1x1, .f32⟩ : BufTy).Contents (Elt F) → (⟨S1x32x1x1, .f32⟩ : BufTy).Contents (Elt F) → (⟨S1x32x1x1, .f32⟩ : BufTy).Contents (Elt F)),
    nullary main_cst_9 (constant S_ .f32 0xF149F2CA#32),
    TRef.unary (TRef.of (T := ⟨S1x1x1x1, .i1⟩) main_arg9) (TRef.of (T := ⟨S1x32x1x1, .i1⟩) main_call3_v0) (broadcastInDim S1x32x1x1 ![0, 1, 2, 3] bcast_S1x1x1x1_S1x32x1x1_0_1_2_3),
    TRef.unary (TRef.of (T := ⟨S_, .f32⟩) main_cst_9) (TRef.of (T := ⟨S1x32x1x1, .f32⟩) main_call3_v1) (broadcastInDim S1x32x1x1 ![] bcast_S_S1x32x1x1),
    TRef.ternary (TRef.of (T := ⟨S1x32x1x1, .i1⟩) main_call3_v0) (TRef.of (T := ⟨S1x32x1x1, .f32⟩) main_v102) (TRef.of (T := ⟨S1x32x1x1, .f32⟩) main_call3_v1) (TRef.of (T := ⟨S1x32x1x1, .f32⟩) main_v103) select,
    nullary main_cst_10 (constant S_ .f32 0xFF800000#32),
    binary main_v103 main_cst_10 main_v104 ((fun x v => Host.reduce FloatOps.maximumf x v reducesTo_S1x32x1x1_S1x32x1_d3 h_S_) : (⟨S1x32x1x1, .f32⟩ : BufTy).Contents (Elt F) → (⟨S_, .f32⟩ : BufTy).Contents (Elt F) → (⟨S1x32x1, .f32⟩ : BufTy).Contents (Elt F)),
    nullary main_cst_11 (constant S_ .f32 0xFF800000#32),
    unary main_cst_11 main_v105 (broadcastInDim S1x32x1 ![] bcast_S_S1x32x1 : (⟨S_, .f32⟩ : BufTy).Contents (Elt F) → (⟨S1x32x1, .f32⟩ : BufTy).Contents (Elt F)),
    binary main_v105 main_v104 main_v106 (maximumf : (⟨S1x32x1, .f32⟩ : BufTy).Contents (Elt F) → (⟨S1x32x1, .f32⟩ : BufTy).Contents (Elt F) → (⟨S1x32x1, .f32⟩ : BufTy).Contents (Elt F)),
    unary main_v106 main_v107 (broadcastInDim S1x32x1x1 ![0, 1, 2] bcast_S1x32x1_S1x32x1x1_0_1_2 : (⟨S1x32x1, .f32⟩ : BufTy).Contents (Elt F) → (⟨S1x32x1x1, .f32⟩ : BufTy).Contents (Elt F)),
    binary main_v103 main_v107 main_v108 (subf : (⟨S1x32x1x1, .f32⟩ : BufTy).Contents (Elt F) → (⟨S1x32x1x1, .f32⟩ : BufTy).Contents (Elt F) → (⟨S1x32x1x1, .f32⟩ : BufTy).Contents (Elt F)),
    unary main_v108 main_v109 (Host.exp : (⟨S1x32x1x1, .f32⟩ : BufTy).Contents (Elt F) → (⟨S1x32x1x1, .f32⟩ : BufTy).Contents (Elt F)),
    nullary main_cst_12 (constant S_ .f32 0x00000000#32),
    binary main_v109 main_cst_12 main_v110 ((fun x v => Host.reduceAdd x v reducesTo_S1x32x1x1_S1x32x1_d3 h_S_) : (⟨S1x32x1x1, .f32⟩ : BufTy).Contents (Elt F) → (⟨S_, .f32⟩ : BufTy).Contents (Elt F) → (⟨S1x32x1, .f32⟩ : BufTy).Contents (Elt F)),
    unary main_v110 main_v111 (broadcastInDim S1x32x1x1 ![0, 1, 2] bcast_S1x32x1_S1x32x1x1_0_1_2 : (⟨S1x32x1, .f32⟩ : BufTy).Contents (Elt F) → (⟨S1x32x1x1, .f32⟩ : BufTy).Contents (Elt F)),
    binary main_v109 main_v111 main_v112 (Host.divf : (⟨S1x32x1x1, .f32⟩ : BufTy).Contents (Elt F) → (⟨S1x32x1x1, .f32⟩ : BufTy).Contents (Elt F) → (⟨S1x32x1x1, .f32⟩ : BufTy).Contents (Elt F)),
    binary main_v112 main_v99 main_v113 ((fun l r => Host.dotGeneral dot_S1x32x1x1_S1x32x1x128_S1x32x1x128_3_2_2_3_01_01 none l r) : (⟨S1x32x1x1, .f32⟩ : BufTy).Contents (Elt F) → (⟨S1x32x1x128, .f32⟩ : BufTy).Contents (Elt F) → (⟨S1x32x1x128, .f32⟩ : BufTy).Contents (Elt F)),
    unary main_v113 main_v114 ((transpose S1x1x32x128 [0, 2, 1, 3] · transposes_S1x32x1x128_S1x1x32x128_0_2_1_3) : (⟨S1x32x1x128, .f32⟩ : BufTy).Contents (Elt F) → (⟨S1x1x32x128, .f32⟩ : BufTy).Contents (Elt F)),
    reshape main_v114 main_v115 rfl shapeCasts_S1x1x32x128_S1x1x4096 ]

set_option maxHeartbeats 8000000 in
/-- The second segment: the attention output, from the three head arrays and two arguments. -/
theorem segB (V : Valuation τ sig (Elt Ideal)) (x0 : (⟨S1x1x4096, .f32⟩ : BufTy).Contents (Elt Ideal)) (x1 : (⟨S1x64x2, .f32⟩ : BufTy).Contents (Elt Ideal)) (x2 : (⟨S12288x4096, .f32⟩ : BufTy).Contents (Elt Ideal)) (x7 : (⟨S4096, .f32⟩ : BufTy).Contents (Elt Ideal)) (x9 : (⟨S1x1x1x1, .i1⟩ : BufTy).Contents (Elt Ideal))
    (h20 : V (Proc.devRef (τ := τ) .tc main_v20) = ReadP.val_main_v20 (F := Ideal) x0 x2 x7)
    (h26 : V (Proc.devRef (τ := τ) .tc main_v26) = ReadP.val_main_v26 (F := Ideal) x0 x2 x7)
    (h32 : V (Proc.devRef (τ := τ) .tc main_v32) = ReadP.val_main_v32 (F := Ideal) x0 x2 x7)
    (h1 : V (Proc.devRef (τ := τ) .tc main_arg1) = x1)
    (h9 : V (Proc.devRef (τ := τ) .tc main_arg9) = x9) :
    after (opsB (F := Ideal)) V (Proc.devRef (τ := τ) .tc main_v115) = ReadP.val_main_v115 (F := Ideal) x0 x1 x2 x7 x9 := by
  dsimp only [opsB]
  simp (disch := decide) only [Cert.LibConcat.concat2_fold, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
  rw [h20, h26, h32, h1, h9]
  simp only [ReadP.val_main_v33, ReadP.val_main_v34, ReadP.val_main_v35, ReadP.val_main_v36, ReadP.val_main_v37, ReadP.val_main_v38, ReadP.val_main_v39, ReadP.val_main_v40, ReadP.val_main_v41, ReadP.val_main_v42, ReadP.val_main_v43, ReadP.val_main_v44, ReadP.val_main_v45, ReadP.val_main_v46, ReadP.val_main_v47, ReadP.val_main_v48, ReadP.val_main_v49, ReadP.val_main_v50, ReadP.val_main_v51, ReadP.val_main_v52, ReadP.val_main_v53, ReadP.val_main_v54, ReadP.val_main_v55, ReadP.val_main_v56, ReadP.val_main_v57, ReadP.val_main_v58, ReadP.val_main_v59, ReadP.val_main_v60, ReadP.val_main_v61, ReadP.val_main_v62, ReadP.val_main_v63, ReadP.val_main_v64, ReadP.val_main_v65, ReadP.val_main_v66, ReadP.val_main_v67, ReadP.val_main_v68, ReadP.val_main_v69, ReadP.val_main_v70, ReadP.val_main_v71, ReadP.val_main_v72, ReadP.val_main_v73, ReadP.val_main_v74, ReadP.val_main_v75, ReadP.val_main_v76, ReadP.val_main_v77, ReadP.val_main_v78, ReadP.val_main_v79, ReadP.val_main_v80, ReadP.val_main_v81, ReadP.val_main_v82, ReadP.val_main_v83, ReadP.val_main_v84, ReadP.val_main_v85, ReadP.val_main_v86, ReadP.val_main_v87, ReadP.val_main_v88, ReadP.val_main_v89, ReadP.val_main_v90, ReadP.val_main_v91, ReadP.val_main_v92, ReadP.val_main_v93, ReadP.val_main_v94, ReadP.val_main_v95, ReadP.val_main_v96, ReadP.val_main_v97, ReadP.val_main_v98, ReadP.val_main_v99, ReadP.val_main_v100, ReadP.val_main_cst_8, ReadP.val_main_v101, ReadP.val_main_v102, ReadP.val_main_cst_9, ReadP.val_main_call3_v0, ReadP.val_main_call3_v1, ReadP.val_main_v103, ReadP.val_main_cst_10, ReadP.val_main_v104, ReadP.val_main_cst_11, ReadP.val_main_v105, ReadP.val_main_v106, ReadP.val_main_v107, ReadP.val_main_v108, ReadP.val_main_v109, ReadP.val_main_cst_12, ReadP.val_main_v110, ReadP.val_main_v111, ReadP.val_main_v112, ReadP.val_main_v113, ReadP.val_main_v114, ReadP.val_main_v115]
  rfl

/-- The references the second segment writes. -/
def WB : List (Ref sig .tc) := [main_v33, main_v34, main_v35, main_v36, main_v37, main_v38, main_v39, main_v40, main_v41, main_v42, main_v43, main_v44, main_v45, main_v46, main_v47, main_v48, main_v49, main_v50, main_v51, main_v52, main_v53, main_v54, main_v55, main_v56, main_v57, main_v58, main_v59, main_v60, main_v61, main_v62, main_v63, main_v64, main_v65, main_v66, main_v67, main_v68, main_v69, main_v70, main_v71, main_v72, main_v73, main_v74, main_v75, main_v76, main_v77, main_v78, main_v79, main_v80, main_v81, main_v82, main_v83, main_v84, main_v85, main_v86, main_v87, main_v88, main_v89, main_v90, main_v91, main_v92, main_v93, main_v94, main_v95, main_v96, main_v97, main_v98, main_v99, main_v100, main_cst_8, main_v101, main_v102, main_cst_9, main_call3_v0, main_call3_v1, main_v103, main_cst_10, main_v104, main_cst_11, main_v105, main_v106, main_v107, main_v108, main_v109, main_cst_12, main_v110, main_v111, main_v112, main_v113, main_v114, main_v115]

set_option maxHeartbeats 8000000 in
set_option maxRecDepth 8192 in
/-- Every operation of the second segment writes one of them. -/
theorem hWB : (opsB (F := Ideal)).Forall fun op => op.writes ⊆ ((WB).map (Proc.devRef (τ := τ) .tc)).toFinset := by
  unfold opsB
  exact ⟨writes_sub_of_mem (y := main_v33) rfl (by decide),
    writes_sub_of_mem (y := main_v34) rfl (by decide),
    writes_sub_of_mem (y := main_v35) rfl (by decide),
    writes_sub_of_mem (y := main_v36) rfl (by decide),
    writes_sub_of_mem (y := main_v37) rfl (by decide),
    writes_sub_of_mem (y := main_v38) rfl (by decide),
    writes_sub_of_mem (y := main_v39) rfl (by decide),
    writes_sub_of_mem (y := main_v40) rfl (by decide),
    writes_sub_of_mem (y := main_v41) rfl (by decide),
    writes_sub_of_mem (y := main_v42) rfl (by decide),
    writes_sub_of_mem (y := main_v43) rfl (by decide),
    writes_sub_of_mem (y := main_v44) rfl (by decide),
    writes_sub_of_mem (y := main_v45) rfl (by decide),
    writes_sub_of_mem (y := main_v46) rfl (by decide),
    writes_sub_of_mem (y := main_v47) rfl (by decide),
    writes_sub_of_mem (y := main_v48) rfl (by decide),
    writes_sub_of_mem (y := main_v49) rfl (by decide),
    writes_sub_of_mem (y := main_v50) rfl (by decide),
    writes_sub_of_mem (y := main_v51) rfl (by decide),
    writes_sub_of_mem (y := main_v52) rfl (by decide),
    writes_sub_of_mem (y := main_v53) rfl (by decide),
    writes_sub_of_mem (y := main_v54) rfl (by decide),
    writes_sub_of_mem (y := main_v55) rfl (by decide),
    writes_sub_of_mem (y := main_v56) rfl (by decide),
    writes_sub_of_mem (y := main_v57) rfl (by decide),
    writes_sub_of_mem (y := main_v58) rfl (by decide),
    writes_sub_of_mem (y := main_v59) rfl (by decide),
    writes_sub_of_mem (y := main_v60) rfl (by decide),
    writes_sub_of_mem (y := main_v61) rfl (by decide),
    writes_sub_of_mem (y := main_v62) rfl (by decide),
    writes_sub_of_mem (y := main_v63) rfl (by decide),
    writes_sub_of_mem (y := main_v64) rfl (by decide),
    writes_sub_of_mem (y := main_v65) rfl (by decide),
    writes_sub_of_mem (y := main_v66) rfl (by decide),
    writes_sub_of_mem (y := main_v67) rfl (by decide),
    writes_sub_of_mem (y := main_v68) rfl (by decide),
    writes_sub_of_mem (y := main_v69) rfl (by decide),
    writes_sub_of_mem (y := main_v70) rfl (by decide),
    writes_sub_of_mem (y := main_v71) rfl (by decide),
    writes_sub_of_mem (y := main_v72) rfl (by decide),
    writes_sub_of_mem (y := main_v73) rfl (by decide),
    writes_sub_of_mem (y := main_v74) rfl (by decide),
    writes_sub_of_mem (y := main_v75) rfl (by decide),
    writes_sub_of_mem (y := main_v76) rfl (by decide),
    writes_sub_of_mem (y := main_v77) rfl (by decide),
    writes_sub_of_mem (y := main_v78) rfl (by decide),
    writes_sub_of_mem (y := main_v79) rfl (by decide),
    writes_sub_of_mem (y := main_v80) rfl (by decide),
    writes_sub_of_mem (y := main_v81) rfl (by decide),
    writes_sub_of_mem (y := main_v82) rfl (by decide),
    writes_sub_of_mem (y := main_v83) rfl (by decide),
    writes_sub_of_mem (y := main_v84) rfl (by decide),
    writes_sub_of_mem (y := main_v85) rfl (by decide),
    writes_sub_of_mem (y := main_v86) rfl (by decide),
    writes_sub_of_mem (y := main_v87) rfl (by decide),
    writes_sub_of_mem (y := main_v88) rfl (by decide),
    writes_sub_of_mem (y := main_v89) rfl (by decide),
    writes_sub_of_mem (y := main_v90) rfl (by decide),
    writes_sub_of_mem (y := main_v91) rfl (by decide),
    writes_sub_of_mem (y := main_v92) rfl (by decide),
    writes_sub_of_mem (y := main_v93) rfl (by decide),
    writes_sub_of_mem (y := main_v94) rfl (by decide),
    writes_sub_of_mem (y := main_v95) rfl (by decide),
    writes_sub_of_mem (y := main_v96) rfl (by decide),
    writes_sub_of_mem (y := main_v97) rfl (by decide),
    writes_sub_of_mem (y := main_v98) rfl (by decide),
    writes_sub_of_mem (y := main_v99) rfl (by decide),
    writes_sub_of_mem (y := main_v100) rfl (by decide),
    writes_sub_of_mem (y := main_cst_8) rfl (by decide),
    writes_sub_of_mem (y := main_v101) rfl (by decide),
    writes_sub_of_mem (y := main_v102) rfl (by decide),
    writes_sub_of_mem (y := main_cst_9) rfl (by decide),
    writes_sub_of_mem (y := main_call3_v0) rfl (by decide),
    writes_sub_of_mem (y := main_call3_v1) rfl (by decide),
    writes_sub_of_mem (y := main_v103) rfl (by decide),
    writes_sub_of_mem (y := main_cst_10) rfl (by decide),
    writes_sub_of_mem (y := main_v104) rfl (by decide),
    writes_sub_of_mem (y := main_cst_11) rfl (by decide),
    writes_sub_of_mem (y := main_v105) rfl (by decide),
    writes_sub_of_mem (y := main_v106) rfl (by decide),
    writes_sub_of_mem (y := main_v107) rfl (by decide),
    writes_sub_of_mem (y := main_v108) rfl (by decide),
    writes_sub_of_mem (y := main_v109) rfl (by decide),
    writes_sub_of_mem (y := main_cst_12) rfl (by decide),
    writes_sub_of_mem (y := main_v110) rfl (by decide),
    writes_sub_of_mem (y := main_v111) rfl (by decide),
    writes_sub_of_mem (y := main_v112) rfl (by decide),
    writes_sub_of_mem (y := main_v113) rfl (by decide),
    writes_sub_of_mem (y := main_v114) rfl (by decide),
    writes_sub_of_mem (y := main_v115) rfl (by decide)⟩

/-- The second segment leaves every other buffer as it was. -/
theorem keepB (V : Valuation τ sig (Elt Ideal)) {r : Ref sig .tc} (hr : r ∉ WB) :
    after (opsB (F := Ideal)) V (Proc.devRef .tc r) = V (Proc.devRef .tc r) :=
  after_of_writes_sub _ V hWB hr
/-- The operations from the threshold of the attention output to the first residual sum. -/
def opsC : List (HloOp τ sig (Elt F)) :=
  [
    unary main_v115 main_v116 (Host.absf : (⟨S1x1x4096, .f32⟩ : BufTy).Contents (Elt F) → (⟨S1x1x4096, .f32⟩ : BufTy).Contents (Elt F)),
    nullary main_cst_13 (constant S_ .f32 0x3D4CCCCD#32),
    unary main_cst_13 main_v117 (broadcastInDim S1x1x4096 ![] bcast_S_S1x1x4096 : (⟨S_, .f32⟩ : BufTy).Contents (Elt F) → (⟨S1x1x4096, .f32⟩ : BufTy).Contents (Elt F)),
    binary main_v116 main_v117 main_v118 (cmpf .ogt : (⟨S1x1x4096, .f32⟩ : BufTy).Contents (Elt F) → (⟨S1x1x4096, .f32⟩ : BufTy).Contents (Elt F) → (⟨S1x1x4096, .i1⟩ : BufTy).Contents (Elt F)),
    nullary main_cst_14 (constant S_ .f32 0x00000000#32),
    TRef.unary (TRef.of (T := ⟨S_, .f32⟩) main_cst_14) (TRef.of (T := ⟨S1x1x4096, .f32⟩) main_call4_v0) (broadcastInDim S1x1x4096 ![] bcast_S_S1x1x4096),
    TRef.ternary (TRef.of (T := ⟨S1x1x4096, .i1⟩) main_v118) (TRef.of (T := ⟨S1x1x4096, .f32⟩) main_v115) (TRef.of (T := ⟨S1x1x4096, .f32⟩) main_call4_v0) (TRef.of (T := ⟨S1x1x4096, .f32⟩) main_v119) select,
    binary main_v119 main_arg3 main_v120 ((fun l r => Host.dotGeneral dot_S1x1x4096_S4096x4096_S1x1x4096_2_1_01_0_n_n none l r) : (⟨S1x1x4096, .f32⟩ : BufTy).Contents (Elt F) → (⟨S4096x4096, .f32⟩ : BufTy).Contents (Elt F) → (⟨S1x1x4096, .f32⟩ : BufTy).Contents (Elt F)),
    binary main_arg0 main_v120 main_v121 (addf : (⟨S1x1x4096, .f32⟩ : BufTy).Contents (Elt F) → (⟨S1x1x4096, .f32⟩ : BufTy).Contents (Elt F) → (⟨S1x1x4096, .f32⟩ : BufTy).Contents (Elt F)) ]

set_option maxHeartbeats 8000000 in
/-- The third segment: the first residual sum, from the attention output and two arguments. -/
theorem segC (V : Valuation τ sig (Elt Ideal)) (x0 : (⟨S1x1x4096, .f32⟩ : BufTy).Contents (Elt Ideal)) (x1 : (⟨S1x64x2, .f32⟩ : BufTy).Contents (Elt Ideal)) (x2 : (⟨S12288x4096, .f32⟩ : BufTy).Contents (Elt Ideal)) (x3 : (⟨S4096x4096, .f32⟩ : BufTy).Contents (Elt Ideal)) (x7 : (⟨S4096, .f32⟩ : BufTy).Contents (Elt Ideal)) (x9 : (⟨S1x1x1x1, .i1⟩ : BufTy).Contents (Elt Ideal))
    (h115 : V (Proc.devRef (τ := τ) .tc main_v115) = ReadP.val_main_v115 (F := Ideal) x0 x1 x2 x7 x9)
    (h0 : V (Proc.devRef (τ := τ) .tc main_arg0) = x0)
    (h3 : V (Proc.devRef (τ := τ) .tc main_arg3) = x3) :
    after (opsC (F := Ideal)) V (Proc.devRef (τ := τ) .tc main_v121) = ReadP.val_main_v121 (F := Ideal) x0 x1 x2 x3 x7 x9 := by
  dsimp only [opsC]
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
  rw [h115, h0, h3]
  simp only [ReadP.val_main_v116, ReadP.val_main_cst_13, ReadP.val_main_v117, ReadP.val_main_v118, ReadP.val_main_cst_14, ReadP.val_main_call4_v0, ReadP.val_main_v119, ReadP.val_main_v120, ReadP.val_main_v121]
  rfl

/-- The references the third segment writes. -/
def WC : List (Ref sig .tc) := [main_v116, main_cst_13, main_v117, main_v118, main_cst_14, main_call4_v0, main_v119, main_v120, main_v121]

set_option maxHeartbeats 8000000 in
set_option maxRecDepth 8192 in
/-- Every operation of the third segment writes one of them. -/
theorem hWC : (opsC (F := Ideal)).Forall fun op => op.writes ⊆ ((WC).map (Proc.devRef (τ := τ) .tc)).toFinset := by
  unfold opsC
  exact ⟨writes_sub_of_mem (y := main_v116) rfl (by decide),
    writes_sub_of_mem (y := main_cst_13) rfl (by decide),
    writes_sub_of_mem (y := main_v117) rfl (by decide),
    writes_sub_of_mem (y := main_v118) rfl (by decide),
    writes_sub_of_mem (y := main_cst_14) rfl (by decide),
    writes_sub_of_mem (y := main_call4_v0) rfl (by decide),
    writes_sub_of_mem (y := main_v119) rfl (by decide),
    writes_sub_of_mem (y := main_v120) rfl (by decide),
    writes_sub_of_mem (y := main_v121) rfl (by decide)⟩

/-- The third segment leaves every other buffer as it was. -/
theorem keepC (V : Valuation τ sig (Elt Ideal)) {r : Ref sig .tc} (hr : r ∉ WC) :
    after (opsC (F := Ideal)) V (Proc.devRef .tc r) = V (Proc.devRef .tc r) :=
  after_of_writes_sub _ V hWC hr
/-- The operations from the first residual sum to the gated unit. -/
def opsD : List (HloOp τ sig (Elt F)) :=
  [
    binary main_v121 main_v121 main_v122 (mulf : (⟨S1x1x4096, .f32⟩ : BufTy).Contents (Elt F) → (⟨S1x1x4096, .f32⟩ : BufTy).Contents (Elt F) → (⟨S1x1x4096, .f32⟩ : BufTy).Contents (Elt F)),
    nullary main_cst_15 (constant S_ .f32 0x00000000#32),
    binary main_v122 main_cst_15 main_v123 ((fun x v => Host.reduceAdd x v reducesTo_S1x1x4096_S1x1_d2 h_S_) : (⟨S1x1x4096, .f32⟩ : BufTy).Contents (Elt F) → (⟨S_, .f32⟩ : BufTy).Contents (Elt F) → (⟨S1x1, .f32⟩ : BufTy).Contents (Elt F)),
    unary main_v123 main_v124 (broadcastInDim S1x1x1 ![0, 1] bcast_S1x1_S1x1x1_0_1 : (⟨S1x1, .f32⟩ : BufTy).Contents (Elt F) → (⟨S1x1x1, .f32⟩ : BufTy).Contents (Elt F)),
    nullary main_cst_16 (constant S_ .f32 0x45800000#32),
    unary main_cst_16 main_v125 (broadcastInDim S1x1x1 ![] bcast_S_S1x1x1 : (⟨S_, .f32⟩ : BufTy).Contents (Elt F) → (⟨S1x1x1, .f32⟩ : BufTy).Contents (Elt F)),
    binary main_v124 main_v125 main_v126 (Host.divf : (⟨S1x1x1, .f32⟩ : BufTy).Contents (Elt F) → (⟨S1x1x1, .f32⟩ : BufTy).Contents (Elt F) → (⟨S1x1x1, .f32⟩ : BufTy).Contents (Elt F)),
    nullary main_cst_17 (constant S_ .f32 0x3727C5AC#32),
    unary main_cst_17 main_v127 (broadcastInDim S1x1x1 ![] bcast_S_S1x1x1 : (⟨S_, .f32⟩ : BufTy).Contents (Elt F) → (⟨S1x1x1, .f32⟩ : BufTy).Contents (Elt F)),
    binary main_v126 main_v127 main_v128 (addf : (⟨S1x1x1, .f32⟩ : BufTy).Contents (Elt F) → (⟨S1x1x1, .f32⟩ : BufTy).Contents (Elt F) → (⟨S1x1x1, .f32⟩ : BufTy).Contents (Elt F)),
    unary main_v128 main_v129 (Host.rsqrt : (⟨S1x1x1, .f32⟩ : BufTy).Contents (Elt F) → (⟨S1x1x1, .f32⟩ : BufTy).Contents (Elt F)),
    unary main_v129 main_v130 (broadcastInDim S1x1x4096 ![0, 1, 2] bcast_S1x1x1_S1x1x4096_0_1_2 : (⟨S1x1x1, .f32⟩ : BufTy).Contents (Elt F) → (⟨S1x1x4096, .f32⟩ : BufTy).Contents (Elt F)),
    binary main_v121 main_v130 main_v131 (mulf : (⟨S1x1x4096, .f32⟩ : BufTy).Contents (Elt F) → (⟨S1x1x4096, .f32⟩ : BufTy).Contents (Elt F) → (⟨S1x1x4096, .f32⟩ : BufTy).Contents (Elt F)),
    unary main_arg8 main_v132 (broadcastInDim S1x1x4096 ![2] bcast_S4096_S1x1x4096_2 : (⟨S4096, .f32⟩ : BufTy).Contents (Elt F) → (⟨S1x1x4096, .f32⟩ : BufTy).Contents (Elt F)),
    binary main_v131 main_v132 main_v133 (mulf : (⟨S1x1x4096, .f32⟩ : BufTy).Contents (Elt F) → (⟨S1x1x4096, .f32⟩ : BufTy).Contents (Elt F) → (⟨S1x1x4096, .f32⟩ : BufTy).Contents (Elt F)),
    unary main_v133 main_v134 (Host.absf : (⟨S1x1x4096, .f32⟩ : BufTy).Contents (Elt F) → (⟨S1x1x4096, .f32⟩ : BufTy).Contents (Elt F)),
    nullary main_cst_18 (constant S_ .f32 0x3D4CCCCD#32),
    unary main_cst_18 main_v135 (broadcastInDim S1x1x4096 ![] bcast_S_S1x1x4096 : (⟨S_, .f32⟩ : BufTy).Contents (Elt F) → (⟨S1x1x4096, .f32⟩ : BufTy).Contents (Elt F)),
    binary main_v134 main_v135 main_v136 (cmpf .ogt : (⟨S1x1x4096, .f32⟩ : BufTy).Contents (Elt F) → (⟨S1x1x4096, .f32⟩ : BufTy).Contents (Elt F) → (⟨S1x1x4096, .i1⟩ : BufTy).Contents (Elt F)),
    nullary main_cst_19 (constant S_ .f32 0x00000000#32),
    TRef.unary (TRef.of (T := ⟨S_, .f32⟩) main_cst_19) (TRef.of (T := ⟨S1x1x4096, .f32⟩) main_call5_v0) (broadcastInDim S1x1x4096 ![] bcast_S_S1x1x4096),
    TRef.ternary (TRef.of (T := ⟨S1x1x4096, .i1⟩) main_v136) (TRef.of (T := ⟨S1x1x4096, .f32⟩) main_v133) (TRef.of (T := ⟨S1x1x4096, .f32⟩) main_call5_v0) (TRef.of (T := ⟨S1x1x4096, .f32⟩) main_v137) select,
    binary main_v137 main_arg4 main_v138 ((fun l r => Host.dotGeneral dot_S1x1x4096_S11008x4096_S1x1x11008_2_1_01_0_n_n none l r) : (⟨S1x1x4096, .f32⟩ : BufTy).Contents (Elt F) → (⟨S11008x4096, .f32⟩ : BufTy).Contents (Elt F) → (⟨S1x1x11008, .f32⟩ : BufTy).Contents (Elt F)),
    unary main_v133 main_v139 (Host.absf : (⟨S1x1x4096, .f32⟩ : BufTy).Contents (Elt F) → (⟨S1x1x4096, .f32⟩ : BufTy).Contents (Elt F)),
    nullary main_cst_20 (constant S_ .f32 0x3D4CCCCD#32),
    unary main_cst_20 main_v140 (broadcastInDim S1x1x4096 ![] bcast_S_S1x1x4096 : (⟨S_, .f32⟩ : BufTy).Contents (Elt F) → (⟨S1x1x4096, .f32⟩ : BufTy).Contents (Elt F)),
    binary main_v139 main_v140 main_v141 (cmpf .ogt : (⟨S1x1x4096, .f32⟩ : BufTy).Contents (Elt F) → (⟨S1x1x4096, .f32⟩ : BufTy).Contents (Elt F) → (⟨S1x1x4096, .i1⟩ : BufTy).Contents (Elt F)),
    nullary main_cst_21 (constant S_ .f32 0x00000000#32),
    TRef.unary (TRef.of (T := ⟨S_, .f32⟩) main_cst_21) (TRef.of (T := ⟨S1x1x4096, .f32⟩) main_call6_v0) (broadcastInDim S1x1x4096 ![] bcast_S_S1x1x4096),
    TRef.ternary (TRef.of (T := ⟨S1x1x4096, .i1⟩) main_v141) (TRef.of (T := ⟨S1x1x4096, .f32⟩) main_v133) (TRef.of (T := ⟨S1x1x4096, .f32⟩) main_call6_v0) (TRef.of (T := ⟨S1x1x4096, .f32⟩) main_v142) select,
    binary main_v142 main_arg6 main_v143 ((fun l r => Host.dotGeneral dot_S1x1x4096_S11008x4096_S1x1x11008_2_1_01_0_n_n none l r) : (⟨S1x1x4096, .f32⟩ : BufTy).Contents (Elt F) → (⟨S11008x4096, .f32⟩ : BufTy).Contents (Elt F) → (⟨S1x1x11008, .f32⟩ : BufTy).Contents (Elt F)),
    TRef.unary (TRef.of (T := ⟨S1x1x11008, .f32⟩) main_v138) (TRef.of (T := ⟨S1x1x11008, .f32⟩) main_call7_v0) Host.negf,
    TRef.unary (TRef.of (T := ⟨S1x1x11008, .f32⟩) main_call7_v0) (TRef.of (T := ⟨S1x1x11008, .f32⟩) main_call7_v1) Host.exp,
    TRef.nullary (TRef.of (T := ⟨S_, .f32⟩) main_call7_cst) (constant S_ .f32 0x3F800000#32),
    TRef.unary (TRef.of (T := ⟨S_, .f32⟩) main_call7_cst) (TRef.of (T := ⟨S1x1x11008, .f32⟩) main_call7_v2) (broadcastInDim S1x1x11008 ![] bcast_S_S1x1x11008),
    TRef.binary (TRef.of (T := ⟨S1x1x11008, .f32⟩) main_call7_v2) (TRef.of (T := ⟨S1x1x11008, .f32⟩) main_call7_v1) (TRef.of (T := ⟨S1x1x11008, .f32⟩) main_call7_v3) addf,
    TRef.nullary (TRef.of (T := ⟨S_, .f32⟩) main_call7_cst_0) (constant S_ .f32 0x3F800000#32),
    TRef.unary (TRef.of (T := ⟨S_, .f32⟩) main_call7_cst_0) (TRef.of (T := ⟨S1x1x11008, .f32⟩) main_call7_v4) (broadcastInDim S1x1x11008 ![] bcast_S_S1x1x11008),
    TRef.binary (TRef.of (T := ⟨S1x1x11008, .f32⟩) main_call7_v4) (TRef.of (T := ⟨S1x1x11008, .f32⟩) main_call7_v3) (TRef.of (T := ⟨S1x1x11008, .f32⟩) main_call7_v5) Host.divf,
    TRef.binary (TRef.of (T := ⟨S1x1x11008, .f32⟩) main_v138) (TRef.of (T := ⟨S1x1x11008, .f32⟩) main_call7_v5) (TRef.of (T := ⟨S1x1x11008, .f32⟩) main_v144) mulf,
    binary main_v144 main_v143 main_v145 (mulf : (⟨S1x1x11008, .f32⟩ : BufTy).Contents (Elt F) → (⟨S1x1x11008, .f32⟩ : BufTy).Contents (Elt F) → (⟨S1x1x11008, .f32⟩ : BufTy).Contents (Elt F)) ]

set_option maxHeartbeats 8000000 in
/-- The fourth segment: the gated unit, from the first residual sum and three arguments. -/
theorem segD (V : Valuation τ sig (Elt Ideal)) (x0 : (⟨S1x1x4096, .f32⟩ : BufTy).Contents (Elt Ideal)) (x1 : (⟨S1x64x2, .f32⟩ : BufTy).Contents (Elt Ideal)) (x2 : (⟨S12288x4096, .f32⟩ : BufTy).Contents (Elt Ideal)) (x3 : (⟨S4096x4096, .f32⟩ : BufTy).Contents (Elt Ideal)) (x4 : (⟨S11008x4096, .f32⟩ : BufTy).Contents (Elt Ideal)) (x6 : (⟨S11008x4096, .f32⟩ : BufTy).Contents (Elt Ideal)) (x7 : (⟨S4096, .f32⟩ : BufTy).Contents (Elt Ideal)) (x8 : (⟨S4096, .f32⟩ : BufTy).Contents (Elt Ideal)) (x9 : (⟨S1x1x1x1, .i1⟩ : BufTy).Contents (Elt Ideal))
    (h121 : V (Proc.devRef (τ := τ) .tc main_v121) = ReadP.val_main_v121 (F := Ideal) x0 x1 x2 x3 x7 x9)
    (h4 : V (Proc.devRef (τ := τ) .tc main_arg4) = x4)
    (h6 : V (Proc.devRef (τ := τ) .tc main_arg6) = x6)
    (h8 : V (Proc.devRef (τ := τ) .tc main_arg8) = x8) :
    after (opsD (F := Ideal)) V (Proc.devRef (τ := τ) .tc main_v145) = ReadP.val_main_v145 (F := Ideal) x0 x1 x2 x3 x4 x6 x7 x8 x9 := by
  dsimp only [opsD]
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
  rw [h121, h4, h6, h8]
  simp only [ReadP.val_main_v122, ReadP.val_main_cst_15, ReadP.val_main_v123, ReadP.val_main_v124, ReadP.val_main_cst_16, ReadP.val_main_v125, ReadP.val_main_v126, ReadP.val_main_cst_17, ReadP.val_main_v127, ReadP.val_main_v128, ReadP.val_main_v129, ReadP.val_main_v130, ReadP.val_main_v131, ReadP.val_main_v132, ReadP.val_main_v133, ReadP.val_main_v134, ReadP.val_main_cst_18, ReadP.val_main_v135, ReadP.val_main_v136, ReadP.val_main_cst_19, ReadP.val_main_call5_v0, ReadP.val_main_v137, ReadP.val_main_v138, ReadP.val_main_v139, ReadP.val_main_cst_20, ReadP.val_main_v140, ReadP.val_main_v141, ReadP.val_main_cst_21, ReadP.val_main_call6_v0, ReadP.val_main_v142, ReadP.val_main_v143, ReadP.val_main_call7_v0, ReadP.val_main_call7_v1, ReadP.val_main_call7_cst, ReadP.val_main_call7_v2, ReadP.val_main_call7_v3, ReadP.val_main_call7_cst_0, ReadP.val_main_call7_v4, ReadP.val_main_call7_v5, ReadP.val_main_v144, ReadP.val_main_v145]
  rfl

/-- The references the fourth segment writes. -/
def WD : List (Ref sig .tc) := [main_v122, main_cst_15, main_v123, main_v124, main_cst_16, main_v125, main_v126, main_cst_17, main_v127, main_v128, main_v129, main_v130, main_v131, main_v132, main_v133, main_v134, main_cst_18, main_v135, main_v136, main_cst_19, main_call5_v0, main_v137, main_v138, main_v139, main_cst_20, main_v140, main_v141, main_cst_21, main_call6_v0, main_v142, main_v143, main_call7_v0, main_call7_v1, main_call7_cst, main_call7_v2, main_call7_v3, main_call7_cst_0, main_call7_v4, main_call7_v5, main_v144, main_v145]

set_option maxHeartbeats 8000000 in
set_option maxRecDepth 8192 in
/-- Every operation of the fourth segment writes one of them. -/
theorem hWD : (opsD (F := Ideal)).Forall fun op => op.writes ⊆ ((WD).map (Proc.devRef (τ := τ) .tc)).toFinset := by
  unfold opsD
  exact ⟨writes_sub_of_mem (y := main_v122) rfl (by decide),
    writes_sub_of_mem (y := main_cst_15) rfl (by decide),
    writes_sub_of_mem (y := main_v123) rfl (by decide),
    writes_sub_of_mem (y := main_v124) rfl (by decide),
    writes_sub_of_mem (y := main_cst_16) rfl (by decide),
    writes_sub_of_mem (y := main_v125) rfl (by decide),
    writes_sub_of_mem (y := main_v126) rfl (by decide),
    writes_sub_of_mem (y := main_cst_17) rfl (by decide),
    writes_sub_of_mem (y := main_v127) rfl (by decide),
    writes_sub_of_mem (y := main_v128) rfl (by decide),
    writes_sub_of_mem (y := main_v129) rfl (by decide),
    writes_sub_of_mem (y := main_v130) rfl (by decide),
    writes_sub_of_mem (y := main_v131) rfl (by decide),
    writes_sub_of_mem (y := main_v132) rfl (by decide),
    writes_sub_of_mem (y := main_v133) rfl (by decide),
    writes_sub_of_mem (y := main_v134) rfl (by decide),
    writes_sub_of_mem (y := main_cst_18) rfl (by decide),
    writes_sub_of_mem (y := main_v135) rfl (by decide),
    writes_sub_of_mem (y := main_v136) rfl (by decide),
    writes_sub_of_mem (y := main_cst_19) rfl (by decide),
    writes_sub_of_mem (y := main_call5_v0) rfl (by decide),
    writes_sub_of_mem (y := main_v137) rfl (by decide),
    writes_sub_of_mem (y := main_v138) rfl (by decide),
    writes_sub_of_mem (y := main_v139) rfl (by decide),
    writes_sub_of_mem (y := main_cst_20) rfl (by decide),
    writes_sub_of_mem (y := main_v140) rfl (by decide),
    writes_sub_of_mem (y := main_v141) rfl (by decide),
    writes_sub_of_mem (y := main_cst_21) rfl (by decide),
    writes_sub_of_mem (y := main_call6_v0) rfl (by decide),
    writes_sub_of_mem (y := main_v142) rfl (by decide),
    writes_sub_of_mem (y := main_v143) rfl (by decide),
    writes_sub_of_mem (y := main_call7_v0) rfl (by decide),
    writes_sub_of_mem (y := main_call7_v1) rfl (by decide),
    writes_sub_of_mem (y := main_call7_cst) rfl (by decide),
    writes_sub_of_mem (y := main_call7_v2) rfl (by decide),
    writes_sub_of_mem (y := main_call7_v3) rfl (by decide),
    writes_sub_of_mem (y := main_call7_cst_0) rfl (by decide),
    writes_sub_of_mem (y := main_call7_v4) rfl (by decide),
    writes_sub_of_mem (y := main_call7_v5) rfl (by decide),
    writes_sub_of_mem (y := main_v144) rfl (by decide),
    writes_sub_of_mem (y := main_v145) rfl (by decide)⟩

/-- The fourth segment leaves every other buffer as it was. -/
theorem keepD (V : Valuation τ sig (Elt Ideal)) {r : Ref sig .tc} (hr : r ∉ WD) :
    after (opsD (F := Ideal)) V (Proc.devRef .tc r) = V (Proc.devRef .tc r) :=
  after_of_writes_sub _ V hWD hr
/-- The operations from the threshold of the gated unit to the second residual sum. -/
def opsE : List (HloOp τ sig (Elt F)) :=
  [
    unary main_v145 main_v146 (Host.absf : (⟨S1x1x11008, .f32⟩ : BufTy).Contents (Elt F) → (⟨S1x1x11008, .f32⟩ : BufTy).Contents (Elt F)),
    nullary main_cst_22 (constant S_ .f32 0x3D4CCCCD#32),
    unary main_cst_22 main_v147 (broadcastInDim S1x1x11008 ![] bcast_S_S1x1x11008 : (⟨S_, .f32⟩ : BufTy).Contents (Elt F) → (⟨S1x1x11008, .f32⟩ : BufTy).Contents (Elt F)),
    binary main_v146 main_v147 main_v148 (cmpf .ogt : (⟨S1x1x11008, .f32⟩ : BufTy).Contents (Elt F) → (⟨S1x1x11008, .f32⟩ : BufTy).Contents (Elt F) → (⟨S1x1x11008, .i1⟩ : BufTy).Contents (Elt F)),
    nullary main_cst_23 (constant S_ .f32 0x00000000#32),
    TRef.unary (TRef.of (T := ⟨S_, .f32⟩) main_cst_23) (TRef.of (T := ⟨S1x1x11008, .f32⟩) main_call8_v0) (broadcastInDim S1x1x11008 ![] bcast_S_S1x1x11008),
    TRef.ternary (TRef.of (T := ⟨S1x1x11008, .i1⟩) main_v148) (TRef.of (T := ⟨S1x1x11008, .f32⟩) main_v145) (TRef.of (T := ⟨S1x1x11008, .f32⟩) main_call8_v0) (TRef.of (T := ⟨S1x1x11008, .f32⟩) main_v149) select,
    binary main_v149 main_arg5 main_v150 ((fun l r => Host.dotGeneral dot_S1x1x11008_S4096x11008_S1x1x4096_2_1_01_0_n_n none l r) : (⟨S1x1x11008, .f32⟩ : BufTy).Contents (Elt F) → (⟨S4096x11008, .f32⟩ : BufTy).Contents (Elt F) → (⟨S1x1x4096, .f32⟩ : BufTy).Contents (Elt F)),
    binary main_v121 main_v150 main_v151 (addf : (⟨S1x1x4096, .f32⟩ : BufTy).Contents (Elt F) → (⟨S1x1x4096, .f32⟩ : BufTy).Contents (Elt F) → (⟨S1x1x4096, .f32⟩ : BufTy).Contents (Elt F)) ]

set_option maxHeartbeats 8000000 in
/-- The fifth segment: the second residual sum, from the first, the gated unit and one argument. -/
theorem segE (V : Valuation τ sig (Elt Ideal)) (x0 : (⟨S1x1x4096, .f32⟩ : BufTy).Contents (Elt Ideal)) (x1 : (⟨S1x64x2, .f32⟩ : BufTy).Contents (Elt Ideal)) (x2 : (⟨S12288x4096, .f32⟩ : BufTy).Contents (Elt Ideal)) (x3 : (⟨S4096x4096, .f32⟩ : BufTy).Contents (Elt Ideal)) (x4 : (⟨S11008x4096, .f32⟩ : BufTy).Contents (Elt Ideal)) (x5 : (⟨S4096x11008, .f32⟩ : BufTy).Contents (Elt Ideal)) (x6 : (⟨S11008x4096, .f32⟩ : BufTy).Contents (Elt Ideal)) (x7 : (⟨S4096, .f32⟩ : BufTy).Contents (Elt Ideal)) (x8 : (⟨S4096, .f32⟩ : BufTy).Contents (Elt Ideal)) (x9 : (⟨S1x1x1x1, .i1⟩ : BufTy).Contents (Elt Ideal))
    (h121 : V (Proc.devRef (τ := τ) .tc main_v121) = ReadP.val_main_v121 (F := Ideal) x0 x1 x2 x3 x7 x9)
    (h145 : V (Proc.devRef (τ := τ) .tc main_v145) = ReadP.val_main_v145 (F := Ideal) x0 x1 x2 x3 x4 x6 x7 x8 x9)
    (h5 : V (Proc.devRef (τ := τ) .tc main_arg5) = x5) :
    after (opsE (F := Ideal)) V (Proc.devRef (τ := τ) .tc main_v151) = ReadP.val_main_v151 (F := Ideal) x0 x1 x2 x3 x4 x5 x6 x7 x8 x9 := by
  dsimp only [opsE]
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
  rw [h121, h145, h5]
  simp only [ReadP.val_main_v146, ReadP.val_main_cst_22, ReadP.val_main_v147, ReadP.val_main_v148, ReadP.val_main_cst_23, ReadP.val_main_call8_v0, ReadP.val_main_v149, ReadP.val_main_v150, ReadP.val_main_v151]
  rfl

/-- The references the fifth segment writes. -/
def WE : List (Ref sig .tc) := [main_v146, main_cst_22, main_v147, main_v148, main_cst_23, main_call8_v0, main_v149, main_v150, main_v151]

set_option maxHeartbeats 8000000 in
set_option maxRecDepth 8192 in
/-- Every operation of the fifth segment writes one of them. -/
theorem hWE : (opsE (F := Ideal)).Forall fun op => op.writes ⊆ ((WE).map (Proc.devRef (τ := τ) .tc)).toFinset := by
  unfold opsE
  exact ⟨writes_sub_of_mem (y := main_v146) rfl (by decide),
    writes_sub_of_mem (y := main_cst_22) rfl (by decide),
    writes_sub_of_mem (y := main_v147) rfl (by decide),
    writes_sub_of_mem (y := main_v148) rfl (by decide),
    writes_sub_of_mem (y := main_cst_23) rfl (by decide),
    writes_sub_of_mem (y := main_call8_v0) rfl (by decide),
    writes_sub_of_mem (y := main_v149) rfl (by decide),
    writes_sub_of_mem (y := main_v150) rfl (by decide),
    writes_sub_of_mem (y := main_v151) rfl (by decide)⟩

/-- The fifth segment leaves every other buffer as it was. -/
theorem keepE (V : Valuation τ sig (Elt Ideal)) {r : Ref sig .tc} (hr : r ∉ WE) :
    after (opsE (F := Ideal)) V (Proc.devRef .tc r) = V (Proc.devRef .tc r) :=
  after_of_writes_sub _ V hWE hr

/-! ## The five segments chained -/

set_option maxRecDepth 8192 in
/-- The program's operations are the five segments in order. -/
theorem ops_split : (OpsP.ops (F := Ideal)) = (opsA (F := Ideal)) ++ ((opsB (F := Ideal)) ++ ((opsC (F := Ideal)) ++ ((opsD (F := Ideal)) ++ (opsE (F := Ideal))))) := rfl

set_option maxRecDepth 8192 in
/-- No operation allocates a buffer with contents of its own choosing. -/
theorem ops_fresh : (OpsP.ops (F := Ideal)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- A reference no segment writes keeps its contents through the whole program. -/
theorem keep_all (V : Valuation τ sig (Elt Ideal)) {r : Ref sig .tc}
    (hA : r ∉ WA) (hB : r ∉ WB) (hC : r ∉ WC) (hD : r ∉ WD) (hE : r ∉ WE) :
    after (OpsP.ops (F := Ideal)) V (Proc.devRef .tc r) = V (Proc.devRef .tc r) := by
  rw [ops_split, after_append, after_append, after_append, after_append, keepE _ hE, keepD _ hD, keepC _ hC, keepB _ hB,
    keepA _ hA]

/-- After the whole program the last buffer is the last stage function of the ten arguments as the program found them. -/
theorem result (V : Valuation τ sig (Elt Ideal)) :
    after (OpsP.ops (F := Ideal)) V (Proc.devRef (τ := τ) .tc main_v151)
      = ReadP.val_main_v151 (F := Ideal) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) := by
  rw [ops_split, after_append, after_append, after_append, after_append]
  have h115 := segB (after (opsA (F := Ideal)) V) (V (Proc.devRef (τ := τ) .tc main_arg0)) (V (Proc.devRef (τ := τ) .tc main_arg1)) (V (Proc.devRef (τ := τ) .tc main_arg2)) (V (Proc.devRef (τ := τ) .tc main_arg7)) (V (Proc.devRef (τ := τ) .tc main_arg9)) (segA20 V) (segA26 V) (segA32 V) (keepA V (r := main_arg1) (by decide)) (keepA V (r := main_arg9) (by decide))
  have h121 := segC (after (opsB (F := Ideal)) (after (opsA (F := Ideal)) V)) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg7)) (V (Proc.devRef (τ := τ) .tc main_arg9)) h115
    ((keepB (after (opsA (F := Ideal)) V) (r := main_arg0) (by decide)).trans (keepA V (r := main_arg0) (by decide))) ((keepB (after (opsA (F := Ideal)) V) (r := main_arg3) (by decide)).trans (keepA V (r := main_arg3) (by decide)))
  have h145 := segD (after (opsC (F := Ideal)) (after (opsB (F := Ideal)) (after (opsA (F := Ideal)) V))) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg6)) (V (Proc.devRef (τ := τ) .tc main_arg7)) (V (Proc.devRef (τ := τ) .tc main_arg8)) (V (Proc.devRef (τ := τ) .tc main_arg9)) h121
    ((keepC (after (opsB (F := Ideal)) (after (opsA (F := Ideal)) V)) (r := main_arg4) (by decide)).trans ((keepB (after (opsA (F := Ideal)) V) (r := main_arg4) (by decide)).trans (keepA V (r := main_arg4) (by decide))))
    ((keepC (after (opsB (F := Ideal)) (after (opsA (F := Ideal)) V)) (r := main_arg6) (by decide)).trans ((keepB (after (opsA (F := Ideal)) V) (r := main_arg6) (by decide)).trans (keepA V (r := main_arg6) (by decide))))
    ((keepC (after (opsB (F := Ideal)) (after (opsA (F := Ideal)) V)) (r := main_arg8) (by decide)).trans ((keepB (after (opsA (F := Ideal)) V) (r := main_arg8) (by decide)).trans (keepA V (r := main_arg8) (by decide))))
  exact segE (after (opsD (F := Ideal)) (after (opsC (F := Ideal)) (after (opsB (F := Ideal)) (after (opsA (F := Ideal)) V)))) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) ((keepD (after (opsC (F := Ideal)) (after (opsB (F := Ideal)) (after (opsA (F := Ideal)) V))) (r := main_v121) (by decide)).trans h121) h145
    ((keepD (after (opsC (F := Ideal)) (after (opsB (F := Ideal)) (after (opsA (F := Ideal)) V))) (r := main_arg5) (by decide)).trans ((keepC (after (opsB (F := Ideal)) (after (opsA (F := Ideal)) V)) (r := main_arg5) (by decide)).trans ((keepB (after (opsA (F := Ideal)) V) (r := main_arg5) (by decide)).trans (keepA V (r := main_arg5) (by decide)))))

/-! ## The run -/

/-- On every device, from any memory with zero counters: every weakly fair execution of the program terminates with
    the last buffer at the last stage function of the arguments, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v151)
          = ReadP.val_main_v151 (F := Ideal) (m ((c.tc : Thread nD τ).loc main_arg0))
              (m ((c.tc : Thread nD τ).loc main_arg1))
              (m ((c.tc : Thread nD τ).loc main_arg2))
              (m ((c.tc : Thread nD τ).loc main_arg3))
              (m ((c.tc : Thread nD τ).loc main_arg4))
              (m ((c.tc : Thread nD τ).loc main_arg5))
              (m ((c.tc : Thread nD τ).loc main_arg6))
              (m ((c.tc : Thread nD τ).loc main_arg7))
              (m ((c.tc : Thread nD τ).loc main_arg8))
              (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v151).trans (result (launchContents m c)),
      (h c main_arg0).trans (keep_all (launchContents m c) (by decide) (by decide) (by decide) (by decide) (by decide)),
      (h c main_arg1).trans (keep_all (launchContents m c) (by decide) (by decide) (by decide) (by decide) (by decide)),
      (h c main_arg2).trans (keep_all (launchContents m c) (by decide) (by decide) (by decide) (by decide) (by decide)),
      (h c main_arg3).trans (keep_all (launchContents m c) (by decide) (by decide) (by decide) (by decide) (by decide)),
      (h c main_arg4).trans (keep_all (launchContents m c) (by decide) (by decide) (by decide) (by decide) (by decide)),
      (h c main_arg5).trans (keep_all (launchContents m c) (by decide) (by decide) (by decide) (by decide) (by decide)),
      (h c main_arg6).trans (keep_all (launchContents m c) (by decide) (by decide) (by decide) (by decide) (by decide)),
      (h c main_arg7).trans (keep_all (launchContents m c) (by decide) (by decide) (by decide) (by decide) (by decide)),
      (h c main_arg8).trans (keep_all (launchContents m c) (by decide) (by decide) (by decide) (by decide) (by decide)),
      (h c main_arg9).trans (keep_all (launchContents m c) (by decide) (by decide) (by decide) (by decide) (by decide))⟩)
    (run_seq OpsP.scopedRefs_eq OpsP.scopedSems_eq defs main (fun _ => OpsP.ops) OpsP.main_eq (fun _ => OpsP.ops_sub) m ρ
      (fun _ => List.forall_iff_forall_mem.mp ops_fresh))

end Cert.ReferenceIdeal.RunS

end
-- ==== Proof.lean ====
/-
  One decode step of a transformer block on a single token: four kernel launches (a fused query/key/value projection
  of the thresholded RMS-normalized input; the output projection with its residual; the gated unit silu(gate) · up of
  the thresholded normalized sum; the down projection with its residual) among host operations (the rotary rotation,
  the one-position attention), against the plain array program of the same step.

  The three frames are the generated frame certificates for the two kernel programs and, for the array program, its
  run with the result dropped. The idealization rewrote no operation, so there is nothing to preserve beyond the
  program's own text. Over the extended reals both programs end with the same array: each launch's result is one
  whole-array function of what it finds (a column of a projection depends on one row of the weights, so the grid's
  blocks tile it); the host operations between the first two launches are the same in both programs; and the
  remaining differences — one fused projection sliced in three against three projections of three slices, a row
  against a 1×1×n array, the residual added on the other side — are reindexings and the commutativity of addition.
-/
import proofs.«136584_j38809324486825_2_alg».proof.Defs
import proofs.«136584_j38809324486825_2_alg».proof.Proof.Gen.Kernel
import proofs.«136584_j38809324486825_2_alg».proof.Proof.Gen.Kernel.Skeleton
import proofs.«136584_j38809324486825_2_alg».proof.Proof.Gen.Kernel.Launch
import proofs.«136584_j38809324486825_2_alg».proof.Proof.Gen.Kernel.Points
import proofs.«136584_j38809324486825_2_alg».proof.Proof.Gen.Kernel.Frame
import proofs.«136584_j38809324486825_2_alg».proof.Proof.Gen.KernelIdeal
import proofs.«136584_j38809324486825_2_alg».proof.Proof.Gen.KernelIdeal.Skeleton
import proofs.«136584_j38809324486825_2_alg».proof.Proof.Gen.KernelIdeal.Launch
import proofs.«136584_j38809324486825_2_alg».proof.Proof.Gen.KernelIdeal.Points
import proofs.«136584_j38809324486825_2_alg».proof.Proof.Gen.KernelIdeal.Frame
import proofs.«136584_j38809324486825_2_alg».proof.Proof.Gen.ReferenceIdeal
import proofs.«136584_j38809324486825_2_alg».proof.Proof.Gen.Pre_finite_inputs
import proofs.«136584_j38809324486825_2_alg».proof.Proof.KRun
import proofs.«136584_j38809324486825_2_alg».proof.Proof.KernelResult
import proofs.«136584_j38809324486825_2_alg».proof.Proof.RefRunS
import Idealize.ShloMosaic.Adequacy
import Idealize.ShloMosaic.Init

noncomputable section

namespace Cert.Proof

open Idealize.ShloMosaic Idealize.SL.Sem

/-- The word-level kernel program terminates, faults nowhere and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the idealized array program: its run, with the result dropped. -/
theorem frame_referenceIdeal : Cert.frame_ReferenceIdeal := fun m ρ _ =>
  (θ_run Cert.ReferenceIdeal.defs _ _).mono (fun _ h c => (h c).2) (Cert.ReferenceIdeal.RunS.run m ρ)

/-- The idealization rewrote no operation. -/
theorem preserves : Cert.preserves_Kernel_KernelIdeal := trivial

/-- From memories that agree on the arguments both idealized programs end with the same result array: the kernel
    program's result buffer holds the array program's final stage of the arguments. -/
theorem algebraic : Cert.algebraic_KernelIdeal_ReferenceIdeal := by
  intro m ρ m' ρ' _ hagree
  refine ⟨fun c => Cert.KernelIdeal.Gen.W9 m ρ c (Proc.devRef .tc Cert.KernelIdeal.main_v97),
    Cert.KernelIdeal.KRun.run_result (F := Ideal) m ρ, ?_⟩
  refine (θ_run Cert.ReferenceIdeal.defs _ _).mono (fun _ h c => ⟨(h c).1.trans ?_, (h c).2⟩)
    (Cert.ReferenceIdeal.RunS.run m' ρ')
  obtain ⟨a0, a1, a2, a3, a4, a5, a6, a7, a8, a9⟩ := hagree c
  rw [a0, a1, a2, a3, a4, a5, a6, a7, a8, a9]
  exact (Cert.KernelIdeal.KResult.result_eq m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
